-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg7 : FVec F S64 .f32) (main_arg13 : FVec F S64 .f32) (main_arg19 : FVec F S32 .f32) (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  let main_cst_40 : FVec F S_ .f32 := constant S_ .f32 0x00000000#32
  let main_v104 : FVec F S64 .f32 := broadcastInDim S64 ![] bcast_S_S64 main_cst_40
  let main_v105 : IVec S64 1 := cmpf .oge main_arg7 main_v104
  let main_c_41 : IVec S_ 1 := constantI S_ 1 1#1
  let main_v106 : IVec S_ 1 := (fun x v => Host.reduce IntOp.andi x v reducesTo_S64_S_d0 h_S_) main_v105 main_c_41
  let main_v107 : IVec S_ 1 := andi main_v103 main_v106
  let main_cst_42 : FVec F S_ .f32 := constant S_ .f32 0x00000000#32
  let main_v108 : FVec F S64 .f32 := broadcastInDim S64 ![] bcast_S_S64 main_cst_42
  let main_v109 : IVec S64 1 := cmpf .oge main_arg13 main_v108
  let main_c_43 : IVec S_ 1 := constantI S_ 1 1#1
  let main_v110 : IVec S_ 1 := (fun x v => Host.reduce IntOp.andi x v reducesTo_S64_S_d0 h_S_) main_v109 main_c_43
  let main_v111 : IVec S_ 1 := andi main_v107 main_v110
  let main_cst_44 : FVec F S_ .f32 := constant S_ .f32 0x00000000#32
  let main_v112 : FVec F S32 .f32 := broadcastInDim S32 ![] bcast_S_S32 main_cst_44
  let main_v113 : IVec S32 1 := cmpf .oge main_arg19 main_v112
  let main_c_45 : IVec S_ 1 := constantI S_ 1 1#1
  let main_v114 : IVec S_ 1 := (fun x v => Host.reduce IntOp.andi x v reducesTo_S32_S_d0 h_S_) main_v113 main_c_45
  let main_v115 : IVec S_ 1 := andi main_v111 main_v114
  main_v115

def fn_part5 {F : FTy → Type} [FloatOps F] (main_arg7 : FVec F S64 .f32) (main_arg13 : FVec F S64 .f32) (main_arg19 : FVec F S32 .f32) (main_arg20 : FVec F S32x2 .f32) (main_arg21 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x2 .f32 := Host.absf main_arg20
  let main_cst_36 : FVec F S_ .f32 := constant S_ .f32 0x7F800000#32
  let main_v95 : FVec F S32x2 .f32 := broadcastInDim S32x2 ![] bcast_S_S32x2 main_cst_36
  let main_v96 : IVec S32x2 1 := cmpf .olt main_v94 main_v95
  let main_c_37 : IVec S_ 1 := constantI S_ 1 1#1
  let main_v97 : IVec S_ 1 := (fun x v => Host.reduce IntOp.andi x v reducesTo_S32x2_S_d0_1 h_S_) main_v96 main_c_37
  let main_v98 : IVec S_ 1 := andi main_v93 main_v97
  let main_v99 : FVec F S2 .f32 := Host.absf main_arg21
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_arg7 main_arg13 main_arg19 main_v98 main_v101 main_c_39

def fn_part4 {F : FTy → Type} [FloatOps F] (main_arg7 : FVec F S64 .f32) (main_arg13 : FVec F S64 .f32) (main_arg15 : FVec F S32 .f32) (main_arg16 : FVec F S32 .f32) (main_arg17 : FVec F S32 .f32) (main_arg18 : FVec F S32 .f32) (main_arg19 : FVec F S32 .f32) (main_arg20 : FVec F S32x2 .f32) (main_arg21 : FVec F S2 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg7 main_arg13 main_arg19 main_arg20 main_arg21 main_v83 main_v84 main_cst_32

def fn_part3 {F : FTy → Type} [FloatOps F] (main_arg7 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32 .f32) (main_arg19 : FVec F S32 .f32) (main_arg20 : FVec F S32x2 .f32) (main_arg21 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg7 main_arg13 main_arg15 main_arg16 main_arg17 main_arg18 main_arg19 main_arg20 main_arg21 main_v63 main_v67

def fn_part2 {F : FTy → Type} [FloatOps F] (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32 .f32) (main_arg19 : FVec F S32 .f32) (main_arg20 : FVec F S32x2 .f32) (main_arg21 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg7 main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32 .f32) (main_arg19 : FVec F S32 .f32) (main_arg20 : FVec F S32x2 .f32) (main_arg21 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x8 .f32) (main_arg1 : IVec S2x1600000 32) (main_arg2 : FVec F S8x64 .f32) (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32 .f32) (main_arg19 : FVec F S32 .f32) (main_arg20 : FVec F S32x2 .f32) (main_arg21 : FVec F S2 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg2
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x8 : Shape := ⟨2, ![5000, 8]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S1x2 : Shape := ⟨2, ![1, 2]⟩
abbrev S100000x2 : Shape := ⟨2, ![100000, 2]⟩
abbrev S5000x2 : Shape := ⟨2, ![5000, 2]⟩
abbrev S5000 : Shape := ⟨1, ![5000]⟩
abbrev S5000x1 : Shape := ⟨2, ![5000, 1]⟩

abbrev nBuf : Space → Nat
  | .hbm => 139
  | .vmem => 48
  | .smem => 0
  | _ => 0

abbrev hbmTy0_0 (i : Nat) : BufTy := match i % 128 with
  | 0 => ⟨S100000x8, .f32⟩
  | 1 => ⟨S2x1600000, .i32⟩
  | 2 => ⟨S8x64, .f32⟩
  | 3 => ⟨S64, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64, .f32⟩
  | 13 => ⟨S64, .f32⟩
  | 14 => ⟨S64x32, .f32⟩
  | 15 => ⟨S32, .f32⟩
  | 16 => ⟨S32, .f32⟩
  | 17 => ⟨S32, .f32⟩
  | 18 => ⟨S32, .f32⟩
  | 19 => ⟨S32, .f32⟩
  | 20 => ⟨S32x2, .f32⟩
  | 21 => ⟨S2, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S100000, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x1, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S100000x64, .f32⟩
  | 83 => ⟨S100000x64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S1600000x1, .f32⟩
  | 94 => ⟨S1600000x64, .f32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S100000x1, .f32⟩
  | 101 => ⟨S100000x64, .f32⟩
  | 102 => ⟨S100000x64, .f32⟩
  | 103 => ⟨S100000x64, .f32⟩
  | 104 => ⟨S1x64, .f32⟩
  | 105 => ⟨S1x64, .f32⟩
  | 106 => ⟨S1x64, .f32⟩
  | 107 => ⟨S1x64, .f32⟩
  | 108 => ⟨S1x64, .f32⟩
  | 109 => ⟨S100000x64, .f32⟩
  | 110 => ⟨S100000x32, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x32, .f32⟩
  | 120 => ⟨S1600000x1, .f32⟩
  | 121 => ⟨S1600000x32, .f32⟩
  | 122 => ⟨S1600000x32, .f32⟩
  | 123 => ⟨S_, .f32⟩
  | 124 => ⟨S100000x32, .f32⟩
  | 125 => ⟨S1600000x1, .i32⟩
  | 126 => ⟨S100000x32, .f32⟩
  | 127 => ⟨S100000x1, .f32⟩
  | _ => ⟨S100000x8, .f32⟩

abbrev hbmTy0_1 (i : Nat) : BufTy := match i % 128 with
  | 0 => ⟨S100000x32, .f32⟩
  | 1 => ⟨S100000x32, .f32⟩
  | 2 => ⟨S100000x32, .f32⟩
  | 3 => ⟨S1x32, .f32⟩
  | 4 => ⟨S1x32, .f32⟩
  | 5 => ⟨S1x32, .f32⟩
  | 6 => ⟨S1x32, .f32⟩
  | 7 => ⟨S1x32, .f32⟩
  | 8 => ⟨S100000x32, .f32⟩
  | 9 => ⟨S1x2, .f32⟩
  | 10 => ⟨S100000x2, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S32x2, .f32⟩
  | .local _ .vmem, ⟨45, _⟩ => ⟨S1x2, .f32⟩
  | .local _ .vmem, ⟨46, _⟩ => ⟨S5000x2, .f32⟩
  | .local _ .vmem, ⟨47, _⟩ => ⟨S5000x2, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_8 : Ref sig .tc := ⟨.hbm, 84, rfl⟩
abbrev main_v52 : Ref sig .tc := ⟨.hbm, 85, rfl⟩
abbrev main_v53 : Ref sig .tc := ⟨.hbm, 86, rfl⟩
abbrev main_c_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_11 : Ref sig .tc := ⟨.hbm, 111, rfl⟩
abbrev main_v76 : Ref sig .tc := ⟨.hbm, 112, rfl⟩
abbrev main_v77 : Ref sig .tc := ⟨.hbm, 113, rfl⟩
abbrev main_c_12 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_13 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S2_S1x2 : S2.ShapeCasts S1x2
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x8_S8x64_S5000x64_1_0_0_1_n_n_wf : DotDims.WF S5000x8 S8x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x32.size a ≤ S100000x32.size a
  hwx5_6 : ∀ i : grid5.Coords, EltTy.bits .f32 = 32 ∨ (Rect.block (s := S100000x32) S5000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x2.size a ≤ S32x2.size a
  hwx6_1 : ∀ i : grid6.Coords, EltTy.bits .f32 = 32 ∨ (Rect.block (s := S32x2) S32x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x2.size a ≤ S100000x2.size a
  hwx6_3 : ∀ i : grid6.Coords, EltTy.bits .f32 = 32 ∨ (Rect.block (s := S100000x2) S5000x2.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v92) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v98) S5000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v98) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg20) S32x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S5000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 264
  | .vmem => 0
  | .smem => 0
  | _ => 0

abbrev hbmTy0_0 (i : Nat) : BufTy := match i % 128 with
  | 0 => ⟨S100000x8, .f32⟩
  | 1 => ⟨S2x1600000, .i32⟩
  | 2 => ⟨S8x64, .f32⟩
  | 3 => ⟨S64, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64, .f32⟩
  | 13 => ⟨S64, .f32⟩
  | 14 => ⟨S64x32, .f32⟩
  | 15 => ⟨S32, .f32⟩
  | 16 => ⟨S32, .f32⟩
  | 17 => ⟨S32, .f32⟩
  | 18 => ⟨S32, .f32⟩
  | 19 => ⟨S32, .f32⟩
  | 20 => ⟨S32x2, .f32⟩
  | 21 => ⟨S2, .f32⟩
  | 22 => ⟨S1x1600000, .i32⟩
  | 23 => ⟨S1600000, .i32⟩
  | 24 => ⟨S1x1600000, .i32⟩
  | 25 => ⟨S1600000, .i32⟩
  | 26 => ⟨S100000x64, .f32⟩
  | 27 => ⟨S_, .f32⟩
  | 28 => ⟨S1600000, .f32⟩
  | 29 => ⟨S_, .f32⟩
  | 30 => ⟨S100000, .f32⟩
  | 31 => ⟨S1600000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x1, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .f32⟩
  | 101 => ⟨S1600000, .f32⟩
  | 102 => ⟨S_, .f32⟩
  | 103 => ⟨S100000, .f32⟩
  | 104 => ⟨S1600000x1, .i32⟩
  | 105 => ⟨S100000, .f32⟩
  | 106 => ⟨S_, .f32⟩
  | 107 => ⟨S100000, .f32⟩
  | 108 => ⟨S100000, .f32⟩
  | 109 => ⟨S100000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000, .f32⟩
  | _ => ⟨S100000x8, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x1, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S100000, .f32⟩
  | 18 => ⟨S100000x1, .f32⟩
  | 19 => ⟨S100000x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S64, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x32, .f32⟩
  | 45 => ⟨S_, .f32⟩
  | 46 => ⟨S1600000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S100000, .f32⟩
  | 53 => ⟨S100000, .f32⟩
  | 54 => ⟨S100000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000, .f32⟩
  | 73 => ⟨S1600000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x32, .f32⟩
  | 83 => ⟨S1600000x1, .f32⟩
  | 84 => ⟨S1600000x32, .f32⟩
  | 85 => ⟨S1600000x32, .f32⟩
  | 86 => ⟨S_, .f32⟩
  | 87 => ⟨S100000x32, .f32⟩
  | 88 => ⟨S1600000x1, .i32⟩
  | 89 => ⟨S100000x32, .f32⟩
  | 90 => ⟨S100000, .f32⟩
  | 91 => ⟨S100000x1, .f32⟩
  | 92 => ⟨S100000x32, .f32⟩
  | 93 => ⟨S100000x32, .f32⟩
  | 94 => ⟨S100000x32, .f32⟩
  | 95 => ⟨S1x32, .f32⟩
  | 96 => ⟨S100000x32, .f32⟩
  | 97 => ⟨S100000x32, .f32⟩
  | 98 => ⟨S1x32, .f32⟩
  | 99 => ⟨S100000x32, .f32⟩
  | 100 => ⟨S100000x32, .f32⟩
  | 101 => ⟨S_, .f32⟩
  | 102 => ⟨S32, .f32⟩
  | 103 => ⟨S32, .f32⟩
  | 104 => ⟨S32, .f32⟩
  | 105 => ⟨S1x32, .f32⟩
  | 106 => ⟨S100000x32, .f32⟩
  | 107 => ⟨S100000x32, .f32⟩
  | 108 => ⟨S1x32, .f32⟩
  | 109 => ⟨S100000x32, .f32⟩
  | 110 => ⟨S100000x32, .f32⟩
  | 111 => ⟨S1x32, .f32⟩
  | 112 => ⟨S100000x32, .f32⟩
  | 113 => ⟨S100000x32, .f32⟩
  | 114 => ⟨S_, .f32⟩
  | 115 => ⟨S100000x32, .f32⟩
  | 116 => ⟨S100000x32, .f32⟩
  | 117 => ⟨S100000x2, .f32⟩
  | 118 => ⟨S1x2, .f32⟩
  | 119 => ⟨S100000x2, .f32⟩
  | 120 => ⟨S100000x2, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x2, .f32⟩
  | _ => ⟨S100000x8, .f32⟩

abbrev hbmTy0_2 (i : Nat) : BufTy := match i % 128 with
  | 0 => ⟨S100000x2, .f32⟩
  | 1 => ⟨S100000x2, .f32⟩
  | 2 => ⟨S_, .f32⟩
  | 3 => ⟨S100000, .f32⟩
  | 4 => ⟨S100000x1, .f32⟩
  | 5 => ⟨S100000x1, .f32⟩
  | 6 => ⟨S100000x2, .f32⟩
  | 7 => ⟨S100000x2, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call0_cst : Ref sig .tc := ⟨.hbm, 96, rfl⟩
abbrev main_call0_v0 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_cst_10 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_12 : Ref sig .tc := ⟨.hbm, 110, rfl⟩
abbrev main_v72 : Ref sig .tc := ⟨.hbm, 111, rfl⟩
abbrev main_v73 : Ref sig .tc := ⟨.hbm, 112, rfl⟩
abbrev main_c_13 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_14 : Ref sig .tc := ⟨.hbm, 119, rfl⟩
abbrev main_v79 : Ref sig .tc := ⟨.hbm, 120, rfl⟩
abbrev main_v80 : Ref sig .tc := ⟨.hbm, 121, rfl⟩
abbrev main_c_15 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_16 : Ref sig .tc := ⟨.hbm, 129, rfl⟩
abbrev main_v87 : Ref sig .tc := ⟨.hbm, 130, rfl⟩
abbrev main_v88 : Ref sig .tc := ⟨.hbm, 131, rfl⟩
abbrev main_c_17 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_19 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_call1_cst : Ref sig .tc := ⟨.hbm, 169, rfl⟩
abbrev main_call1_v0 : Ref sig .tc := ⟨.hbm, 170, rfl⟩
abbrev main_v123 : Ref sig .tc := ⟨.hbm, 171, rfl⟩
abbrev main_v124 : Ref sig .tc := ⟨.hbm, 172, rfl⟩
abbrev main_cst_20 : Ref sig .tc := ⟨.hbm, 173, rfl⟩
abbrev main_v125 : Ref sig .tc := ⟨.hbm, 174, rfl⟩
abbrev main_cst_21 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_22 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_c_23 : Ref sig .tc := ⟨.hbm, 183, rfl⟩
abbrev main_v132 : Ref sig .tc := ⟨.hbm, 184, rfl⟩
abbrev main_v133 : Ref sig .tc := ⟨.hbm, 185, rfl⟩
abbrev main_c_24 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_c_25 : Ref sig .tc := ⟨.hbm, 192, rfl⟩
abbrev main_v139 : Ref sig .tc := ⟨.hbm, 193, rfl⟩
abbrev main_v140 : Ref sig .tc := ⟨.hbm, 194, rfl⟩
abbrev main_c_26 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_c_27 : Ref sig .tc := ⟨.hbm, 202, rfl⟩
abbrev main_v147 : Ref sig .tc := ⟨.hbm, 203, rfl⟩
abbrev main_v148 : Ref sig .tc := ⟨.hbm, 204, rfl⟩
abbrev main_c_28 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_29 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_30 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_call2_cst : Ref sig .tc := ⟨.hbm, 242, rfl⟩
abbrev main_call2_v0 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_call3_cst : Ref sig .tc := ⟨.hbm, 249, rfl⟩
abbrev main_call3_v0 : Ref sig .tc := ⟨.hbm, 250, rfl⟩
abbrev main_call3_cst_0 : Ref sig .tc := ⟨.hbm, 251, rfl⟩
abbrev main_call3_v1 : Ref sig .tc := ⟨.hbm, 252, rfl⟩
abbrev main_call3_v2 : Ref sig .tc := ⟨.hbm, 253, rfl⟩
abbrev main_call3_v3 : Ref sig .tc := ⟨.hbm, 254, rfl⟩
abbrev main_call3_v4 : Ref sig .tc := ⟨.hbm, 255, rfl⟩
abbrev main_call3_v5 : Ref sig .tc := ⟨.hbm, 256, rfl⟩
abbrev main_call3_v6 : Ref sig .tc := ⟨.hbm, 257, rfl⟩
abbrev main_call3_cst_1 : Ref sig .tc := ⟨.hbm, 258, rfl⟩
abbrev main_call3_v7 : Ref sig .tc := ⟨.hbm, 259, rfl⟩
abbrev main_call3_v8 : Ref sig .tc := ⟨.hbm, 260, rfl⟩
abbrev main_call3_v9 : Ref sig .tc := ⟨.hbm, 261, rfl⟩
abbrev main_call3_v10 : Ref sig .tc := ⟨.hbm, 262, rfl⟩
abbrev main_v188 : Ref sig .tc := ⟨.hbm, 263, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  dot_S100000x8_S8x64_S100000x64_1_0_0_1_n_n_wf : DotDims.WF S100000x8 S8x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x2_S100000x2_1_0_0_1_n_n_wf : DotDims.WF S100000x32 S32x2 S100000x2 [1] [0] [0] [1] [] []

variable [Facts₀]

def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.RefKept.lean ====
/-
  The reference program never writes its arguments.

  Each of the program's 242 operations writes exactly one buffer, and the 242 buffers written are the intermediate
  values, constants and results — none of them is one of the 22 arguments. So after any part of the program, run from
  any contents, a buffer that is not among the 242 holds what it held before; in particular every argument holds its
  launch contents after any initial part of the program and after the whole of it.
-/
import proofs.«153305_j4758823764428_1_alg».proof.Proof.RefOpsP
import Idealize.ShloMosaic.Lib.StableHlo.Run

noncomputable section

namespace Cert.ReferenceIdeal.RunH

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The buffers the program's operations write, in program order: operation `k` writes the `k`-th of them. -/
def written : List (Ref sig .tc) :=
  [
    main_v0, main_v1, main_v2, main_v3, main_v4, main_cst, main_v5, main_cst_0, main_v6, main_v7,
    main_v8, main_cst_1, main_v9, main_v10, main_v11, main_c, main_v12, main_v13, main_c_2, main_v14,
    main_v15, main_v16, main_v17, main_v18, main_c_3, main_v19, main_v20, main_c_4, main_v21, main_v22,
    main_v23, main_v24, main_v25, main_v26, main_c_5, main_v27, main_v28, main_c_6, main_v29, main_v30,
    main_v31, main_v32, main_v33, main_v34, main_v35, main_v36, main_cst_7, main_v37, main_v38, main_v39,
    main_v40, main_v41, main_v42, main_v43, main_v44, main_v45, main_v46, main_v47, main_v48, main_v49,
    main_v50, main_cst_8, main_v51, main_v52, main_v53, main_v54, main_v55, main_v56, main_v57, main_v58,
    main_v59, main_v60, main_v61, main_v62, main_call0_cst, main_call0_v0, main_v63, main_v64, main_cst_9, main_v65,
    main_cst_10, main_v66, main_v67, main_v68, main_cst_11, main_v69, main_v70, main_v71, main_c_12, main_v72,
    main_v73, main_c_13, main_v74, main_v75, main_v76, main_v77, main_v78, main_c_14, main_v79, main_v80,
    main_c_15, main_v81, main_v82, main_v83, main_v84, main_v85, main_v86, main_c_16, main_v87, main_v88,
    main_c_17, main_v89, main_v90, main_v91, main_v92, main_v93, main_v94, main_v95, main_v96, main_cst_18,
    main_v97, main_v98, main_v99, main_v100, main_v101, main_v102, main_v103, main_v104, main_v105, main_v106,
    main_v107, main_v108, main_v109, main_v110, main_cst_19, main_v111, main_v112, main_v113, main_v114, main_v115,
    main_v116, main_v117, main_v118, main_v119, main_v120, main_v121, main_v122, main_call1_cst, main_call1_v0, main_v123,
    main_v124, main_cst_20, main_v125, main_cst_21, main_v126, main_v127, main_v128, main_cst_22, main_v129, main_v130,
    main_v131, main_c_23, main_v132, main_v133, main_c_24, main_v134, main_v135, main_v136, main_v137, main_v138,
    main_c_25, main_v139, main_v140, main_c_26, main_v141, main_v142, main_v143, main_v144, main_v145, main_v146,
    main_c_27, main_v147, main_v148, main_c_28, main_v149, main_v150, main_v151, main_v152, main_v153, main_v154,
    main_v155, main_v156, main_cst_29, main_v157, main_v158, main_v159, main_v160, main_v161, main_v162, main_v163,
    main_v164, main_v165, main_v166, main_v167, main_v168, main_v169, main_v170, main_cst_30, main_v171, main_v172,
    main_v173, main_v174, main_v175, main_v176, main_v177, main_v178, main_v179, main_v180, main_v181, main_v182,
    main_call2_cst, main_call2_v0, main_v183, main_v184, main_v185, main_v186, main_v187, main_call3_cst, main_call3_v0, main_call3_cst_0,
    main_call3_v1, main_call3_v2, main_call3_v3, main_call3_v4, main_call3_v5, main_call3_v6, main_call3_cst_1, main_call3_v7, main_call3_v8, main_call3_v9,
    main_call3_v10, main_v188 ]

/-- An operation that writes one buffer of the list writes inside the list. -/
theorem sub_written {op : HloOp τ sig (Elt F)} {y : Ref sig .tc} (hw : op.writes = {Proc.devRef .tc y}) (hy : y ∈ written) :
    op.writes ⊆ (written.map (Proc.devRef (τ := τ) .tc)).toFinset := by
  rw [hw, Finset.singleton_subset_iff, List.mem_toFinset]
  exact List.mem_map.mpr ⟨y, hy, rfl⟩

set_option maxRecDepth 8192 in
/-- Every operation of the program writes inside the list. -/
theorem ops_writes : (ops : List (HloOp τ sig (Elt F))).Forall fun op =>
    op.writes ⊆ (written.map (Proc.devRef (τ := τ) .tc)).toFinset :=
  ⟨
    sub_written (unary_writes ..) (by decide), sub_written (reshape_writes ..) (by decide), sub_written (unary_writes ..) (by decide),
    sub_written (reshape_writes ..) (by decide), sub_written (binary_writes ..) (by decide), sub_written (nullary_writes ..) (by decide),
    sub_written (unary_writes ..) (by decide), sub_written (nullary_writes ..) (by decide), sub_written (unary_writes ..) (by decide),
    sub_written (unary_writes ..) (by decide), sub_written (ternary_writes ..) (by decide), sub_written (nullary_writes ..) (by decide),
    sub_written (unary_writes ..) (by decide), sub_written (binary_writes ..) (by decide), sub_written (unary_writes ..) (by decide),
    sub_written (nullary_writes ..) (by decide), sub_written (unary_writes ..) (by decide), sub_written (binary_writes ..) (by decide),
    sub_written (nullary_writes ..) (by decide), sub_written (unary_writes ..) (by decide), sub_written (binary_writes ..) (by decide),
    sub_written (ternary_writes ..) (by decide), sub_written (unary_writes ..) (by decide), sub_written (binary_writes ..) (by decide),
    sub_written (nullary_writes ..) (by decide), sub_written (unary_writes ..) (by decide), sub_written (binary_writes ..) (by decide),
    sub_written (nullary_writes ..) (by decide), sub_written (unary_writes ..) (by decide), sub_written (binary_writes ..) (by decide),
    sub_written (ternary_writes ..) (by decide), sub_written (unary_writes ..) (by decide), sub_written (binary_writes ..) (by decide),
    sub_written (binary_writes ..) (by decide), sub_written (nullary_writes ..) (by decide), sub_written (unary_writes ..) (by decide),
    sub_written (binary_writes ..) (by decide), sub_written (nullary_writes ..) (by decide), sub_written (unary_writes ..) (by decide),
    sub_written (binary_writes ..) (by decide), sub_written (ternary_writes ..) (by decide), sub_written (unary_writes ..) (by decide),
    sub_written (binary_writes ..) (by decide), sub_written (unary_writes ..) (by decide), sub_written (unary_writes ..) (by decide),
    sub_written (binary_writes ..) (by decide), sub_written (nullary_writes ..) (by decide), sub_written (unary_writes ..) (by decide),
    sub_written (unary_writes ..) (by decide), sub_written (ternary_writes ..) (by decide), sub_written (binary_writes ..) (by decide),
    sub_written (unary_writes ..) (by decide), sub_written (unary_writes ..) (by decide), sub_written (binary_writes ..) (by decide),
    sub_written (binary_writes ..) (by decide), sub_written (unary_writes ..) (by decide), sub_written (unary_writes ..) (by decide),
    sub_written (binary_writes ..) (by decide), sub_written (unary_writes ..) (by decide), sub_written (unary_writes ..) (by decide),
    sub_written (binary_writes ..) (by decide), sub_written (nullary_writes ..) (by decide), sub_written (unary_writes ..) (by decide),
    sub_written (binary_writes ..) (by decide), sub_written (unary_writes ..) (by decide), sub_written (unary_writes ..) (by decide),
    sub_written (unary_writes ..) (by decide), sub_written (binary_writes ..) (by decide), sub_written (unary_writes ..) (by decide),
    sub_written (unary_writes ..) (by decide), sub_written (binary_writes ..) (by decide), sub_written (unary_writes ..) (by decide),
    sub_written (unary_writes ..) (by decide), sub_written (binary_writes ..) (by decide), sub_written (nullary_writes ..) (by decide),
    sub_written (unary_writes ..) (by decide), sub_written (binary_writes ..) (by decide), sub_written (binary_writes ..) (by decide),
    sub_written (nullary_writes ..) (by decide), sub_written (unary_writes ..) (by decide), sub_written (nullary_writes ..) (by decide),
    sub_written (unary_writes ..) (by decide), sub_written (unary_writes ..) (by decide), sub_written (ternary_writes ..) (by decide),
    sub_written (nullary_writes ..) (by decide), sub_written (unary_writes ..) (by decide), sub_written (binary_writes ..) (by decide),
    sub_written (unary_writes ..) (by decide), sub_written (nullary_writes ..) (by decide), sub_written (unary_writes ..) (by decide),
    sub_written (binary_writes ..) (by decide), sub_written (nullary_writes ..) (by decide), sub_written (unary_writes ..) (by decide),
    sub_written (binary_writes ..) (by decide), sub_written (ternary_writes ..) (by decide), sub_written (unary_writes ..) (by decide),
    sub_written (binary_writes ..) (by decide), sub_written (nullary_writes ..) (by decide), sub_written (unary_writes ..) (by decide),
    sub_written (binary_writes ..) (by decide), sub_written (nullary_writes ..) (by decide), sub_written (unary_writes ..) (by decide),
    sub_written (binary_writes ..) (by decide), sub_written (ternary_writes ..) (by decide), sub_written (unary_writes ..) (by decide),
    sub_written (binary_writes ..) (by decide), sub_written (binary_writes ..) (by decide), sub_written (nullary_writes ..) (by decide),
    sub_written (unary_writes ..) (by decide), sub_written (binary_writes ..) (by decide), sub_written (nullary_writes ..) (by decide),
    sub_written (unary_writes ..) (by decide), sub_written (binary_writes ..) (by decide), sub_written (ternary_writes ..) (by decide),
    sub_written (unary_writes ..) (by decide), sub_written (binary_writes ..) (by decide), sub_written (unary_writes ..) (by decide),
    sub_written (unary_writes ..) (by decide), sub_written (binary_writes ..) (by decide), sub_written (nullary_writes ..) (by decide),
    sub_written (unary_writes ..) (by decide), sub_written (unary_writes ..) (by decide), sub_written (ternary_writes ..) (by decide),
    sub_written (binary_writes ..) (by decide), sub_written (unary_writes ..) (by decide), sub_written (unary_writes ..) (by decide),
    sub_written (binary_writes ..) (by decide), sub_written (binary_writes ..) (by decide), sub_written (unary_writes ..) (by decide),
    sub_written (unary_writes ..) (by decide), sub_written (binary_writes ..) (by decide), sub_written (unary_writes ..) (by decide),
    sub_written (unary_writes ..) (by decide), sub_written (binary_writes ..) (by decide), sub_written (nullary_writes ..) (by decide),
    sub_written (unary_writes ..) (by decide), sub_written (binary_writes ..) (by decide), sub_written (unary_writes ..) (by decide),
    sub_written (unary_writes ..) (by decide), sub_written (unary_writes ..) (by decide), sub_written (binary_writes ..) (by decide),
    sub_written (unary_writes ..) (by decide), sub_written (unary_writes ..) (by decide), sub_written (binary_writes ..) (by decide),
    sub_written (unary_writes ..) (by decide), sub_written (unary_writes ..) (by decide), sub_written (binary_writes ..) (by decide),
    sub_written (nullary_writes ..) (by decide), sub_written (unary_writes ..) (by decide), sub_written (binary_writes ..) (by decide),
    sub_written (binary_writes ..) (by decide), sub_written (nullary_writes ..) (by decide), sub_written (unary_writes ..) (by decide),
    sub_written (nullary_writes ..) (by decide), sub_written (unary_writes ..) (by decide), sub_written (unary_writes ..) (by decide),
    sub_written (ternary_writes ..) (by decide), sub_written (nullary_writes ..) (by decide), sub_written (unary_writes ..) (by decide),
    sub_written (binary_writes ..) (by decide), sub_written (unary_writes ..) (by decide), sub_written (nullary_writes ..) (by decide),
    sub_written (unary_writes ..) (by decide), sub_written (binary_writes ..) (by decide), sub_written (nullary_writes ..) (by decide),
    sub_written (unary_writes ..) (by decide), sub_written (binary_writes ..) (by decide), sub_written (ternary_writes ..) (by decide),
    sub_written (unary_writes ..) (by decide), sub_written (binary_writes ..) (by decide), sub_written (nullary_writes ..) (by decide),
    sub_written (unary_writes ..) (by decide), sub_written (binary_writes ..) (by decide), sub_written (nullary_writes ..) (by decide),
    sub_written (unary_writes ..) (by decide), sub_written (binary_writes ..) (by decide), sub_written (ternary_writes ..) (by decide),
    sub_written (unary_writes ..) (by decide), sub_written (binary_writes ..) (by decide), sub_written (binary_writes ..) (by decide),
    sub_written (nullary_writes ..) (by decide), sub_written (unary_writes ..) (by decide), sub_written (binary_writes ..) (by decide),
    sub_written (nullary_writes ..) (by decide), sub_written (unary_writes ..) (by decide), sub_written (binary_writes ..) (by decide),
    sub_written (ternary_writes ..) (by decide), sub_written (unary_writes ..) (by decide), sub_written (binary_writes ..) (by decide),
    sub_written (unary_writes ..) (by decide), sub_written (unary_writes ..) (by decide), sub_written (binary_writes ..) (by decide),
    sub_written (nullary_writes ..) (by decide), sub_written (unary_writes ..) (by decide), sub_written (unary_writes ..) (by decide),
    sub_written (ternary_writes ..) (by decide), sub_written (binary_writes ..) (by decide), sub_written (unary_writes ..) (by decide),
    sub_written (unary_writes ..) (by decide), sub_written (binary_writes ..) (by decide), sub_written (binary_writes ..) (by decide),
    sub_written (unary_writes ..) (by decide), sub_written (unary_writes ..) (by decide), sub_written (binary_writes ..) (by decide),
    sub_written (unary_writes ..) (by decide), sub_written (unary_writes ..) (by decide), sub_written (binary_writes ..) (by decide),
    sub_written (nullary_writes ..) (by decide), sub_written (unary_writes ..) (by decide), sub_written (binary_writes ..) (by decide),
    sub_written (unary_writes ..) (by decide), sub_written (unary_writes ..) (by decide), sub_written (unary_writes ..) (by decide),
    sub_written (binary_writes ..) (by decide), sub_written (unary_writes ..) (by decide), sub_written (unary_writes ..) (by decide),
    sub_written (binary_writes ..) (by decide), sub_written (unary_writes ..) (by decide), sub_written (unary_writes ..) (by decide),
    sub_written (binary_writes ..) (by decide), sub_written (nullary_writes ..) (by decide), sub_written (unary_writes ..) (by decide),
    sub_written (binary_writes ..) (by decide), sub_written (binary_writes ..) (by decide), sub_written (unary_writes ..) (by decide),
    sub_written (unary_writes ..) (by decide), sub_written (binary_writes ..) (by decide), sub_written (nullary_writes ..) (by decide),
    sub_written (binary_writes ..) (by decide), sub_written (nullary_writes ..) (by decide), sub_written (unary_writes ..) (by decide),
    sub_written (binary_writes ..) (by decide), sub_written (unary_writes ..) (by decide), sub_written (unary_writes ..) (by decide),
    sub_written (binary_writes ..) (by decide), sub_written (unary_writes ..) (by decide), sub_written (nullary_writes ..) (by decide),
    sub_written (binary_writes ..) (by decide), sub_written (unary_writes ..) (by decide), sub_written (unary_writes ..) (by decide),
    sub_written (unary_writes ..) (by decide), sub_written (binary_writes ..) (by decide) ⟩

/-- So does every operation of any list drawn from the program's. -/
theorem writes_of_mem (l : List (HloOp τ sig (Elt F))) (hl : ∀ op ∈ l, op ∈ (ops : List (HloOp τ sig (Elt F)))) :
    l.Forall fun op => op.writes ⊆ (written.map (Proc.devRef (τ := τ) .tc)).toFinset :=
  List.forall_iff_forall_mem.mpr fun op h => List.forall_iff_forall_mem.mp ops_writes op (hl op h)

/-- A buffer outside the list keeps its contents through any list of operations drawn from the program's. -/
theorem kept_of_mem (l : List (HloOp τ sig (Elt F))) (hl : ∀ op ∈ l, op ∈ (ops : List (HloOp τ sig (Elt F))))
    (V : Valuation τ sig (Elt F)) {r : Ref sig .tc} (hr : r ∉ written) :
    after l V (Proc.devRef .tc r) = V (Proc.devRef .tc r) :=
  after_of_writes_sub l V (writes_of_mem l hl) hr

/-- … through an initial part of the program, … -/
theorem kept_take (n : Nat) (V : Valuation τ sig (Elt F)) {r : Ref sig .tc} (hr : r ∉ written) :
    after (List.take n (ops (F := F))) V (Proc.devRef .tc r) = V (Proc.devRef .tc r) :=
  kept_of_mem _ (fun _ h => List.mem_of_mem_take h) V hr

/-- … through a final part, … -/
theorem kept_drop (n : Nat) (V : Valuation τ sig (Elt F)) {r : Ref sig .tc} (hr : r ∉ written) :
    after (List.drop n (ops (F := F))) V (Proc.devRef .tc r) = V (Proc.devRef .tc r) :=
  kept_of_mem _ (fun _ h => List.mem_of_mem_drop h) V hr

/-- … through a middle part, … -/
theorem kept_drop_take (a n : Nat) (V : Valuation τ sig (Elt F)) {r : Ref sig .tc} (hr : r ∉ written) :
    after (List.take n (List.drop a (ops (F := F)))) V (Proc.devRef .tc r) = V (Proc.devRef .tc r) :=
  kept_of_mem _ (fun _ h => List.mem_of_mem_drop (List.mem_of_mem_take h)) V hr

/-- … and through the whole program. -/
theorem kept_ops (V : Valuation τ sig (Elt F)) {r : Ref sig .tc} (hr : r ∉ written) :
    after (ops (F := F)) V (Proc.devRef .tc r) = V (Proc.devRef .tc r) :=
  kept_of_mem _ (fun _ h => h) V hr

/-! ## The 22 arguments -/

theorem main_arg0_not_written : main_arg0 ∉ written := by decide
/-- Argument 0 holds its launch contents after any initial part of the program. -/
theorem kept_take_main_arg0 (m : (ℓ : Loc nD τ sig) → Buf (Elt F) ℓ) (c : Dev nD) (n : Nat) :
    after (List.take n (ops (F := F))) (launchContents m c) (Proc.devRef .tc main_arg0) = m ((c.tc : Thread nD τ).loc main_arg0) :=
  kept_take n (launchContents m c) main_arg0_not_written
/-- Argument 0 holds its launch contents after the whole program. -/
theorem kept_main_arg0 (m : (ℓ : Loc nD τ sig) → Buf (Elt F) ℓ) (c : Dev nD) :
    after (ops (F := F)) (launchContents m c) (Proc.devRef .tc main_arg0) = m ((c.tc : Thread nD τ).loc main_arg0) :=
  kept_ops (launchContents m c) main_arg0_not_written

theorem main_arg1_not_written : main_arg1 ∉ written := by decide
/-- Argument 1 holds its launch contents after any initial part of the program. -/
theorem kept_take_main_arg1 (m : (ℓ : Loc nD τ sig) → Buf (Elt F) ℓ) (c : Dev nD) (n : Nat) :
    after (List.take n (ops (F := F))) (launchContents m c) (Proc.devRef .tc main_arg1) = m ((c.tc : Thread nD τ).loc main_arg1) :=
  kept_take n (launchContents m c) main_arg1_not_written
/-- Argument 1 holds its launch contents after the whole program. -/
theorem kept_main_arg1 (m : (ℓ : Loc nD τ sig) → Buf (Elt F) ℓ) (c : Dev nD) :
    after (ops (F := F)) (launchContents m c) (Proc.devRef .tc main_arg1) = m ((c.tc : Thread nD τ).loc main_arg1) :=
  kept_ops (launchContents m c) main_arg1_not_written

theorem main_arg2_not_written : main_arg2 ∉ written := by decide
/-- Argument 2 holds its launch contents after any initial part of the program. -/
theorem kept_take_main_arg2 (m : (ℓ : Loc nD τ sig) → Buf (Elt F) ℓ) (c : Dev nD) (n : Nat) :
    after (List.take n (ops (F := F))) (launchContents m c) (Proc.devRef .tc main_arg2) = m ((c.tc : Thread nD τ).loc main_arg2) :=
  kept_take n (launchContents m c) main_arg2_not_written
/-- Argument 2 holds its launch contents after the whole program. -/
theorem kept_main_arg2 (m : (ℓ : Loc nD τ sig) → Buf (Elt F) ℓ) (c : Dev nD) :
    after (ops (F := F)) (launchContents m c) (Proc.devRef .tc main_arg2) = m ((c.tc : Thread nD τ).loc main_arg2) :=
  kept_ops (launchContents m c) main_arg2_not_written

theorem main_arg3_not_written : main_arg3 ∉ written := by decide
/-- Argument 3 holds its launch contents after any initial part of the program. -/
theorem kept_take_main_arg3 (m : (ℓ : Loc nD τ sig) → Buf (Elt F) ℓ) (c : Dev nD) (n : Nat) :
    after (List.take n (ops (F := F))) (launchContents m c) (Proc.devRef .tc main_arg3) = m ((c.tc : Thread nD τ).loc main_arg3) :=
  kept_take n (launchContents m c) main_arg3_not_written
/-- Argument 3 holds its launch contents after the whole program. -/
theorem kept_main_arg3 (m : (ℓ : Loc nD τ sig) → Buf (Elt F) ℓ) (c : Dev nD) :
    after (ops (F := F)) (launchContents m c) (Proc.devRef .tc main_arg3) = m ((c.tc : Thread nD τ).loc main_arg3) :=
  kept_ops (launchContents m c) main_arg3_not_written

theorem main_arg4_not_written : main_arg4 ∉ written := by decide
/-- Argument 4 holds its launch contents after any initial part of the program. -/
theorem kept_take_main_arg4 (m : (ℓ : Loc nD τ sig) → Buf (Elt F) ℓ) (c : Dev nD) (n : Nat) :
    after (List.take n (ops (F := F))) (launchContents m c) (Proc.devRef .tc main_arg4) = m ((c.tc : Thread nD τ).loc main_arg4) :=
  kept_take n (launchContents m c) main_arg4_not_written
/-- Argument 4 holds its launch contents after the whole program. -/
theorem kept_main_arg4 (m : (ℓ : Loc nD τ sig) → Buf (Elt F) ℓ) (c : Dev nD) :
    after (ops (F := F)) (launchContents m c) (Proc.devRef .tc main_arg4) = m ((c.tc : Thread nD τ).loc main_arg4) :=
  kept_ops (launchContents m c) main_arg4_not_written

theorem main_arg5_not_written : main_arg5 ∉ written := by decide
/-- Argument 5 holds its launch contents after any initial part of the program. -/
theorem kept_take_main_arg5 (m : (ℓ : Loc nD τ sig) → Buf (Elt F) ℓ) (c : Dev nD) (n : Nat) :
    after (List.take n (ops (F := F))) (launchContents m c) (Proc.devRef .tc main_arg5) = m ((c.tc : Thread nD τ).loc main_arg5) :=
  kept_take n (launchContents m c) main_arg5_not_written
/-- Argument 5 holds its launch contents after the whole program. -/
theorem kept_main_arg5 (m : (ℓ : Loc nD τ sig) → Buf (Elt F) ℓ) (c : Dev nD) :
    after (ops (F := F)) (launchContents m c) (Proc.devRef .tc main_arg5) = m ((c.tc : Thread nD τ).loc main_arg5) :=
  kept_ops (launchContents m c) main_arg5_not_written

theorem main_arg6_not_written : main_arg6 ∉ written := by decide
/-- Argument 6 holds its launch contents after any initial part of the program. -/
theorem kept_take_main_arg6 (m : (ℓ : Loc nD τ sig) → Buf (Elt F) ℓ) (c : Dev nD) (n : Nat) :
    after (List.take n (ops (F := F))) (launchContents m c) (Proc.devRef .tc main_arg6) = m ((c.tc : Thread nD τ).loc main_arg6) :=
  kept_take n (launchContents m c) main_arg6_not_written
/-- Argument 6 holds its launch contents after the whole program. -/
theorem kept_main_arg6 (m : (ℓ : Loc nD τ sig) → Buf (Elt F) ℓ) (c : Dev nD) :
    after (ops (F := F)) (launchContents m c) (Proc.devRef .tc main_arg6) = m ((c.tc : Thread nD τ).loc main_arg6) :=
  kept_ops (launchContents m c) main_arg6_not_written

theorem main_arg7_not_written : main_arg7 ∉ written := by decide
/-- Argument 7 holds its launch contents after any initial part of the program. -/
theorem kept_take_main_arg7 (m : (ℓ : Loc nD τ sig) → Buf (Elt F) ℓ) (c : Dev nD) (n : Nat) :
    after (List.take n (ops (F := F))) (launchContents m c) (Proc.devRef .tc main_arg7) = m ((c.tc : Thread nD τ).loc main_arg7) :=
  kept_take n (launchContents m c) main_arg7_not_written
/-- Argument 7 holds its launch contents after the whole program. -/
theorem kept_main_arg7 (m : (ℓ : Loc nD τ sig) → Buf (Elt F) ℓ) (c : Dev nD) :
    after (ops (F := F)) (launchContents m c) (Proc.devRef .tc main_arg7) = m ((c.tc : Thread nD τ).loc main_arg7) :=
  kept_ops (launchContents m c) main_arg7_not_written

theorem main_arg8_not_written : main_arg8 ∉ written := by decide
/-- Argument 8 holds its launch contents after any initial part of the program. -/
theorem kept_take_main_arg8 (m : (ℓ : Loc nD τ sig) → Buf (Elt F) ℓ) (c : Dev nD) (n : Nat) :
    after (List.take n (ops (F := F))) (launchContents m c) (Proc.devRef .tc main_arg8) = m ((c.tc : Thread nD τ).loc main_arg8) :=
  kept_take n (launchContents m c) main_arg8_not_written
/-- Argument 8 holds its launch contents after the whole program. -/
theorem kept_main_arg8 (m : (ℓ : Loc nD τ sig) → Buf (Elt F) ℓ) (c : Dev nD) :
    after (ops (F := F)) (launchContents m c) (Proc.devRef .tc main_arg8) = m ((c.tc : Thread nD τ).loc main_arg8) :=
  kept_ops (launchContents m c) main_arg8_not_written

theorem main_arg9_not_written : main_arg9 ∉ written := by decide
/-- Argument 9 holds its launch contents after any initial part of the program. -/
theorem kept_take_main_arg9 (m : (ℓ : Loc nD τ sig) → Buf (Elt F) ℓ) (c : Dev nD) (n : Nat) :
    after (List.take n (ops (F := F))) (launchContents m c) (Proc.devRef .tc main_arg9) = m ((c.tc : Thread nD τ).loc main_arg9) :=
  kept_take n (launchContents m c) main_arg9_not_written
/-- Argument 9 holds its launch contents after the whole program. -/
theorem kept_main_arg9 (m : (ℓ : Loc nD τ sig) → Buf (Elt F) ℓ) (c : Dev nD) :
    after (ops (F := F)) (launchContents m c) (Proc.devRef .tc main_arg9) = m ((c.tc : Thread nD τ).loc main_arg9) :=
  kept_ops (launchContents m c) main_arg9_not_written

theorem main_arg10_not_written : main_arg10 ∉ written := by decide
/-- Argument 10 holds its launch contents after any initial part of the program. -/
theorem kept_take_main_arg10 (m : (ℓ : Loc nD τ sig) → Buf (Elt F) ℓ) (c : Dev nD) (n : Nat) :
    after (List.take n (ops (F := F))) (launchContents m c) (Proc.devRef .tc main_arg10) = m ((c.tc : Thread nD τ).loc main_arg10) :=
  kept_take n (launchContents m c) main_arg10_not_written
/-- Argument 10 holds its launch contents after the whole program. -/
theorem kept_main_arg10 (m : (ℓ : Loc nD τ sig) → Buf (Elt F) ℓ) (c : Dev nD) :
    after (ops (F := F)) (launchContents m c) (Proc.devRef .tc main_arg10) = m ((c.tc : Thread nD τ).loc main_arg10) :=
  kept_ops (launchContents m c) main_arg10_not_written

theorem main_arg11_not_written : main_arg11 ∉ written := by decide
/-- Argument 11 holds its launch contents after any initial part of the program. -/
theorem kept_take_main_arg11 (m : (ℓ : Loc nD τ sig) → Buf (Elt F) ℓ) (c : Dev nD) (n : Nat) :
    after (List.take n (ops (F := F))) (launchContents m c) (Proc.devRef .tc main_arg11) = m ((c.tc : Thread nD τ).loc main_arg11) :=
  kept_take n (launchContents m c) main_arg11_not_written
/-- Argument 11 holds its launch contents after the whole program. -/
theorem kept_main_arg11 (m : (ℓ : Loc nD τ sig) → Buf (Elt F) ℓ) (c : Dev nD) :
    after (ops (F := F)) (launchContents m c) (Proc.devRef .tc main_arg11) = m ((c.tc : Thread nD τ).loc main_arg11) :=
  kept_ops (launchContents m c) main_arg11_not_written

theorem main_arg12_not_written : main_arg12 ∉ written := by decide
/-- Argument 12 holds its launch contents after any initial part of the program. -/
theorem kept_take_main_arg12 (m : (ℓ : Loc nD τ sig) → Buf (Elt F) ℓ) (c : Dev nD) (n : Nat) :
    after (List.take n (ops (F := F))) (launchContents m c) (Proc.devRef .tc main_arg12) = m ((c.tc : Thread nD τ).loc main_arg12) :=
  kept_take n (launchContents m c) main_arg12_not_written
/-- Argument 12 holds its launch contents after the whole program. -/
theorem kept_main_arg12 (m : (ℓ : Loc nD τ sig) → Buf (Elt F) ℓ) (c : Dev nD) :
    after (ops (F := F)) (launchContents m c) (Proc.devRef .tc main_arg12) = m ((c.tc : Thread nD τ).loc main_arg12) :=
  kept_ops (launchContents m c) main_arg12_not_written

theorem main_arg13_not_written : main_arg13 ∉ written := by decide
/-- Argument 13 holds its launch contents after any initial part of the program. -/
theorem kept_take_main_arg13 (m : (ℓ : Loc nD τ sig) → Buf (Elt F) ℓ) (c : Dev nD) (n : Nat) :
    after (List.take n (ops (F := F))) (launchContents m c) (Proc.devRef .tc main_arg13) = m ((c.tc : Thread nD τ).loc main_arg13) :=
  kept_take n (launchContents m c) main_arg13_not_written
/-- Argument 13 holds its launch contents after the whole program. -/
theorem kept_main_arg13 (m : (ℓ : Loc nD τ sig) → Buf (Elt F) ℓ) (c : Dev nD) :
    after (ops (F := F)) (launchContents m c) (Proc.devRef .tc main_arg13) = m ((c.tc : Thread nD τ).loc main_arg13) :=
  kept_ops (launchContents m c) main_arg13_not_written

theorem main_arg14_not_written : main_arg14 ∉ written := by decide
/-- Argument 14 holds its launch contents after any initial part of the program. -/
theorem kept_take_main_arg14 (m : (ℓ : Loc nD τ sig) → Buf (Elt F) ℓ) (c : Dev nD) (n : Nat) :
    after (List.take n (ops (F := F))) (launchContents m c) (Proc.devRef .tc main_arg14) = m ((c.tc : Thread nD τ).loc main_arg14) :=
  kept_take n (launchContents m c) main_arg14_not_written
/-- Argument 14 holds its launch contents after the whole program. -/
theorem kept_main_arg14 (m : (ℓ : Loc nD τ sig) → Buf (Elt F) ℓ) (c : Dev nD) :
    after (ops (F := F)) (launchContents m c) (Proc.devRef .tc main_arg14) = m ((c.tc : Thread nD τ).loc main_arg14) :=
  kept_ops (launchContents m c) main_arg14_not_written

theorem main_arg15_not_written : main_arg15 ∉ written := by decide
/-- Argument 15 holds its launch contents after any initial part of the program. -/
theorem kept_take_main_arg15 (m : (ℓ : Loc nD τ sig) → Buf (Elt F) ℓ) (c : Dev nD) (n : Nat) :
    after (List.take n (ops (F := F))) (launchContents m c) (Proc.devRef .tc main_arg15) = m ((c.tc : Thread nD τ).loc main_arg15) :=
  kept_take n (launchContents m c) main_arg15_not_written
/-- Argument 15 holds its launch contents after the whole program. -/
theorem kept_main_arg15 (m : (ℓ : Loc nD τ sig) → Buf (Elt F) ℓ) (c : Dev nD) :
    after (ops (F := F)) (launchContents m c) (Proc.devRef .tc main_arg15) = m ((c.tc : Thread nD τ).loc main_arg15) :=
  kept_ops (launchContents m c) main_arg15_not_written

theorem main_arg16_not_written : main_arg16 ∉ written := by decide
/-- Argument 16 holds its launch contents after any initial part of the program. -/
theorem kept_take_main_arg16 (m : (ℓ : Loc nD τ sig) → Buf (Elt F) ℓ) (c : Dev nD) (n : Nat) :
    after (List.take n (ops (F := F))) (launchContents m c) (Proc.devRef .tc main_arg16) = m ((c.tc : Thread nD τ).loc main_arg16) :=
  kept_take n (launchContents m c) main_arg16_not_written
/-- Argument 16 holds its launch contents after the whole program. -/
theorem kept_main_arg16 (m : (ℓ : Loc nD τ sig) → Buf (Elt F) ℓ) (c : Dev nD) :
    after (ops (F := F)) (launchContents m c) (Proc.devRef .tc main_arg16) = m ((c.tc : Thread nD τ).loc main_arg16) :=
  kept_ops (launchContents m c) main_arg16_not_written

theorem main_arg17_not_written : main_arg17 ∉ written := by decide
/-- Argument 17 holds its launch contents after any initial part of the program. -/
theorem kept_take_main_arg17 (m : (ℓ : Loc nD τ sig) → Buf (Elt F) ℓ) (c : Dev nD) (n : Nat) :
    after (List.take n (ops (F := F))) (launchContents m c) (Proc.devRef .tc main_arg17) = m ((c.tc : Thread nD τ).loc main_arg17) :=
  kept_take n (launchContents m c) main_arg17_not_written
/-- Argument 17 holds its launch contents after the whole program. -/
theorem kept_main_arg17 (m : (ℓ : Loc nD τ sig) → Buf (Elt F) ℓ) (c : Dev nD) :
    after (ops (F := F)) (launchContents m c) (Proc.devRef .tc main_arg17) = m ((c.tc : Thread nD τ).loc main_arg17) :=
  kept_ops (launchContents m c) main_arg17_not_written

theorem main_arg18_not_written : main_arg18 ∉ written := by decide
/-- Argument 18 holds its launch contents after any initial part of the program. -/
theorem kept_take_main_arg18 (m : (ℓ : Loc nD τ sig) → Buf (Elt F) ℓ) (c : Dev nD) (n : Nat) :
    after (List.take n (ops (F := F))) (launchContents m c) (Proc.devRef .tc main_arg18) = m ((c.tc : Thread nD τ).loc main_arg18) :=
  kept_take n (launchContents m c) main_arg18_not_written
/-- Argument 18 holds its launch contents after the whole program. -/
theorem kept_main_arg18 (m : (ℓ : Loc nD τ sig) → Buf (Elt F) ℓ) (c : Dev nD) :
    after (ops (F := F)) (launchContents m c) (Proc.devRef .tc main_arg18) = m ((c.tc : Thread nD τ).loc main_arg18) :=
  kept_ops (launchContents m c) main_arg18_not_written

theorem main_arg19_not_written : main_arg19 ∉ written := by decide
/-- Argument 19 holds its launch contents after any initial part of the program. -/
theorem kept_take_main_arg19 (m : (ℓ : Loc nD τ sig) → Buf (Elt F) ℓ) (c : Dev nD) (n : Nat) :
    after (List.take n (ops (F := F))) (launchContents m c) (Proc.devRef .tc main_arg19) = m ((c.tc : Thread nD τ).loc main_arg19) :=
  kept_take n (launchContents m c) main_arg19_not_written
/-- Argument 19 holds its launch contents after the whole program. -/
theorem kept_main_arg19 (m : (ℓ : Loc nD τ sig) → Buf (Elt F) ℓ) (c : Dev nD) :
    after (ops (F := F)) (launchContents m c) (Proc.devRef .tc main_arg19) = m ((c.tc : Thread nD τ).loc main_arg19) :=
  kept_ops (launchContents m c) main_arg19_not_written

theorem main_arg20_not_written : main_arg20 ∉ written := by decide
/-- Argument 20 holds its launch contents after any initial part of the program. -/
theorem kept_take_main_arg20 (m : (ℓ : Loc nD τ sig) → Buf (Elt F) ℓ) (c : Dev nD) (n : Nat) :
    after (List.take n (ops (F := F))) (launchContents m c) (Proc.devRef .tc main_arg20) = m ((c.tc : Thread nD τ).loc main_arg20) :=
  kept_take n (launchContents m c) main_arg20_not_written
/-- Argument 20 holds its launch contents after the whole program. -/
theorem kept_main_arg20 (m : (ℓ : Loc nD τ sig) → Buf (Elt F) ℓ) (c : Dev nD) :
    after (ops (F := F)) (launchContents m c) (Proc.devRef .tc main_arg20) = m ((c.tc : Thread nD τ).loc main_arg20) :=
  kept_ops (launchContents m c) main_arg20_not_written

theorem main_arg21_not_written : main_arg21 ∉ written := by decide
/-- Argument 21 holds its launch contents after any initial part of the program. -/
theorem kept_take_main_arg21 (m : (ℓ : Loc nD τ sig) → Buf (Elt F) ℓ) (c : Dev nD) (n : Nat) :
    after (List.take n (ops (F := F))) (launchContents m c) (Proc.devRef .tc main_arg21) = m ((c.tc : Thread nD τ).loc main_arg21) :=
  kept_take n (launchContents m c) main_arg21_not_written
/-- Argument 21 holds its launch contents after the whole program. -/
theorem kept_main_arg21 (m : (ℓ : Loc nD τ sig) → Buf (Elt F) ℓ) (c : Dev nD) :
    after (ops (F := F)) (launchContents m c) (Proc.devRef .tc main_arg21) = m ((c.tc : Thread nD τ).loc main_arg21) :=
  kept_ops (launchContents m c) main_arg21_not_written

end Cert.ReferenceIdeal.RunH

end
-- ==== Proof.RefSegM.lean ====
/-
  The middle of the reference program's values: from the first aggregation to the third layer's dense product.

  The program is a straight line of operations, each writing one buffer from buffers written before it. Cut at a
  position, what the rest computes depends on the contents it finds only through the buffers it reads: the value at the
  cut, the two edge-index vectors computed once at the start, and the arguments. Each lemma takes ANY contents `W`
  holding the reference's stage values at those buffers and says that the part of the line between two cuts leaves the
  next stage value at its buffer: operations 55 … 77 (normalisation, rectification, dense product), 78 … 127 (the second
  aggregation), 128 … 150 (normalisation, rectification, dense product). Contents carried to a called function's buffer
  type and back are the same contents, so the calls' stages are the operations' own terms.
-/
import proofs.«153305_j4758823764428_1_alg».proof.Proof.RefOpsP
import proofs.«153305_j4758823764428_1_alg».proof.Proof.RefReadP
import Idealize.ShloMosaic.Lib.StableHlo.Run
import Idealize.ShloMosaic.PureOps.Ideal.Laws

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

set_option maxHeartbeats 1000000 in
/-- Operations 55 … 77: bias, normalisation and rectification of the first aggregation, then the second layer's dense product. -/
theorem seg_55_78 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (hw : W (Proc.devRef .tc main_v44) = val_main_v44 (F := Ideal) x0 x1 x2)
    (k3 : W (Proc.devRef .tc main_arg3) = x3)
    (k4 : W (Proc.devRef .tc main_arg4) = x4)
    (k5 : W (Proc.devRef .tc main_arg5) = x5)
    (k6 : W (Proc.devRef .tc main_arg6) = x6)
    (k7 : W (Proc.devRef .tc main_arg7) = x7)
    (k8 : W (Proc.devRef .tc main_arg8) = x8) :
    after (List.take 23 (List.drop 55 (ops (F := Ideal)))) W (Proc.devRef .tc main_v64)
      = val_main_v64 (F := Ideal) x0 x1 x2 x3 x4 x5 x6 x7 x8 := by
  simp only [ops, List.drop_succ_cons, List.drop_zero, List.take_succ_cons, List.take_zero]
  after_results_simp
  simp only [TRef.toBuf, TRef.ofBuf, cast_eq, hw, k3, k4, k5, k6, k7, k8]
  simp only [val_main_v64, val_main_v63, val_main_call0_v0, val_main_call0_cst, val_main_v62, val_main_v61, val_main_v60, val_main_v59, val_main_v58, val_main_v57, val_main_v56, val_main_v55, val_main_v54, val_main_v53, val_main_v52, val_main_v51, val_main_cst_8, val_main_v50, val_main_v49, val_main_v48, val_main_v47, val_main_v46, val_main_v45]

set_option maxHeartbeats 4000000 in
/-- Operations 78 … 127, the second aggregation: the degrees recomputed from the edge list, the normalised gather of the rows of the dense product, their scatter-add and the self term. -/
theorem seg_78_128 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (hw : W (Proc.devRef .tc main_v64) = val_main_v64 (F := Ideal) x0 x1 x2 x3 x4 x5 x6 x7 x8)
    (h1 : W (Proc.devRef .tc main_v1) = val_main_v1 (F := Ideal) x1)
    (h3 : W (Proc.devRef .tc main_v3) = val_main_v3 (F := Ideal) x1) :
    after (List.take 50 (List.drop 78 (ops (F := Ideal)))) W (Proc.devRef .tc main_v104)
      = val_main_v104 (F := Ideal) x0 x1 x2 x3 x4 x5 x6 x7 x8 := by
  simp only [ops, List.drop_succ_cons, List.drop_zero, List.take_succ_cons, List.take_zero]
  after_results_simp
  simp only [TRef.toBuf, TRef.ofBuf, cast_eq, hw, h1, h3]
  simp only [val_main_v104, val_main_v103, val_main_v102, val_main_v101, val_main_v100, val_main_v99, val_main_v98, val_main_v97, val_main_cst_18, val_main_v96, val_main_v95, val_main_v94, val_main_v93, val_main_v92, val_main_v91, val_main_v90, val_main_v89, val_main_c_17, val_main_v88, val_main_v87, val_main_c_16, val_main_v86, val_main_v85, val_main_v84, val_main_v83, val_main_v82, val_main_v81, val_main_c_15, val_main_v80, val_main_v79, val_main_c_14, val_main_v78, val_main_v77, val_main_v76, val_main_v75, val_main_v74, val_main_c_13, val_main_v73, val_main_v72, val_main_c_12, val_main_v71, val_main_v70, val_main_v69, val_main_cst_11, val_main_v68, val_main_v67, val_main_v66, val_main_cst_10, val_main_v65, val_main_cst_9]

set_option maxHeartbeats 1000000 in
/-- Operations 128 … 150: bias, normalisation and rectification of the second aggregation, then the third layer's dense product. -/
theorem seg_128_151 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (hw : W (Proc.devRef .tc main_v104) = val_main_v104 (F := Ideal) x0 x1 x2 x3 x4 x5 x6 x7 x8)
    (k9 : W (Proc.devRef .tc main_arg9) = x9)
    (k10 : W (Proc.devRef .tc main_arg10) = x10)
    (k11 : W (Proc.devRef .tc main_arg11) = x11)
    (k12 : W (Proc.devRef .tc main_arg12) = x12)
    (k13 : W (Proc.devRef .tc main_arg13) = x13)
    (k14 : W (Proc.devRef .tc main_arg14) = x14) :
    after (List.take 23 (List.drop 128 (ops (F := Ideal)))) W (Proc.devRef .tc main_v124)
      = val_main_v124 (F := Ideal) x0 x1 x2 x3 x4 x5 x6 x7 x8 x9 x10 x11 x12 x13 x14 := by
  simp only [ops, List.drop_succ_cons, List.drop_zero, List.take_succ_cons, List.take_zero]
  after_results_simp
  simp only [TRef.toBuf, TRef.ofBuf, cast_eq, hw, k9, k10, k11, k12, k13, k14]
  simp only [val_main_v124, val_main_v123, val_main_call1_v0, val_main_call1_cst, val_main_v122, val_main_v121, val_main_v120, val_main_v119, val_main_v118, val_main_v117, val_main_v116, val_main_v115, val_main_v114, val_main_v113, val_main_v112, val_main_v111, val_main_cst_19, val_main_v110, val_main_v109, val_main_v108, val_main_v107, val_main_v106, val_main_v105]

/-! ## The edge-index vectors pass through -/

/-- Operations 55 … 77 do not write `main_v1`. -/
theorem kept_55_78_main_v1 (W : Valuation τ sig (Elt Ideal)) :
    after (List.take 23 (List.drop 55 (ops (F := Ideal)))) W (Proc.devRef .tc main_v1) = W (Proc.devRef .tc main_v1) := by
  simp only [ops, List.drop_succ_cons, List.drop_zero, List.take_succ_cons, List.take_zero]
  after_results_simp

/-- Operations 55 … 77 do not write `main_v3`. -/
theorem kept_55_78_main_v3 (W : Valuation τ sig (Elt Ideal)) :
    after (List.take 23 (List.drop 55 (ops (F := Ideal)))) W (Proc.devRef .tc main_v3) = W (Proc.devRef .tc main_v3) := by
  simp only [ops, List.drop_succ_cons, List.drop_zero, List.take_succ_cons, List.take_zero]
  after_results_simp

/-- Operations 78 … 127 do not write `main_v1`. -/
theorem kept_78_128_main_v1 (W : Valuation τ sig (Elt Ideal)) :
    after (List.take 50 (List.drop 78 (ops (F := Ideal)))) W (Proc.devRef .tc main_v1) = W (Proc.devRef .tc main_v1) := by
  simp only [ops, List.drop_succ_cons, List.drop_zero, List.take_succ_cons, List.take_zero]
  after_results_simp

/-- Operations 78 … 127 do not write `main_v3`. -/
theorem kept_78_128_main_v3 (W : Valuation τ sig (Elt Ideal)) :
    after (List.take 50 (List.drop 78 (ops (F := Ideal)))) W (Proc.devRef .tc main_v3) = W (Proc.devRef .tc main_v3) := by
  simp only [ops, List.drop_succ_cons, List.drop_zero, List.take_succ_cons, List.take_zero]
  after_results_simp

/-- Operations 128 … 150 do not write `main_v1`. -/
theorem kept_128_151_main_v1 (W : Valuation τ sig (Elt Ideal)) :
    after (List.take 23 (List.drop 128 (ops (F := Ideal)))) W (Proc.devRef .tc main_v1) = W (Proc.devRef .tc main_v1) := by
  simp only [ops, List.drop_succ_cons, List.drop_zero, List.take_succ_cons, List.take_zero]
  after_results_simp

/-- Operations 128 … 150 do not write `main_v3`. -/
theorem kept_128_151_main_v3 (W : Valuation τ sig (Elt Ideal)) :
    after (List.take 23 (List.drop 128 (ops (F := Ideal)))) W (Proc.devRef .tc main_v3) = W (Proc.devRef .tc main_v3) := by
  simp only [ops, List.drop_succ_cons, List.drop_zero, List.take_succ_cons, List.take_zero]
  after_results_simp

end Cert.ReferenceIdeal.RunH

end
-- ==== Proof.RefSegB.lean ====
/-
  The second half of the reference program's values: from the third layer's dense product to the result.

  The program is a straight line of operations, each writing one buffer from buffers written before it. Cut at a
  position, what the rest computes depends on the contents it finds only through the buffers it reads: here the value
  at the cut, the two edge-index vectors computed once at the start, and the arguments. Each lemma takes ANY contents
  `W` holding the reference's stage values at those buffers and says that the part of the line between two cuts leaves
  the next stage value at its buffer: operations 151 … 200 (the third aggregation), 201 … 222 (normalisation and
  rectification), 223 … 226 (the last dense product and bias), 227 … 241 (the outlined log-softmax). Contents carried to
  a called function's buffer type and back are the same contents, so the calls' stages are the operations' own terms.
-/
import proofs.«153305_j4758823764428_1_alg».proof.Proof.RefOpsP
import proofs.«153305_j4758823764428_1_alg».proof.Proof.RefReadP
import Idealize.ShloMosaic.Lib.StableHlo.Run
import Idealize.ShloMosaic.PureOps.Ideal.Laws

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Running two lines one after the other is running their concatenation. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

set_option maxHeartbeats 4000000 in
/-- Operations 151 … 200, the third aggregation: the degrees recomputed from the edge list, the normalised gather of the rows of the dense product, their scatter-add and the self term. -/
theorem seg_151_201 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (hw : W (Proc.devRef .tc main_v124) = val_main_v124 (F := Ideal) x0 x1 x2 x3 x4 x5 x6 x7 x8 x9 x10 x11 x12 x13 x14)
    (h1 : W (Proc.devRef .tc main_v1) = val_main_v1 (F := Ideal) x1)
    (h3 : W (Proc.devRef .tc main_v3) = val_main_v3 (F := Ideal) x1) :
    after (List.take 50 (List.drop 151 (ops (F := Ideal)))) W (Proc.devRef .tc main_v164)
      = val_main_v164 (F := Ideal) x0 x1 x2 x3 x4 x5 x6 x7 x8 x9 x10 x11 x12 x13 x14 := by
  simp only [ops, List.drop_succ_cons, List.drop_zero, List.take_succ_cons, List.take_zero]
  after_results_simp
  simp only [TRef.toBuf, TRef.ofBuf, cast_eq, hw, h1, h3]
  simp only [val_main_v164, val_main_v163, val_main_v162, val_main_v161, val_main_v160, val_main_v159, val_main_v158, val_main_v157, val_main_cst_29, val_main_v156, val_main_v155, val_main_v154, val_main_v153, val_main_v152, val_main_v151, val_main_v150, val_main_v149, val_main_c_28, val_main_v148, val_main_v147, val_main_c_27, val_main_v146, val_main_v145, val_main_v144, val_main_v143, val_main_v142, val_main_v141, val_main_c_26, val_main_v140, val_main_v139, val_main_c_25, val_main_v138, val_main_v137, val_main_v136, val_main_v135, val_main_v134, val_main_c_24, val_main_v133, val_main_v132, val_main_c_23, val_main_v131, val_main_v130, val_main_v129, val_main_cst_22, val_main_v128, val_main_v127, val_main_v126, val_main_cst_21, val_main_v125, val_main_cst_20]

set_option maxHeartbeats 1000000 in
/-- Operations 201 … 222: bias, normalisation and rectification of the third aggregation, from it to the last hidden activations. -/
theorem seg_201_223 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (hw : W (Proc.devRef .tc main_v164) = val_main_v164 (F := Ideal) x0 x1 x2 x3 x4 x5 x6 x7 x8 x9 x10 x11 x12 x13 x14)
    (k15 : W (Proc.devRef .tc main_arg15) = x15)
    (k16 : W (Proc.devRef .tc main_arg16) = x16)
    (k17 : W (Proc.devRef .tc main_arg17) = x17)
    (k18 : W (Proc.devRef .tc main_arg18) = x18)
    (k19 : W (Proc.devRef .tc main_arg19) = x19) :
    after (List.take 22 (List.drop 201 (ops (F := Ideal)))) W (Proc.devRef .tc main_v183)
      = val_main_v183 (F := Ideal) x0 x1 x2 x3 x4 x5 x6 x7 x8 x9 x10 x11 x12 x13 x14 x15 x16 x17 x18 x19 := by
  simp only [ops, List.drop_succ_cons, List.drop_zero, List.take_succ_cons, List.take_zero]
  after_results_simp
  simp only [TRef.toBuf, TRef.ofBuf, cast_eq, hw, k15, k16, k17, k18, k19]
  simp only [val_main_v183, val_main_call2_v0, val_main_call2_cst, val_main_v182, val_main_v181, val_main_v180, val_main_v179, val_main_v178, val_main_v177, val_main_v176, val_main_v175, val_main_v174, val_main_v173, val_main_v172, val_main_v171, val_main_cst_30, val_main_v170, val_main_v169, val_main_v168, val_main_v167, val_main_v166, val_main_v165]

set_option maxHeartbeats 1000000 in
/-- Operations 223 … 226: the last dense product and its bias, from the last hidden activations to the logits. -/
theorem seg_223_227 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (hw : W (Proc.devRef .tc main_v183) = val_main_v183 (F := Ideal) x0 x1 x2 x3 x4 x5 x6 x7 x8 x9 x10 x11 x12 x13 x14 x15 x16 x17 x18 x19)
    (k20 : W (Proc.devRef .tc main_arg20) = x20)
    (k21 : W (Proc.devRef .tc main_arg21) = x21) :
    after (List.take 4 (List.drop 223 (ops (F := Ideal)))) W (Proc.devRef .tc main_v187)
      = val_main_v187 (F := Ideal) x0 x1 x2 x3 x4 x5 x6 x7 x8 x9 x10 x11 x12 x13 x14 x15 x16 x17 x18 x19 x20 x21 := by
  simp only [ops, List.drop_succ_cons, List.drop_zero, List.take_succ_cons, List.take_zero]
  after_results_simp
  simp only [hw, k20, k21]
  simp only [val_main_v187, val_main_v186, val_main_v185, val_main_v184]

set_option maxHeartbeats 1000000 in
/-- Operations 227 … 241, the outlined log-softmax: from the logits to the result. -/
theorem seg_227_242 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (hw : W (Proc.devRef .tc main_v187) = val_main_v187 (F := Ideal) x0 x1 x2 x3 x4 x5 x6 x7 x8 x9 x10 x11 x12 x13 x14 x15 x16 x17 x18 x19 x20 x21) :
    after (List.take 15 (List.drop 227 (ops (F := Ideal)))) W (Proc.devRef .tc main_v188)
      = val_main_v188 (F := Ideal) x0 x1 x2 x3 x4 x5 x6 x7 x8 x9 x10 x11 x12 x13 x14 x15 x16 x17 x18 x19 x20 x21 := by
  simp only [ops, List.drop_succ_cons, List.drop_zero, List.take_succ_cons, List.take_zero]
  after_results_simp
  simp only [TRef.toBuf, TRef.ofBuf, cast_eq, hw]
  simp only [val_main_v188, val_main_call3_v10, val_main_call3_v9, val_main_call3_v8, val_main_call3_v7, val_main_call3_cst_1, val_main_call3_v6, val_main_call3_v5, val_main_call3_v4, val_main_call3_v3, val_main_call3_v2, val_main_call3_v1, val_main_call3_cst_0, val_main_call3_v0, val_main_call3_cst]

/-- Operations 201 … 222 do not write argument 20. -/
theorem kept_201_223_main_arg20 (W : Valuation τ sig (Elt Ideal)) :
    after (List.take 22 (List.drop 201 (ops (F := Ideal)))) W (Proc.devRef .tc main_arg20) = W (Proc.devRef .tc main_arg20) := by
  simp only [ops, List.drop_succ_cons, List.drop_zero, List.take_succ_cons, List.take_zero]
  after_results_simp

/-- Operations 201 … 222 do not write argument 21. -/
theorem kept_201_223_main_arg21 (W : Valuation τ sig (Elt Ideal)) :
    after (List.take 22 (List.drop 201 (ops (F := Ideal)))) W (Proc.devRef .tc main_arg21) = W (Proc.devRef .tc main_arg21) := by
  simp only [ops, List.drop_succ_cons, List.drop_zero, List.take_succ_cons, List.take_zero]
  after_results_simp

/-- The cut 201 … 241 is the three parts 201 … 222, 223 … 226, 227 … 241 in a row. -/
theorem split_201_242 :
    List.take 41 (List.drop 201 (ops (F := Ideal)))
      = List.take 22 (List.drop 201 (ops (F := Ideal)))
        ++ (List.take 4 (List.drop 223 (ops (F := Ideal))) ++ List.take 15 (List.drop 227 (ops (F := Ideal)))) := by
  simp only [ops, List.drop_succ_cons, List.drop_zero, List.take_succ_cons, List.take_zero, List.cons_append, List.nil_append]

/-- Operations 201 … 241: from the third aggregation to the result. -/
theorem seg_201_242 (W : Valuation τ sig (Elt Ideal)) (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x32, .f32⟩ : BufTy).Contents (Elt Ideal)) (x15 x16 x17 x18 x19 : (⟨S32, .f32⟩ : BufTy).Contents (Elt Ideal))
    (x20 : (⟨S32x2, .f32⟩ : BufTy).Contents (Elt Ideal)) (x21 : (⟨S2, .f32⟩ : BufTy).Contents (Elt Ideal))
    (h164 : W (Proc.devRef .tc main_v164) = val_main_v164 (F := Ideal) x0 x1 x2 x3 x4 x5 x6 x7 x8 x9 x10 x11 x12 x13 x14)
    (k15 : W (Proc.devRef .tc main_arg15) = x15)
    (k16 : W (Proc.devRef .tc main_arg16) = x16)
    (k17 : W (Proc.devRef .tc main_arg17) = x17)
    (k18 : W (Proc.devRef .tc main_arg18) = x18)
    (k19 : W (Proc.devRef .tc main_arg19) = x19)
    (k20 : W (Proc.devRef .tc main_arg20) = x20)
    (k21 : W (Proc.devRef .tc main_arg21) = x21) :
    after (List.take 41 (List.drop 201 (ops (F := Ideal)))) W (Proc.devRef .tc main_v188)
      = val_main_v188 (F := Ideal) x0 x1 x2 x3 x4 x5 x6 x7 x8 x9 x10 x11 x12 x13 x14 x15 x16 x17 x18 x19 x20 x21 := by
  rw [split_201_242, after_app, after_app]
  refine seg_227_242 _ x0 x1 x2 x3 x4 x5 x6 x7 x8 x9 x10 x11 x12 x13 x14 x15 x16 x17 x18 x19 x20 x21 (seg_223_227 _ x0 x1 x2 x3 x4 x5 x6 x7 x8 x9 x10 x11 x12 x13 x14 x15 x16 x17 x18 x19 x20 x21
    (seg_201_223 W x0 x1 x2 x3 x4 x5 x6 x7 x8 x9 x10 x11 x12 x13 x14 x15 x16 x17 x18 x19 x20 x21 h164 k15 k16 k17 k18 k19) ?_ ?_)
  · exact (kept_201_223_main_arg20 W).trans k20
  · exact (kept_201_223_main_arg21 W).trans k21

end Cert.ReferenceIdeal.RunH

end
-- ==== Proof.RefRun.lean ====
/-
  The reference program's run, read: after its 242 host operations the result buffer holds the composed function
  `ReadP.val_main_v188` of the 22 argument arrays, and every argument array is unchanged.

  The operations are a straight line, so the device's contents after them are the fold of the operations' results
  over the launch contents. The fold is cut at the positions where only one intermediate array (and the two
  edge-index vectors computed by the first four operations) is still needed: after 55, 78, 128, 151 and 201
  operations. The first 55 operations are folded here, directly; each further stretch is a lemma about ANY
  contents at its entry that hold the previous stretch's array, the edge-index vectors and the arguments it
  reads, so the prefixes chain: the first `a + b` operations are the first `a` followed by the next `b`. No
  operation writes an argument array, so each keeps its launch contents throughout.
-/
import proofs.«153305_j4758823764428_1_alg».proof.Proof.RefOpsP
import proofs.«153305_j4758823764428_1_alg».proof.Proof.RefReadP
import proofs.«153305_j4758823764428_1_alg».proof.Proof.RefKept
import proofs.«153305_j4758823764428_1_alg».proof.Proof.RefSegM
import proofs.«153305_j4758823764428_1_alg».proof.Proof.RefSegB
import Idealize.ShloMosaic.Lib.StableHlo.Run
import Idealize.ShloMosaic.PureOps.Ideal.Laws

noncomputable section

namespace Cert.ReferenceIdeal.RunH

open Cert.ReferenceIdeal Cert.ReferenceIdeal.Gen Cert.ReferenceIdeal.ValueP
open Idealize.ShloMosaic Idealize.ShloMosaic.TcCoe Idealize.SL.Sem Idealize.ShloMosaic.StableHlo

/-- The contents after two lines run one after the other. -/
theorem after_cat {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The first `a + b` operations are the first `a`, then the next `b`. -/
theorem after_take_add {τ : Topo} {sig : RefSig} {Val : EltTy → Type} (a b : Nat) (l : List (HloOp τ sig Val)) (V : Valuation τ sig Val) :
    after (List.take (a + b) l) V = after (List.take b (List.drop a l)) (after (List.take a l) V) := by
  rw [List.take_add, after_cat]

section Chain

variable (m : (ℓ : Loc nD τ sig) → Buf (Elt Ideal) ℓ) (c : Dev nD)

set_option maxRecDepth 16384 in
set_option maxHeartbeats 4000000 in
/-- After the first 55 operations the first layer's aggregated features are in place: a function of the node features, the edge list and the first weight matrix. -/
theorem P55_v44 :
    after (List.take 55 (ops (F := Ideal))) (launchContents m c) (Proc.devRef .tc main_v44)
      = ReadP.val_main_v44 (F := Ideal) (m ((c.tc : Thread nD τ).loc main_arg0)) (m ((c.tc : Thread nD τ).loc main_arg1)) (m ((c.tc : Thread nD τ).loc main_arg2)) := by
  simp only [List.take_succ_cons, List.take_zero]
  after_results_simp
  simp only [ReadP.val_main_v0, ReadP.val_main_v1, ReadP.val_main_v2, ReadP.val_main_v3, ReadP.val_main_v4, ReadP.val_main_cst, ReadP.val_main_v5, ReadP.val_main_cst_0, ReadP.val_main_v6, ReadP.val_main_v7, ReadP.val_main_v8, ReadP.val_main_cst_1, ReadP.val_main_v9, ReadP.val_main_v10, ReadP.val_main_v11, ReadP.val_main_c, ReadP.val_main_v12, ReadP.val_main_v13, ReadP.val_main_c_2, ReadP.val_main_v14, ReadP.val_main_v15, ReadP.val_main_v16, ReadP.val_main_v17, ReadP.val_main_v18, ReadP.val_main_c_3, ReadP.val_main_v19, ReadP.val_main_v20, ReadP.val_main_c_4, ReadP.val_main_v21, ReadP.val_main_v22, ReadP.val_main_v23, ReadP.val_main_v24, ReadP.val_main_v25, ReadP.val_main_v26, ReadP.val_main_c_5, ReadP.val_main_v27, ReadP.val_main_v28, ReadP.val_main_c_6, ReadP.val_main_v29, ReadP.val_main_v30, ReadP.val_main_v31, ReadP.val_main_v32, ReadP.val_main_v33, ReadP.val_main_v34, ReadP.val_main_v35, ReadP.val_main_v36, ReadP.val_main_cst_7, ReadP.val_main_v37, ReadP.val_main_v38, ReadP.val_main_v39, ReadP.val_main_v40, ReadP.val_main_v41, ReadP.val_main_v42, ReadP.val_main_v43, ReadP.val_main_v44] <;> rfl

set_option maxRecDepth 16384 in
set_option maxHeartbeats 4000000 in
/-- The edge sources, computed by the first two operations, are still in place after 78 operations. -/
theorem P78_v1 :
    after (List.take 78 (ops (F := Ideal))) (launchContents m c) (Proc.devRef .tc main_v1)
      = ReadP.val_main_v1 (F := Ideal) (m ((c.tc : Thread nD τ).loc main_arg1)) := by
  simp only [List.take_succ_cons, List.take_zero]
  after_results_simp
  simp only [ReadP.val_main_v1, ReadP.val_main_v0] <;> rfl

set_option maxRecDepth 16384 in
set_option maxHeartbeats 4000000 in
/-- So are the edge targets. -/
theorem P78_v3 :
    after (List.take 78 (ops (F := Ideal))) (launchContents m c) (Proc.devRef .tc main_v3)
      = ReadP.val_main_v3 (F := Ideal) (m ((c.tc : Thread nD τ).loc main_arg1)) := by
  simp only [List.take_succ_cons, List.take_zero]
  after_results_simp
  simp only [ReadP.val_main_v3, ReadP.val_main_v2] <;> rfl

set_option maxRecDepth 16384 in
set_option maxHeartbeats 4000000 in
/-- The edge sources after 151 operations. -/
theorem P151_v1 :
    after (List.take 151 (ops (F := Ideal))) (launchContents m c) (Proc.devRef .tc main_v1)
      = ReadP.val_main_v1 (F := Ideal) (m ((c.tc : Thread nD τ).loc main_arg1)) := by
  simp only [List.take_succ_cons, List.take_zero]
  after_results_simp
  simp only [ReadP.val_main_v1, ReadP.val_main_v0] <;> rfl

set_option maxRecDepth 16384 in
set_option maxHeartbeats 4000000 in
/-- The edge targets after 151 operations. -/
theorem P151_v3 :
    after (List.take 151 (ops (F := Ideal))) (launchContents m c) (Proc.devRef .tc main_v3)
      = ReadP.val_main_v3 (F := Ideal) (m ((c.tc : Thread nD τ).loc main_arg1)) := by
  simp only [List.take_succ_cons, List.take_zero]
  after_results_simp
  simp only [ReadP.val_main_v3, ReadP.val_main_v2] <;> rfl

/-- Operations 55 to 77 (bias, normalisation, rectification, the second dense product) on top of the first 55. -/
theorem P78_v64 :
    after (List.take 78 (ops (F := Ideal))) (launchContents m c) (Proc.devRef .tc main_v64)
      = ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [show List.take 78 (ops (F := Ideal)) = List.take (55 + 23) (ops (F := Ideal)) from rfl, after_take_add]
  exact seg_55_78 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (P55_v44 m c) (kept_take_main_arg3 (F := Ideal) m c 55) (kept_take_main_arg4 (F := Ideal) m c 55) (kept_take_main_arg5 (F := Ideal) m c 55) (kept_take_main_arg6 (F := Ideal) m c 55) (kept_take_main_arg7 (F := Ideal) m c 55) (kept_take_main_arg8 (F := Ideal) m c 55)

/-- Operations 78 to 127 (the second aggregation over the edges) on top of the first 78. -/
theorem P128_v104 :
    after (List.take 128 (ops (F := Ideal))) (launchContents m c) (Proc.devRef .tc main_v104)
      = ReadP.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [show List.take 128 (ops (F := Ideal)) = List.take (78 + 50) (ops (F := Ideal)) from rfl, after_take_add]
  exact seg_78_128 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (P78_v64 m c) (P78_v1 m c) (P78_v3 m c)

/-- Operations 128 to 150 (bias, normalisation, rectification, the third dense product) on top of the first 128. -/
theorem P151_v124 :
    after (List.take 151 (ops (F := Ideal))) (launchContents m c) (Proc.devRef .tc main_v124)
      = ReadP.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [show List.take 151 (ops (F := Ideal)) = List.take (128 + 23) (ops (F := Ideal)) from rfl, after_take_add]
  exact seg_128_151 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (P128_v104 m c) (kept_take_main_arg9 (F := Ideal) m c 128) (kept_take_main_arg10 (F := Ideal) m c 128) (kept_take_main_arg11 (F := Ideal) m c 128) (kept_take_main_arg12 (F := Ideal) m c 128) (kept_take_main_arg13 (F := Ideal) m c 128) (kept_take_main_arg14 (F := Ideal) m c 128)

/-- Operations 151 to 200 (the third aggregation over the edges) on top of the first 151. -/
theorem P201_v164 :
    after (List.take 201 (ops (F := Ideal))) (launchContents m c) (Proc.devRef .tc main_v164)
      = ReadP.val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [show List.take 201 (ops (F := Ideal)) = List.take (151 + 50) (ops (F := Ideal)) from rfl, after_take_add]
  exact seg_151_201 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (P151_v124 m c) (P151_v1 m c) (P151_v3 m c)

/-- Operations 201 to 241 (bias, normalisation, rectification, the output layer and its log-softmax) on top of the first 201. -/
theorem P242_v188 :
    after (List.take 242 (ops (F := Ideal))) (launchContents m c) (Proc.devRef .tc main_v188)
      = ReadP.val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  rw [show List.take 242 (ops (F := Ideal)) = List.take (201 + 41) (ops (F := Ideal)) from rfl, after_take_add]
  exact seg_201_242 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (P201_v164 m c) (kept_take_main_arg15 (F := Ideal) m c 201) (kept_take_main_arg16 (F := Ideal) m c 201) (kept_take_main_arg17 (F := Ideal) m c 201) (kept_take_main_arg18 (F := Ideal) m c 201) (kept_take_main_arg19 (F := Ideal) m c 201) (kept_take_main_arg20 (F := Ideal) m c 201) (kept_take_main_arg21 (F := Ideal) m c 201)

/-- All 242 operations: the result buffer holds the composed function of the 22 argument arrays. -/
theorem result_eq :
    after (ops (F := Ideal)) (launchContents m c) (Proc.devRef .tc main_v188)
      = ReadP.val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  have h := P242_v188 m c
  have e : List.take 242 (ops (F := Ideal)) = (ops (F := Ideal)) :=
    List.take_of_length_le (Nat.le_of_eq (rfl : ((ops (F := Ideal))).length = 242))
  rwa [e] at h

end Chain

/-- On every device, from any memory with zero counters: every weakly fair execution of the reference program
    terminates with the result buffer at the composed function of the argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v188) = ReadP.val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v188).trans (result_eq m c),
      (h c main_arg0).trans (kept_main_arg0 (F := Ideal) m c),
      (h c main_arg1).trans (kept_main_arg1 (F := Ideal) m c),
      (h c main_arg2).trans (kept_main_arg2 (F := Ideal) m c),
      (h c main_arg3).trans (kept_main_arg3 (F := Ideal) m c),
      (h c main_arg4).trans (kept_main_arg4 (F := Ideal) m c),
      (h c main_arg5).trans (kept_main_arg5 (F := Ideal) m c),
      (h c main_arg6).trans (kept_main_arg6 (F := Ideal) m c),
      (h c main_arg7).trans (kept_main_arg7 (F := Ideal) m c),
      (h c main_arg8).trans (kept_main_arg8 (F := Ideal) m c),
      (h c main_arg9).trans (kept_main_arg9 (F := Ideal) m c),
      (h c main_arg10).trans (kept_main_arg10 (F := Ideal) m c),
      (h c main_arg11).trans (kept_main_arg11 (F := Ideal) m c),
      (h c main_arg12).trans (kept_main_arg12 (F := Ideal) m c),
      (h c main_arg13).trans (kept_main_arg13 (F := Ideal) m c),
      (h c main_arg14).trans (kept_main_arg14 (F := Ideal) m c),
      (h c main_arg15).trans (kept_main_arg15 (F := Ideal) m c),
      (h c main_arg16).trans (kept_main_arg16 (F := Ideal) m c),
      (h c main_arg17).trans (kept_main_arg17 (F := Ideal) m c),
      (h c main_arg18).trans (kept_main_arg18 (F := Ideal) m c),
      (h c main_arg19).trans (kept_main_arg19 (F := Ideal) m c),
      (h c main_arg20).trans (kept_main_arg20 (F := Ideal) m c),
      (h c main_arg21).trans (kept_main_arg21 (F := Ideal) m c)⟩)
    (run_seq scopedRefs_eq scopedSems_eq defs main (fun _ => ops) main_eq (fun _ => ops_sub) m ρ)

end Cert.ReferenceIdeal.RunH

end
-- ==== Proof.KRun.lean ====
/-
  The idealized kernel program's run with its result named. From any memory with zero counters every weakly fair
  execution of the seven-region program terminates without a fault; its result array — the output of the last
  region — ends holding what the fold of the program's segments leaves there, and the argument arrays end as
  launched. The segments, their thread states and the fold are those of the program's frame; only the
  postcondition read off the final thread state is larger by the result buffer.
-/
import proofs.«153305_j4758823764428_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the fold's value there, the arguments as
    launched. -/
theorem run_value : θ_run defs (onTc (τ := τ) (main (F := F))) ⟨m, fun _ => 0, ρ⟩ (fun r => ∀ c : Dev nD,
      r.2.mem ((c.tc : Thread nD τ).loc main_v100) = W12 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v100 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c)⟩)

end Cert.KernelIdeal.RunValue

end
-- ==== Proof.Spec.lean ====
/-
  The dense pieces of a three-layer graph-convolution network with a two-class head, written index by index on the
  extended reals. Nothing here mentions a program: these are the functions both programs are shown to compute.

  * `lin x w` is the matrix product, entry `(p, q)` the sum over `k` of `x (p, k) · w (k, q)`.
  * `bnrelu a b g be rm rv` is bias, evaluation-mode batch normalisation and rectification of the rows of `a`:
    entry `(p, q)` is `max ((((a (p, q) + b q) − rm q) · (rv q + ε)^(−1/2)) · g q + be q) 0`.
  * `addRow a b` adds the vector `b` to every row of `a`.
  * `lsmOuter` and `lsmInner` are two spellings of the logarithm of the softmax of a row of two logits: with
    `m` the larger logit and `s = e^(l₀ − m) + e^(l₁ − m)`, the first is `l − (m + log s)`, the second
    `(l − m) − log s`. They agree on real logits (`Proof/LogSoftmax.lean`); they differ when a logit is `+∞`.
  * `rowOf` reads the one row of a `1 × D` array as a vector of length `D`.
-/
import Idealize.ShloMosaic.PureOps.Ideal.Laws
import Idealize.ShloMosaic.Lib.ValueIdx

noncomputable section

open scoped BigOperators

namespace Cert.Spec

open Idealize.ShloMosaic Idealize.ShloMosaic.ValueIdx

/-- The matrix product `[M, K] · [K, N]`. -/
def lin {M K N : ℕ} (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- The one row of a `1 × D` array, as a vector. -/
def rowOf {D : ℕ} (v : (⟨2, ![1, D]⟩ : Shape).Idx → EReal) : (⟨1, ![D]⟩ : Shape).Idx → EReal :=
  fun i => v (ix2 (0 : Fin 1) (i 0))

/-- The batch-normalisation epsilon: the single-precision number nearest to `1e-5`. -/
def eps : EReal := Ideal.ofBits .f32 0x3727C5AC#32

/-- Bias, evaluation-mode batch normalisation, rectification. -/
def bnrelu {M D : ℕ} (a : (⟨2, ![M, D]⟩ : Shape).Idx → EReal) (b g be rm rv : (⟨1, ![D]⟩ : Shape).Idx → EReal) :
    (⟨2, ![M, D]⟩ : Shape).Idx → EReal :=
  fun j => max ((((a j + b (ix1 (j 1))) - rm (ix1 (j 1))) * Ideal.rsqrt (rv (ix1 (j 1)) + eps)) * g (ix1 (j 1))
    + be (ix1 (j 1))) 0

/-- A vector added to every row. -/
def addRow {M D : ℕ} (a : (⟨2, ![M, D]⟩ : Shape).Idx → EReal) (b : (⟨1, ![D]⟩ : Shape).Idx → EReal) :
    (⟨2, ![M, D]⟩ : Shape).Idx → EReal :=
  fun j => a j + b (ix1 (j 1))

/-- The larger of a row's two logits. -/
def rowMax {M : ℕ} (L : (⟨2, ![M, 2]⟩ : Shape).Idx → EReal) (p : Fin M) : EReal :=
  max (L (ix2 p (0 : Fin 2))) (L (ix2 p (1 : Fin 2)))

/-- The sum of the exponentials of a row's two logits, each shifted by the larger one. -/
def rowSumExp {M : ℕ} (L : (⟨2, ![M, 2]⟩ : Shape).Idx → EReal) (p : Fin M) : EReal :=
  Ideal.exp (L (ix2 p (0 : Fin 2)) - rowMax L p) + Ideal.exp (L (ix2 p (1 : Fin 2)) - rowMax L p)

/-- Log-softmax with the shift added back to the logarithm before subtracting: `l − (m + log s)`. -/
def lsmOuter {M : ℕ} (L : (⟨2, ![M, 2]⟩ : Shape).Idx → EReal) : (⟨2, ![M, 2]⟩ : Shape).Idx → EReal :=
  fun j => L j - (rowMax L (j 0) + Ideal.log (rowSumExp L (j 0)))

/-- Log-softmax of the shifted logits: `(l − m) − log s`. -/
def lsmInner {M : ℕ} (L : (⟨2, ![M, 2]⟩ : Shape).Idx → EReal) : (⟨2, ![M, 2]⟩ : Shape).Idx → EReal :=
  fun j => (L j - rowMax L (j 0)) - Ideal.log (rowSumExp L (j 0))

/-- Every entry is a real number. -/
def AllReal {s : Shape} (v : s.Idx → EReal) : Prop := ∀ i, ∃ r : ℝ, v i = (r : EReal)

end Cert.Spec

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.KMatmul.lean ====
/-
  The three dense layers of the kernel program, each as ONE matrix product of whole arrays.

  Each of these regions walks the 100000 rows of its left operand in twenty blocks of 5000 rows, with the small right
  operand whole at every step, and writes the block's product into the same rows of the result. Entry `(p, q)` of
  the product of row block `t` is the sum over `k` of `x (5000 t + p, k) · w (k, q)`, which is entry
  `(5000 t + p, q)` of the product of the whole arrays; the twenty blocks tile the result, so after the region the
  result array is `Cert.Spec.lin` of the two operand arrays as the region found them. On the extended reals the
  narrowing of the operands to a shorter format before the product is the identity.
-/
import proofs.«153305_j4758823764428_1_alg».proof.Proof.Gen.KernelIdeal.Frame
import proofs.«153305_j4758823764428_1_alg».proof.Proof.Spec
import proofs.«153305_j4758823764428_1_alg».proof.Proof.LibPlainMatmul
import Idealize.ShloMosaic.PureOps.Ideal.Laws
import Idealize.ShloMosaic.Lib.ValueIdx
import Idealize.ShloMosaic.Lib.Pipeline.Value

noncomputable section

open scoped BigOperators

namespace Cert.KMatmul

open Idealize.ShloMosaic Idealize.ShloMosaic.ValueIdx Idealize.ShloMosaic.TcCoe
open Idealize.SL.Sem
open Idealize.ShloMosaic.Pipeline (Dat Cfg Window)
open Cert.KernelIdeal Cert.KernelIdeal.Gen

/-- The matrix product read at the entry `(p, q)`. -/
theorem lin_ix2 {M K N : ℕ} (x : (⟨2, ![M, K]⟩ : Shape).Idx → EReal) (w : (⟨2, ![K, N]⟩ : Shape).Idx → EReal)
    (p : Fin M) (q : Fin N) : Cert.Spec.lin x w (ix2 p q) = ∑ k : Fin K, x (ix2 p k) * w (ix2 k q) := rfl

/-- The zero offset of a block read or written whole. -/
theorem hz : (![0, 0] : Fin 2 → Nat) = fun _ => 0 := funext fun a => by fin_cases a <;> rfl

variable (V : (c : Dev nD) → (b : Ref sig .tc) → Buf (Elt Ideal) ((c : Thread nD τ).loc b))

/-! ## The first product: `[100000, 8] · [8, 64]` -/

/-- One row block's product at the entry `(p, q)`: the change of format of both operands is the identity on the
    extended reals and the product into the zero matrix is the sum over the contracted axis. -/
theorem pay0_apply (x0 : Vec Ideal S5000x8 .f32) (x1 : Vec Ideal S8x64 .f32) (p : Fin 5000) (q : Fin 64) :
    k0_pay1 (F := Ideal) x0 x1 (ix2 p q) = ∑ k : Fin 8, x0 (ix2 p k) * x1 (ix2 k q) := by
  unfold k0_pay1
  exact Cert.LibPlainMatmul.matmul_plain_zero_apply dot_S5000x8_S8x64_S5000x64_1_0_0_1_n_n rfl none
    (truncf .bf16 x0 bitsLt_bf16_f32) (truncf .bf16 x1 bitsLt_bf16_f32) p q

/-- Where the three blocks sit at grid point `t`: the left operand's and the result's at row block `t`, column block
    `0`; the right operand's at `(0, 0)`, the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `5000 t + p` of the whole left operand. -/
theorem iblk0_0_apply (c : Dev nD) (t : Fin cfg0.N) (p : Fin 5000) (k : Fin 8) (r : Fin 100000)
    (hr : r.val = t.val * 5000 + p.val) :
    (iblk0 V c 0 t : Vec Ideal S5000x8 .f32) (ix2 p k) = (V c main_arg0 : S100000x8.Idx → Elt Ideal .f32) (ix2 r k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 8 + 1 * k.val = k.val; rw [e1]; omega

/-- The right operand's block is the whole right operand at every point. -/
theorem iblk0_1_apply (c : Dev nD) (t : Fin cfg0.N) (k : Fin 8) (q : Fin 64) :
    (iblk0 V c 1 t : Vec Ideal S8x64 .f32) (ix2 k q) = (V c main_arg2 : S8x64.Idx → Elt Ideal .f32) (ix2 k q) := by
  obtain ⟨-, -, e2, e3, -, -⟩ := idx_facts0 t
  unfold iblk0
  rw [View.read_apply]
  show V c main_arg2 _ = V c main_arg2 _
  congr 1
  funext a
  apply Fin.ext
  match a with
  | ⟨0, _⟩ => show win0_1.index t 0 * 8 + 1 * k.val = k.val; rw [e2]; omega
  | ⟨1, _⟩ => show win0_1.index t 1 * 64 + 1 * q.val = q.val; rw [e3]; omega

/-- What point `t` writes back is row block `t` of the matrix product of the two whole operands: entry `(p, q)` of the
    block's product sums `x (5000 t + p, k) · w (k, q)` over `k`, which is entry `(5000 t + p, q)` of the whole product. -/
theorem flushed0 (c : Dev nD) (t : Fin cfg0.N) :
    (dat0 (F := Ideal) V c).flushed 2 t
      = ((cfg0.win 2).blk t).view.read (Elt Ideal) (Cert.Spec.lin (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x8) hz, View.ld_unit_zero (S := S8x64) hz]
  funext j
  obtain ⟨-, -, -, -, e4, e5⟩ := idx_facts0 t
  have hj0 : (j 0).val < 5000 := (j 0).isLt
  have ht : t.val < 20 := lt_of_lt_of_eq t.isLt N_0
  obtain ⟨r, hr⟩ : ∃ r : Fin 100000, r.val = t.val * 5000 + (j 0).val := ⟨⟨t.val * 5000 + (j 0).val, by omega⟩, rfl⟩
  have hemb : ((cfg0.win 2).blk t).view.emb j = ix2 r (j 1) := funext fun a => Fin.ext (by
    match a with
    | ⟨0, _⟩ => show win0_2.index t 0 * 5000 + 1 * (j 0).val = r.val; rw [e4, hr]; omega
    | ⟨1, _⟩ => show win0_2.index t 1 * 64 + 1 * (j 1).val = (j 1).val; rw [e5]; omega)
  show k0_pay1 (F := Ideal) (iblk0 V c 0 t) (iblk0 V c 1 t) j
    = Cert.Spec.lin (V c main_arg0) (V c main_arg2) (((cfg0.win 2).blk t).view.emb j)
  refine Eq.trans ?_ (congrArg (Cert.Spec.lin (V c main_arg0) (V c main_arg2)) hemb.symm)
  refine (congrArg (k0_pay1 (F := Ideal) (iblk0 V c 0 t) (iblk0 V c 1 t)) (eq_ix2 j)).trans ?_
  refine (pay0_apply _ _ (j 0) (j 1)).trans ?_
  refine Eq.trans ?_ (lin_ix2 (V c main_arg0) (V c main_arg2) r (j 1)).symm
  refine Finset.sum_congr rfl fun k _ => ?_
  rw [iblk0_0_apply V c t (j 0) k r hr, iblk0_1_apply V c t k (j 1)]

/-- An entry of the result is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- The twenty row blocks cover the result: row `r` is in the block of point `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- After the region the result array is the matrix product of the two operand arrays as the region found them. -/
theorem region0_lin (c : Dev nD) :
    (dat0 (F := Ideal) V c).arrAt 2 cfg0.N = Cert.Spec.lin (V c main_arg0) (V c main_arg2) :=
  (dat0 (F := Ideal) V c).arrAt_eq_of_cover 2 (Cert.Spec.lin (V c main_arg0) (V c main_arg2))
    (fun t _ => flushed0 V c t) cover0

/-! ## The second product: `[100000, 64] · [64, 64]` -/

/-- One row block's product at the entry `(p, q)`: the change of format of both operands is the identity on the
    extended reals, so is the recast to the same shape, and the product into the zero matrix is the sum over the contracted axis. -/
theorem pay2_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  refine (Cert.LibPlainMatmul.matmul_plain_zero_apply dot_S5000x64_S64x64_S5000x64_1_0_0_1_n_n rfl none
    (truncf .bf16 (shapeCast S5000x64 x0 shapeCasts_S5000x64_S5000x64) bitsLt_bf16_f32) (truncf .bf16 x1 bitsLt_bf16_f32) p q).trans ?_
  refine Finset.sum_congr rfl fun k _ => ?_
  rw [truncf_apply, truncf_apply, shapeCast_self]

/-- Where the three blocks sit at grid point `t`: the left operand's and the result's at row block `t`, column block
    `0`; the right operand's at `(0, 0)`, the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the left operand's block at point `t` is row `5000 t + p` of the whole left operand. -/
theorem iblk2_0_apply (c : Dev nD) (t : Fin cfg2.N) (p : Fin 5000) (k : Fin 64) (r : Fin 100000)
    (hr : r.val = t.val * 5000 + p.val) :
    (iblk2 V c 0 t : Vec Ideal S5000x64 .f32) (ix2 p k) = (V c main_v50 : S100000x64.Idx → Elt Ideal .f32) (ix2 r k) := by
  obtain ⟨e0, e1, -, -, -, -⟩ := idx_facts2 t
  unfold iblk2
  rw [View.read_apply]
  show V c main_v50 _ = V c main_v50 _
  congr 1
  funext a
  apply Fin.ext
  match a with
  | ⟨0, _⟩ => show win2_0.index t 0 * 5000 + 1 * p.val = r.val; rw [e0, hr]; omega
  | ⟨1, _⟩ => show win2_0.index t 1 * 64 + 1 * k.val = k.val; rw [e1]; omega

/-- The right operand's block is the whole right operand at every point. -/
theorem iblk2_1_apply (c : Dev nD) (t : Fin cfg2.N) (k : Fin 64) (q : Fin 64) :
    (iblk2 V c 1 t : Vec Ideal S64x64 .f32) (ix2 k q) = (V c main_arg8 : S64x64.Idx → Elt Ideal .f32) (ix2 k q) := by
  obtain ⟨-, -, e2, e3, -, -⟩ := idx_facts2 t
  unfold iblk2
  rw [View.read_apply]
  show V c main_arg8 _ = V c main_arg8 _
  congr 1
  funext a
  apply Fin.ext
  match a with
  | ⟨0, _⟩ => show win2_1.index t 0 * 64 + 1 * k.val = k.val; rw [e2]; omega
  | ⟨1, _⟩ => show win2_1.index t 1 * 64 + 1 * q.val = q.val; rw [e3]; omega

/-- What point `t` writes back is row block `t` of the matrix product of the two whole operands: entry `(p, q)` of the
    block's product sums `x (5000 t + p, k) · w (k, q)` over `k`, which is entry `(5000 t + p, q)` of the whole product. -/
theorem flushed2 (c : Dev nD) (t : Fin cfg2.N) :
    (dat2 (F := Ideal) V c).flushed 2 t
      = ((cfg2.win 2).blk t).view.read (Elt Ideal) (Cert.Spec.lin (V c main_v50) (V c main_arg8)) := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S64x64) hz]
  funext j
  obtain ⟨-, -, -, -, e4, e5⟩ := idx_facts2 t
  have hj0 : (j 0).val < 5000 := (j 0).isLt
  have ht : t.val < 20 := lt_of_lt_of_eq t.isLt N_2
  obtain ⟨r, hr⟩ : ∃ r : Fin 100000, r.val = t.val * 5000 + (j 0).val := ⟨⟨t.val * 5000 + (j 0).val, by omega⟩, rfl⟩
  have hemb : ((cfg2.win 2).blk t).view.emb j = ix2 r (j 1) := funext fun a => Fin.ext (by
    match a with
    | ⟨0, _⟩ => show win2_2.index t 0 * 5000 + 1 * (j 0).val = r.val; rw [e4, hr]; omega
    | ⟨1, _⟩ => show win2_2.index t 1 * 64 + 1 * (j 1).val = (j 1).val; rw [e5]; omega)
  show k2_pay1 (F := Ideal) (iblk2 V c 0 t) (iblk2 V c 1 t) j
    = Cert.Spec.lin (V c main_v50) (V c main_arg8) (((cfg2.win 2).blk t).view.emb j)
  refine Eq.trans ?_ (congrArg (Cert.Spec.lin (V c main_v50) (V c main_arg8)) hemb.symm)
  refine (congrArg (k2_pay1 (F := Ideal) (iblk2 V c 0 t) (iblk2 V c 1 t)) (eq_ix2 j)).trans ?_
  refine (pay2_apply _ _ (j 0) (j 1)).trans ?_
  refine Eq.trans ?_ (lin_ix2 (V c main_v50) (V c main_arg8) r (j 1)).symm
  refine Finset.sum_congr rfl fun k _ => ?_
  rw [iblk2_0_apply V c t (j 0) k r hr, iblk2_1_apply V c t k (j 1)]

/-- An entry of the result is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v51).slice (win2_2.rect t)).set ↔ _
  rw [View.set_slice_whole, Rect.mem_set_unit]
  exact Iff.rfl

/-- The twenty row blocks cover the result: row `r` is in the block of point `r / 5000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 64 ≤ (i 1).val ∧ (i 1).val < win2_2.index t (1 : Fin 2) * 64 + 64
    rw [e5]; omega

/-- After the region the result array is the matrix product of the two operand arrays as the region found them. -/
theorem region2_lin (c : Dev nD) :
    (dat2 (F := Ideal) V c).arrAt 2 cfg2.N = Cert.Spec.lin (V c main_v50) (V c main_arg8) :=
  (dat2 (F := Ideal) V c).arrAt_eq_of_cover 2 (Cert.Spec.lin (V c main_v50) (V c main_arg8))
    (fun t _ => flushed2 V c t) cover2

/-! ## The third product: `[100000, 64] · [64, 32]` -/

/-- One row block's product at the entry `(p, q)`: the change of format of both operands is the identity on the
    extended reals, so is the recast to the same shape, and the product into the zero matrix is the sum over the contracted axis. -/
theorem pay4_apply (x0 : Vec Ideal S5000x64 .f32) (x1 : Vec Ideal S64x32 .f32) (p : Fin 5000) (q : Fin 32) :
    k4_pay1 (F := Ideal) x0 x1 (ix2 p q) = ∑ k : Fin 64, x0 (ix2 p k) * x1 (ix2 k q) := by
  unfold k4_pay1
  refine (Cert.LibPlainMatmul.matmul_plain_zero_apply dot_S5000x64_S64x32_S5000x32_1_0_0_1_n_n rfl none
    (truncf .bf16 (shapeCast S5000x64 x0 shapeCasts_S5000x64_S5000x64) bitsLt_bf16_f32) (truncf .bf16 x1 bitsLt_bf16_f32) p q).trans ?_
  refine Finset.sum_congr rfl fun k _ => ?_
  rw [truncf_apply, truncf_apply, shapeCast_self]

/-- Where the three blocks sit at grid point `t`: the left operand's and the result's at row block `t`, column block
    `0`; the right operand's at `(0, 0)`, the whole matrix. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `p` of the left operand's block at point `t` is row `5000 t + p` of the whole left operand. -/
theorem iblk4_0_apply (c : Dev nD) (t : Fin cfg4.N) (p : Fin 5000) (k : Fin 64) (r : Fin 100000)
    (hr : r.val = t.val * 5000 + p.val) :
    (iblk4 V c 0 t : Vec Ideal S5000x64 .f32) (ix2 p k) = (V c main_v74 : S100000x64.Idx → Elt Ideal .f32) (ix2 r k) := by
  obtain ⟨e0, e1, -, -, -, -⟩ := idx_facts4 t
  unfold iblk4
  rw [View.read_apply]
  show V c main_v74 _ = V c main_v74 _
  congr 1
  funext a
  apply Fin.ext
  match a with
  | ⟨0, _⟩ => show win4_0.index t 0 * 5000 + 1 * p.val = r.val; rw [e0, hr]; omega
  | ⟨1, _⟩ => show win4_0.index t 1 * 64 + 1 * k.val = k.val; rw [e1]; omega

/-- The right operand's block is the whole right operand at every point. -/
theorem iblk4_1_apply (c : Dev nD) (t : Fin cfg4.N) (k : Fin 64) (q : Fin 32) :
    (iblk4 V c 1 t : Vec Ideal S64x32 .f32) (ix2 k q) = (V c main_arg14 : S64x32.Idx → Elt Ideal .f32) (ix2 k q) := by
  obtain ⟨-, -, e2, e3, -, -⟩ := idx_facts4 t
  unfold iblk4
  rw [View.read_apply]
  show V c main_arg14 _ = V c main_arg14 _
  congr 1
  funext a
  apply Fin.ext
  match a with
  | ⟨0, _⟩ => show win4_1.index t 0 * 64 + 1 * k.val = k.val; rw [e2]; omega
  | ⟨1, _⟩ => show win4_1.index t 1 * 32 + 1 * q.val = q.val; rw [e3]; omega

/-- What point `t` writes back is row block `t` of the matrix product of the two whole operands: entry `(p, q)` of the
    block's product sums `x (5000 t + p, k) · w (k, q)` over `k`, which is entry `(5000 t + p, q)` of the whole product. -/
theorem flushed4 (c : Dev nD) (t : Fin cfg4.N) :
    (dat4 (F := Ideal) V c).flushed 2 t
      = ((cfg4.win 2).blk t).view.read (Elt Ideal) (Cert.Spec.lin (V c main_v74) (V c main_arg14)) := by
  show (cfg4.win 2).cut (grid4.coords t) ((dat4 (F := Ideal) V c).after 2 t) = _
  rw [after4_2]
  unfold out4_2
  rw [View.canon_unit_zero hz]
  simp only [View.ld_unit_zero (S := S5000x64) hz, View.ld_unit_zero (S := S64x32) hz]
  funext j
  obtain ⟨-, -, -, -, e4, e5⟩ := idx_facts4 t
  have hj0 : (j 0).val < 5000 := (j 0).isLt
  have ht : t.val < 20 := lt_of_lt_of_eq t.isLt N_4
  obtain ⟨r, hr⟩ : ∃ r : Fin 100000, r.val = t.val * 5000 + (j 0).val := ⟨⟨t.val * 5000 + (j 0).val, by omega⟩, rfl⟩
  have hemb : ((cfg4.win 2).blk t).view.emb j = ix2 r (j 1) := funext fun a => Fin.ext (by
    match a with
    | ⟨0, _⟩ => show win4_2.index t 0 * 5000 + 1 * (j 0).val = r.val; rw [e4, hr]; omega
    | ⟨1, _⟩ => show win4_2.index t 1 * 32 + 1 * (j 1).val = (j 1).val; rw [e5]; omega)
  show k4_pay1 (F := Ideal) (iblk4 V c 0 t) (iblk4 V c 1 t) j
    = Cert.Spec.lin (V c main_v74) (V c main_arg14) (((cfg4.win 2).blk t).view.emb j)
  refine Eq.trans ?_ (congrArg (Cert.Spec.lin (V c main_v74) (V c main_arg14)) hemb.symm)
  refine (congrArg (k4_pay1 (F := Ideal) (iblk4 V c 0 t) (iblk4 V c 1 t)) (eq_ix2 j)).trans ?_
  refine (pay4_apply _ _ (j 0) (j 1)).trans ?_
  refine Eq.trans ?_ (lin_ix2 (V c main_v74) (V c main_arg14) r (j 1)).symm
  refine Finset.sum_congr rfl fun k _ => ?_
  rw [iblk4_0_apply V c t (j 0) k r hr, iblk4_1_apply V c t k (j 1)]

/-- An entry of the result is in point `t`'s block iff each coordinate is in the block's range on its axis. -/
theorem mem_blk4 (t : Fin cfg4.N) (i : S100000x32.Idx) :
    i ∈ ((cfg4.win 2).blk t).view.set ↔ ∀ a : Fin 2, win4_2.index t a * S5000x32.size a ≤ (i a).val
      ∧ (i a).val < win4_2.index t a * S5000x32.size a + S5000x32.size a := by
  show i ∈ ((View.whole main_v75).slice (win4_2.rect t)).set ↔ _
  rw [View.set_slice_whole, Rect.mem_set_unit]
  exact Iff.rfl

/-- The twenty row blocks cover the result: row `r` is in the block of point `r / 5000`. -/
theorem cover4 (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨-, -, -, -, e4, e5⟩ := idx_facts4 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 32 ≤ (i 1).val ∧ (i 1).val < win4_2.index t (1 : Fin 2) * 32 + 32
    rw [e5]; omega

/-- After the region the result array is the matrix product of the two operand arrays as the region found them. -/
theorem region4_lin (c : Dev nD) :
    (dat4 (F := Ideal) V c).arrAt 2 cfg4.N = Cert.Spec.lin (V c main_v74) (V c main_arg14) :=
  (dat4 (F := Ideal) V c).arrAt_eq_of_cover 2 (Cert.Spec.lin (V c main_v74) (V c main_arg14))
    (fun t _ => flushed4 V c t) cover4

end Cert.KMatmul

end
-- ==== Proof.KBn.lean ====
/-
  The three bias, batch-normalisation and rectification regions of the kernel program, each read as one function of
  the arrays the region finds on entry. Per layer: the stored value at one row and column of a block; a block whose
  rows are rows of the aggregate; where each window's block sits in its array at a grid point; what a point writes
  back as a block of the normalised, rectified array; which point's block holds a given row; the whole array after
  the region.
-/
import proofs.«153305_j4758823764428_1_alg».proof.Proof.Gen.KernelIdeal.Frame
import proofs.«153305_j4758823764428_1_alg».proof.Proof.Spec
import Idealize.ShloMosaic.Lib.Pipeline.Value
import Idealize.ShloMosaic.Lib.ValueLayout

noncomputable section

namespace Cert.KBn

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant-zero function. -/
theorem hz : (![0, 0] : Fin 2 → Nat) = fun _ => 0 := funext fun a => by fin_cases a <;> rfl

/-! ## Layer 1: rows of width 64 -/

/-- The stored value at row `p`, column `q` of a block: the block's entry plus the bias, minus the running mean,
    times the reciprocal square root of the running variance plus epsilon, times the scale, plus the shift, and
    the larger of that and zero — every vector read at column `q` of its single row. -/
theorem pay1_apply (x0 : Vec Ideal S5000x64 .f32) (vb vrv vrm vg vbe : Vec Ideal S1x64 .f32) (p : Fin 5000) (q : Fin 64) :
    k1_pay1 (F := Ideal) x0 vb vrv vrm vg vbe (ix2 p q)
      = max ((((x0 (ix2 p q) + vb (ix2 (0 : Fin 1) q)) - vrm (ix2 (0 : Fin 1) q))
          * Ideal.rsqrt (vrv (ix2 (0 : Fin 1) q) + Cert.Spec.eps)) * vg (ix2 (0 : Fin 1) q) + vbe (ix2 (0 : Fin 1) q)) 0 := by
  unfold k1_pay1
  simp only [shapeCast_self]
  rw [maximumf_apply, addf_apply, mulf_apply, mulf_apply, subf_apply, addf_apply,
    broadcastTo_1b_ab_apply, broadcastTo_1b_ab_apply, broadcastTo_1b_ab_apply, broadcastTo_1b_ab_apply,
    broadcastTo_1b_ab_apply, broadcast_apply]
  simp only [Ideal.ofBits_def, Ideal.ofBits_zero_f32]
  rfl

/-- A block whose rows are rows `r p` of an array `A`, with the five vectors those of the one-row arrays
    `B G BE RM RV`, stores the normalised and rectified rows `r p` of `A`. -/
theorem block1 (x0 : Vec Ideal S5000x64 .f32) (vb vg vbe vrm vrv : Vec Ideal S1x64 .f32)
    (A : S100000x64.Idx → EReal) (B G BE RM RV : S1x64.Idx → EReal) (r : Fin 5000 → Fin 100000)
    (hA : ∀ p q, x0 (ix2 p q) = A (ix2 (r p) q))
    (hB : ∀ q : Fin 64, vb (ix2 (0 : Fin 1) q) = B (ix2 (0 : Fin 1) q))
    (hG : ∀ q : Fin 64, vg (ix2 (0 : Fin 1) q) = G (ix2 (0 : Fin 1) q))
    (hBE : ∀ q : Fin 64, vbe (ix2 (0 : Fin 1) q) = BE (ix2 (0 : Fin 1) q))
    (hRM : ∀ q : Fin 64, vrm (ix2 (0 : Fin 1) q) = RM (ix2 (0 : Fin 1) q))
    (hRV : ∀ q : Fin 64, vrv (ix2 (0 : Fin 1) q) = RV (ix2 (0 : Fin 1) q)) (p : Fin 5000) (q : Fin 64) :
    k1_pay1 (F := Ideal) x0 vb vrv vrm vg vbe (ix2 p q)
      = Cert.Spec.bnrelu A (Cert.Spec.rowOf B) (Cert.Spec.rowOf G) (Cert.Spec.rowOf BE) (Cert.Spec.rowOf RM)
          (Cert.Spec.rowOf RV) (ix2 (r p) q) := by
  rw [pay1_apply, hA, hB, hG, hBE, hRM, hRV]
  rfl

/-- The index maps over the twenty grid points: the aggregate's and the output's block index is the point on the
    row axis and zero on the column axis; the five one-row arrays sit at block zero. -/
theorem idx_facts1 : ∀ t : Fin cfg1.N, win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of the block at point `t` is row `5000 t + p` of the array. -/
def row1 (t : Fin cfg1.N) (p : Fin 5000) : Fin 100000 :=
  ⟨t.val * 5000 + p.val, by have ht : t.val < 20 := lt_of_lt_of_eq t.isLt N_1; have hp := p.isLt; omega⟩

theorem flushed1_eq (c : Dev nD) (t : Fin cfg1.N) :
    (dat1 (F := Ideal) V c).flushed 6 t = ((cfg1.win 6).blk t).view.read (Elt Ideal)
      (Cert.Spec.bnrelu (V c main_v44) (Cert.Spec.rowOf (V c main_v45)) (Cert.Spec.rowOf (V c main_v46))
        (Cert.Spec.rowOf (V c main_v47)) (Cert.Spec.rowOf (V c main_v48)) (Cert.Spec.rowOf (V c main_v49))) := by
  show (cfg1.win 6).cut (grid1.coords t) ((dat1 V c).after 6 t) = _
  rw [after1_6]
  unfold out1_6
  rw [View.canon_unit_zero hz]
  simp only [View.ld_unit_zero (S := S5000x64) hz, View.ld_unit_zero (S := S1x64) hz]
  obtain ⟨e00, e01, e60, e61, e10, e11, e20, e21, e30, e31, e40, e41, e50, e51⟩ := idx_facts1 t
  funext j
  show k1_pay1 (F := Ideal) (iblk1 V c 0 t) (iblk1 V c 1 t) (iblk1 V c 5 t) (iblk1 V c 4 t) (iblk1 V c 2 t) (iblk1 V c 3 t) j
    = Cert.Spec.bnrelu (V c main_v44) (Cert.Spec.rowOf (V c main_v45)) (Cert.Spec.rowOf (V c main_v46))
        (Cert.Spec.rowOf (V c main_v47)) (Cert.Spec.rowOf (V c main_v48)) (Cert.Spec.rowOf (V c main_v49))
        (((cfg1.win 6).blk t).view.emb j)
  have hemb : ((cfg1.win 6).blk t).view.emb j = ix2 (row1 t (j 0)) (j 1) := by
    funext a; apply Fin.ext
    match a with
    | ⟨0, _⟩ => show win1_6.index t (0 : Fin 2) * 5000 + 1 * (j 0).val = t.val * 5000 + (j 0).val; rw [e60]; omega
    | ⟨1, _⟩ => show win1_6.index t (1 : Fin 2) * 64 + 1 * (j 1).val = (j 1).val; rw [e61]; omega
  rw [hemb]
  refine (congrArg _ (eq_ix2 j)).trans ?_
  refine block1 _ _ _ _ _ _ _ _ _ _ _ _ (row1 t) ?_ ?_ ?_ ?_ ?_ ?_ (j 0) (j 1)
  · intro p q
    show V c main_v44 (((cfg1.win 0).blk t).view.emb (ix2 p q)) = V c main_v44 (ix2 (row1 t p) q)
    refine congrArg (V c main_v44 : S100000x64.Idx → EReal) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * q.val = q.val; rw [e01]; omega
  · intro q
    show V c main_v45 (((cfg1.win 1).blk t).view.emb (ix2 (0 : Fin 1) q)) = V c main_v45 (ix2 (0 : Fin 1) q)
    refine congrArg (V c main_v45 : S1x64.Idx → EReal) (funext fun a => Fin.ext ?_)
    match a with
    | ⟨0, _⟩ => show win1_1.index t (0 : Fin 2) * 1 + 1 * 0 = 0; rw [e10]
    | ⟨1, _⟩ => show win1_1.index t (1 : Fin 2) * 64 + 1 * q.val = q.val; rw [e11]; omega
  · intro q
    show V c main_v46 (((cfg1.win 2).blk t).view.emb (ix2 (0 : Fin 1) q)) = V c main_v46 (ix2 (0 : Fin 1) q)
    refine congrArg (V c main_v46 : S1x64.Idx → EReal) (funext fun a => Fin.ext ?_)
    match a with
    | ⟨0, _⟩ => show win1_2.index t (0 : Fin 2) * 1 + 1 * 0 = 0; rw [e20]
    | ⟨1, _⟩ => show win1_2.index t (1 : Fin 2) * 64 + 1 * q.val = q.val; rw [e21]; omega
  · intro q
    show V c main_v47 (((cfg1.win 3).blk t).view.emb (ix2 (0 : Fin 1) q)) = V c main_v47 (ix2 (0 : Fin 1) q)
    refine congrArg (V c main_v47 : S1x64.Idx → EReal) (funext fun a => Fin.ext ?_)
    match a with
    | ⟨0, _⟩ => show win1_3.index t (0 : Fin 2) * 1 + 1 * 0 = 0; rw [e30]
    | ⟨1, _⟩ => show win1_3.index t (1 : Fin 2) * 64 + 1 * q.val = q.val; rw [e31]; omega
  · intro q
    show V c main_v48 (((cfg1.win 4).blk t).view.emb (ix2 (0 : Fin 1) q)) = V c main_v48 (ix2 (0 : Fin 1) q)
    refine congrArg (V c main_v48 : S1x64.Idx → EReal) (funext fun a => Fin.ext ?_)
    match a with
    | ⟨0, _⟩ => show win1_4.index t (0 : Fin 2) * 1 + 1 * 0 = 0; rw [e40]
    | ⟨1, _⟩ => show win1_4.index t (1 : Fin 2) * 64 + 1 * q.val = q.val; rw [e41]; omega
  · intro q
    show V c main_v49 (((cfg1.win 5).blk t).view.emb (ix2 (0 : Fin 1) q)) = V c main_v49 (ix2 (0 : Fin 1) q)
    refine congrArg (V c main_v49 : S1x64.Idx → EReal) (funext fun a => Fin.ext ?_)
    match a with
    | ⟨0, _⟩ => show win1_5.index t (0 : Fin 2) * 1 + 1 * 0 = 0; rw [e50]
    | ⟨1, _⟩ => show win1_5.index t (1 : Fin 2) * 64 + 1 * q.val = q.val; rw [e51]; omega

/-- An index of the output array lies in the block of point `t` exactly when each coordinate lies in the block's
    range on its axis. -/
theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v50).slice (win1_6.rect t)).set ↔ _
  rw [View.set_slice_whole, Rect.mem_set_unit]
  exact Iff.rfl

/-- After the region the whole output array is the normalised, rectified aggregate: every point writes its block
    of that one array, and row `r` lies in the block of point `r / 5000`. -/
theorem region1_bnrelu (c : Dev nD) : (dat1 (F := Ideal) V c).arrAt 6 cfg1.N
    = Cert.Spec.bnrelu (V c main_v44) (Cert.Spec.rowOf (V c main_v45)) (Cert.Spec.rowOf (V c main_v46))
        (Cert.Spec.rowOf (V c main_v47)) (Cert.Spec.rowOf (V c main_v48)) (Cert.Spec.rowOf (V c main_v49)) :=
  (dat1 (F := Ideal) V c).arrAt_eq_of_cover 6 _ (fun t _ => flushed1_eq V c t) fun i => by
    have hi0 : (i 0).val < 100000 := (i 0).isLt
    have hi1 : (i 1).val < 64 := (i 1).isLt
    obtain ⟨t, ht⟩ : ∃ t : Fin cfg1.N, t.val = (i 0).val / 5000 :=
      ⟨⟨(i 0).val / 5000, by show (i 0).val / 5000 < grid1.N; rw [N_1]; omega⟩, rfl⟩
    obtain ⟨-, -, e60, e61, -⟩ := idx_facts1 t
    refine ⟨t, flush1_6 t, ?_⟩
    rw [mem_blk1]
    intro a
    match a with
    | ⟨0, _⟩ =>
      show win1_6.index t (0 : Fin 2) * 5000 ≤ (i 0).val ∧ (i 0).val < win1_6.index t (0 : Fin 2) * 5000 + 5000
      rw [e60, ht]; omega
    | ⟨1, _⟩ =>
      show win1_6.index t (1 : Fin 2) * 64 ≤ (i 1).val ∧ (i 1).val < win1_6.index t (1 : Fin 2) * 64 + 64
      rw [e61]; omega

/-! ## Layer 2: rows of width 64 -/

/-- The stored value at row `p`, column `q` of a block: the block's entry plus the bias, minus the running mean,
    times the reciprocal square root of the running variance plus epsilon, times the scale, plus the shift, and
    the larger of that and zero — every vector read at column `q` of its single row. -/
theorem pay3_apply (x0 : Vec Ideal S5000x64 .f32) (vb vrv vrm vg vbe : Vec Ideal S1x64 .f32) (p : Fin 5000) (q : Fin 64) :
    k3_pay1 (F := Ideal) x0 vb vrv vrm vg vbe (ix2 p q)
      = max ((((x0 (ix2 p q) + vb (ix2 (0 : Fin 1) q)) - vrm (ix2 (0 : Fin 1) q))
          * Ideal.rsqrt (vrv (ix2 (0 : Fin 1) q) + Cert.Spec.eps)) * vg (ix2 (0 : Fin 1) q) + vbe (ix2 (0 : Fin 1) q)) 0 := by
  unfold k3_pay1
  simp only [shapeCast_self]
  rw [maximumf_apply, addf_apply, mulf_apply, mulf_apply, subf_apply, addf_apply,
    broadcastTo_1b_ab_apply, broadcastTo_1b_ab_apply, broadcastTo_1b_ab_apply, broadcastTo_1b_ab_apply,
    broadcastTo_1b_ab_apply, broadcast_apply]
  simp only [Ideal.ofBits_def, Ideal.ofBits_zero_f32]
  rfl

/-- A block whose rows are rows `r p` of an array `A`, with the five vectors those of the one-row arrays
    `B G BE RM RV`, stores the normalised and rectified rows `r p` of `A`. -/
theorem block3 (x0 : Vec Ideal S5000x64 .f32) (vb vg vbe vrm vrv : Vec Ideal S1x64 .f32)
    (A : S100000x64.Idx → EReal) (B G BE RM RV : S1x64.Idx → EReal) (r : Fin 5000 → Fin 100000)
    (hA : ∀ p q, x0 (ix2 p q) = A (ix2 (r p) q))
    (hB : ∀ q : Fin 64, vb (ix2 (0 : Fin 1) q) = B (ix2 (0 : Fin 1) q))
    (hG : ∀ q : Fin 64, vg (ix2 (0 : Fin 1) q) = G (ix2 (0 : Fin 1) q))
    (hBE : ∀ q : Fin 64, vbe (ix2 (0 : Fin 1) q) = BE (ix2 (0 : Fin 1) q))
    (hRM : ∀ q : Fin 64, vrm (ix2 (0 : Fin 1) q) = RM (ix2 (0 : Fin 1) q))
    (hRV : ∀ q : Fin 64, vrv (ix2 (0 : Fin 1) q) = RV (ix2 (0 : Fin 1) q)) (p : Fin 5000) (q : Fin 64) :
    k3_pay1 (F := Ideal) x0 vb vrv vrm vg vbe (ix2 p q)
      = Cert.Spec.bnrelu A (Cert.Spec.rowOf B) (Cert.Spec.rowOf G) (Cert.Spec.rowOf BE) (Cert.Spec.rowOf RM)
          (Cert.Spec.rowOf RV) (ix2 (r p) q) := by
  rw [pay3_apply, hA, hB, hG, hBE, hRM, hRV]
  rfl

/-- The index maps over the twenty grid points: the aggregate's and the output's block index is the point on the
    row axis and zero on the column axis; the five one-row arrays sit at block zero. -/
theorem idx_facts3 : ∀ t : Fin cfg3.N, win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row `p` of the block at point `t` is row `5000 t + p` of the array. -/
def row3 (t : Fin cfg3.N) (p : Fin 5000) : Fin 100000 :=
  ⟨t.val * 5000 + p.val, by have ht : t.val < 20 := lt_of_lt_of_eq t.isLt N_3; have hp := p.isLt; omega⟩

theorem flushed3_eq (c : Dev nD) (t : Fin cfg3.N) :
    (dat3 (F := Ideal) V c).flushed 6 t = ((cfg3.win 6).blk t).view.read (Elt Ideal)
      (Cert.Spec.bnrelu (V c main_v68) (Cert.Spec.rowOf (V c main_v69)) (Cert.Spec.rowOf (V c main_v70))
        (Cert.Spec.rowOf (V c main_v71)) (Cert.Spec.rowOf (V c main_v72)) (Cert.Spec.rowOf (V c main_v73))) := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz]
  obtain ⟨e00, e01, e60, e61, e10, e11, e20, e21, e30, e31, e40, e41, e50, e51⟩ := idx_facts3 t
  funext j
  show k3_pay1 (F := Ideal) (iblk3 V c 0 t) (iblk3 V c 1 t) (iblk3 V c 5 t) (iblk3 V c 4 t) (iblk3 V c 2 t) (iblk3 V c 3 t) j
    = Cert.Spec.bnrelu (V c main_v68) (Cert.Spec.rowOf (V c main_v69)) (Cert.Spec.rowOf (V c main_v70))
        (Cert.Spec.rowOf (V c main_v71)) (Cert.Spec.rowOf (V c main_v72)) (Cert.Spec.rowOf (V c main_v73))
        (((cfg3.win 6).blk t).view.emb j)
  have hemb : ((cfg3.win 6).blk t).view.emb j = ix2 (row3 t (j 0)) (j 1) := by
    funext a; apply Fin.ext
    match a with
    | ⟨0, _⟩ => show win3_6.index t (0 : Fin 2) * 5000 + 1 * (j 0).val = t.val * 5000 + (j 0).val; rw [e60]; omega
    | ⟨1, _⟩ => show win3_6.index t (1 : Fin 2) * 64 + 1 * (j 1).val = (j 1).val; rw [e61]; omega
  rw [hemb]
  refine (congrArg _ (eq_ix2 j)).trans ?_
  refine block3 _ _ _ _ _ _ _ _ _ _ _ _ (row3 t) ?_ ?_ ?_ ?_ ?_ ?_ (j 0) (j 1)
  · intro p q
    show V c main_v68 (((cfg3.win 0).blk t).view.emb (ix2 p q)) = V c main_v68 (ix2 (row3 t p) q)
    refine congrArg (V c main_v68 : S100000x64.Idx → EReal) (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 64 + 1 * q.val = q.val; rw [e01]; omega
  · intro q
    show V c main_v69 (((cfg3.win 1).blk t).view.emb (ix2 (0 : Fin 1) q)) = V c main_v69 (ix2 (0 : Fin 1) q)
    refine congrArg (V c main_v69 : S1x64.Idx → EReal) (funext fun a => Fin.ext ?_)
    match a with
    | ⟨0, _⟩ => show win3_1.index t (0 : Fin 2) * 1 + 1 * 0 = 0; rw [e10]
    | ⟨1, _⟩ => show win3_1.index t (1 : Fin 2) * 64 + 1 * q.val = q.val; rw [e11]; omega
  · intro q
    show V c main_v70 (((cfg3.win 2).blk t).view.emb (ix2 (0 : Fin 1) q)) = V c main_v70 (ix2 (0 : Fin 1) q)
    refine congrArg (V c main_v70 : S1x64.Idx → EReal) (funext fun a => Fin.ext ?_)
    match a with
    | ⟨0, _⟩ => show win3_2.index t (0 : Fin 2) * 1 + 1 * 0 = 0; rw [e20]
    | ⟨1, _⟩ => show win3_2.index t (1 : Fin 2) * 64 + 1 * q.val = q.val; rw [e21]; omega
  · intro q
    show V c main_v71 (((cfg3.win 3).blk t).view.emb (ix2 (0 : Fin 1) q)) = V c main_v71 (ix2 (0 : Fin 1) q)
    refine congrArg (V c main_v71 : S1x64.Idx → EReal) (funext fun a => Fin.ext ?_)
    match a with
    | ⟨0, _⟩ => show win3_3.index t (0 : Fin 2) * 1 + 1 * 0 = 0; rw [e30]
    | ⟨1, _⟩ => show win3_3.index t (1 : Fin 2) * 64 + 1 * q.val = q.val; rw [e31]; omega
  · intro q
    show V c main_v72 (((cfg3.win 4).blk t).view.emb (ix2 (0 : Fin 1) q)) = V c main_v72 (ix2 (0 : Fin 1) q)
    refine congrArg (V c main_v72 : S1x64.Idx → EReal) (funext fun a => Fin.ext ?_)
    match a with
    | ⟨0, _⟩ => show win3_4.index t (0 : Fin 2) * 1 + 1 * 0 = 0; rw [e40]
    | ⟨1, _⟩ => show win3_4.index t (1 : Fin 2) * 64 + 1 * q.val = q.val; rw [e41]; omega
  · intro q
    show V c main_v73 (((cfg3.win 5).blk t).view.emb (ix2 (0 : Fin 1) q)) = V c main_v73 (ix2 (0 : Fin 1) q)
    refine congrArg (V c main_v73 : S1x64.Idx → EReal) (funext fun a => Fin.ext ?_)
    match a with
    | ⟨0, _⟩ => show win3_5.index t (0 : Fin 2) * 1 + 1 * 0 = 0; rw [e50]
    | ⟨1, _⟩ => show win3_5.index t (1 : Fin 2) * 64 + 1 * q.val = q.val; rw [e51]; omega

/-- An index of the output array lies in the block of point `t` exactly when each coordinate lies in the block's
    range on its axis. -/
theorem mem_blk3 (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v74).slice (win3_6.rect t)).set ↔ _
  rw [View.set_slice_whole, Rect.mem_set_unit]
  exact Iff.rfl

/-- After the region the whole output array is the normalised, rectified aggregate: every point writes its block
    of that one array, and row `r` lies in the block of point `r / 5000`. -/
theorem region3_bnrelu (c : Dev nD) : (dat3 (F := Ideal) V c).arrAt 6 cfg3.N
    = Cert.Spec.bnrelu (V c main_v68) (Cert.Spec.rowOf (V c main_v69)) (Cert.Spec.rowOf (V c main_v70))
        (Cert.Spec.rowOf (V c main_v71)) (Cert.Spec.rowOf (V c main_v72)) (Cert.Spec.rowOf (V c main_v73)) :=
  (dat3 (F := Ideal) V c).arrAt_eq_of_cover 6 _ (fun t _ => flushed3_eq V c t) fun i => by
    have hi0 : (i 0).val < 100000 := (i 0).isLt
    have hi1 : (i 1).val < 64 := (i 1).isLt
    obtain ⟨t, ht⟩ : ∃ t : Fin cfg3.N, t.val = (i 0).val / 5000 :=
      ⟨⟨(i 0).val / 5000, by show (i 0).val / 5000 < grid3.N; rw [N_3]; omega⟩, rfl⟩
    obtain ⟨-, -, e60, e61, -⟩ := idx_facts3 t
    refine ⟨t, flush3_6 t, ?_⟩
    rw [mem_blk3]
    intro a
    match a with
    | ⟨0, _⟩ =>
      show win3_6.index t (0 : Fin 2) * 5000 ≤ (i 0).val ∧ (i 0).val < win3_6.index t (0 : Fin 2) * 5000 + 5000
      rw [e60, ht]; omega
    | ⟨1, _⟩ =>
      show win3_6.index t (1 : Fin 2) * 64 ≤ (i 1).val ∧ (i 1).val < win3_6.index t (1 : Fin 2) * 64 + 64
      rw [e61]; omega

/-! ## Layer 3: rows of width 32 -/

/-- The stored value at row `p`, column `q` of a block: the block's entry plus the bias, minus the running mean,
    times the reciprocal square root of the running variance plus epsilon, times the scale, plus the shift, and
    the larger of that and zero — every vector read at column `q` of its single row. -/
theorem pay5_apply (x0 : Vec Ideal S5000x32 .f32) (vb vrv vrm vg vbe : Vec Ideal S1x32 .f32) (p : Fin 5000) (q : Fin 32) :
    k5_pay1 (F := Ideal) x0 vb vrv vrm vg vbe (ix2 p q)
      = max ((((x0 (ix2 p q) + vb (ix2 (0 : Fin 1) q)) - vrm (ix2 (0 : Fin 1) q))
          * Ideal.rsqrt (vrv (ix2 (0 : Fin 1) q) + Cert.Spec.eps)) * vg (ix2 (0 : Fin 1) q) + vbe (ix2 (0 : Fin 1) q)) 0 := by
  unfold k5_pay1
  simp only [shapeCast_self]
  rw [maximumf_apply, addf_apply, mulf_apply, mulf_apply, subf_apply, addf_apply,
    broadcastTo_1b_ab_apply, broadcastTo_1b_ab_apply, broadcastTo_1b_ab_apply, broadcastTo_1b_ab_apply,
    broadcastTo_1b_ab_apply, broadcast_apply]
  simp only [Ideal.ofBits_def, Ideal.ofBits_zero_f32]
  rfl

/-- A block whose rows are rows `r p` of an array `A`, with the five vectors those of the one-row arrays
    `B G BE RM RV`, stores the normalised and rectified rows `r p` of `A`. -/
theorem block5 (x0 : Vec Ideal S5000x32 .f32) (vb vg vbe vrm vrv : Vec Ideal S1x32 .f32)
    (A : S100000x32.Idx → EReal) (B G BE RM RV : S1x32.Idx → EReal) (r : Fin 5000 → Fin 100000)
    (hA : ∀ p q, x0 (ix2 p q) = A (ix2 (r p) q))
    (hB : ∀ q : Fin 32, vb (ix2 (0 : Fin 1) q) = B (ix2 (0 : Fin 1) q))
    (hG : ∀ q : Fin 32, vg (ix2 (0 : Fin 1) q) = G (ix2 (0 : Fin 1) q))
    (hBE : ∀ q : Fin 32, vbe (ix2 (0 : Fin 1) q) = BE (ix2 (0 : Fin 1) q))
    (hRM : ∀ q : Fin 32, vrm (ix2 (0 : Fin 1) q) = RM (ix2 (0 : Fin 1) q))
    (hRV : ∀ q : Fin 32, vrv (ix2 (0 : Fin 1) q) = RV (ix2 (0 : Fin 1) q)) (p : Fin 5000) (q : Fin 32) :
    k5_pay1 (F := Ideal) x0 vb vrv vrm vg vbe (ix2 p q)
      = Cert.Spec.bnrelu A (Cert.Spec.rowOf B) (Cert.Spec.rowOf G) (Cert.Spec.rowOf BE) (Cert.Spec.rowOf RM)
          (Cert.Spec.rowOf RV) (ix2 (r p) q) := by
  rw [pay5_apply, hA, hB, hG, hBE, hRM, hRV]
  rfl

/-- The index maps over the twenty grid points: the aggregate's and the output's block index is the point on the
    row axis and zero on the column axis; the five one-row arrays sit at block zero. -/
theorem idx_facts5 : ∀ t : Fin cfg5.N, win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- Row `p` of the block at point `t` is row `5000 t + p` of the array. -/
def row5 (t : Fin cfg5.N) (p : Fin 5000) : Fin 100000 :=
  ⟨t.val * 5000 + p.val, by have ht : t.val < 20 := lt_of_lt_of_eq t.isLt N_5; have hp := p.isLt; omega⟩

theorem flushed5_eq (c : Dev nD) (t : Fin cfg5.N) :
    (dat5 (F := Ideal) V c).flushed 6 t = ((cfg5.win 6).blk t).view.read (Elt Ideal)
      (Cert.Spec.bnrelu (V c main_v92) (Cert.Spec.rowOf (V c main_v93)) (Cert.Spec.rowOf (V c main_v94))
        (Cert.Spec.rowOf (V c main_v95)) (Cert.Spec.rowOf (V c main_v96)) (Cert.Spec.rowOf (V c main_v97))) := by
  show (cfg5.win 6).cut (grid5.coords t) ((dat5 V c).after 6 t) = _
  rw [after5_6]
  unfold out5_6
  rw [View.canon_unit_zero hz]
  simp only [View.ld_unit_zero (S := S5000x32) hz, View.ld_unit_zero (S := S1x32) hz]
  obtain ⟨e00, e01, e60, e61, e10, e11, e20, e21, e30, e31, e40, e41, e50, e51⟩ := idx_facts5 t
  funext j
  show k5_pay1 (F := Ideal) (iblk5 V c 0 t) (iblk5 V c 1 t) (iblk5 V c 5 t) (iblk5 V c 4 t) (iblk5 V c 2 t) (iblk5 V c 3 t) j
    = Cert.Spec.bnrelu (V c main_v92) (Cert.Spec.rowOf (V c main_v93)) (Cert.Spec.rowOf (V c main_v94))
        (Cert.Spec.rowOf (V c main_v95)) (Cert.Spec.rowOf (V c main_v96)) (Cert.Spec.rowOf (V c main_v97))
        (((cfg5.win 6).blk t).view.emb j)
  have hemb : ((cfg5.win 6).blk t).view.emb j = ix2 (row5 t (j 0)) (j 1) := by
    funext a; apply Fin.ext
    match a with
    | ⟨0, _⟩ => show win5_6.index t (0 : Fin 2) * 5000 + 1 * (j 0).val = t.val * 5000 + (j 0).val; rw [e60]; omega
    | ⟨1, _⟩ => show win5_6.index t (1 : Fin 2) * 32 + 1 * (j 1).val = (j 1).val; rw [e61]; omega
  rw [hemb]
  refine (congrArg _ (eq_ix2 j)).trans ?_
  refine block5 _ _ _ _ _ _ _ _ _ _ _ _ (row5 t) ?_ ?_ ?_ ?_ ?_ ?_ (j 0) (j 1)
  · intro p q
    show V c main_v92 (((cfg5.win 0).blk t).view.emb (ix2 p q)) = V c main_v92 (ix2 (row5 t p) q)
    refine congrArg (V c main_v92 : S100000x32.Idx → EReal) (funext fun a => Fin.ext ?_)
    match a with
    | ⟨0, _⟩ => show win5_0.index t (0 : Fin 2) * 5000 + 1 * p.val = t.val * 5000 + p.val; rw [e00]; omega
    | ⟨1, _⟩ => show win5_0.index t (1 : Fin 2) * 32 + 1 * q.val = q.val; rw [e01]; omega
  · intro q
    show V c main_v93 (((cfg5.win 1).blk t).view.emb (ix2 (0 : Fin 1) q)) = V c main_v93 (ix2 (0 : Fin 1) q)
    refine congrArg (V c main_v93 : S1x32.Idx → EReal) (funext fun a => Fin.ext ?_)
    match a with
    | ⟨0, _⟩ => show win5_1.index t (0 : Fin 2) * 1 + 1 * 0 = 0; rw [e10]
    | ⟨1, _⟩ => show win5_1.index t (1 : Fin 2) * 32 + 1 * q.val = q.val; rw [e11]; omega
  · intro q
    show V c main_v94 (((cfg5.win 2).blk t).view.emb (ix2 (0 : Fin 1) q)) = V c main_v94 (ix2 (0 : Fin 1) q)
    refine congrArg (V c main_v94 : S1x32.Idx → EReal) (funext fun a => Fin.ext ?_)
    match a with
    | ⟨0, _⟩ => show win5_2.index t (0 : Fin 2) * 1 + 1 * 0 = 0; rw [e20]
    | ⟨1, _⟩ => show win5_2.index t (1 : Fin 2) * 32 + 1 * q.val = q.val; rw [e21]; omega
  · intro q
    show V c main_v95 (((cfg5.win 3).blk t).view.emb (ix2 (0 : Fin 1) q)) = V c main_v95 (ix2 (0 : Fin 1) q)
    refine congrArg (V c main_v95 : S1x32.Idx → EReal) (funext fun a => Fin.ext ?_)
    match a with
    | ⟨0, _⟩ => show win5_3.index t (0 : Fin 2) * 1 + 1 * 0 = 0; rw [e30]
    | ⟨1, _⟩ => show win5_3.index t (1 : Fin 2) * 32 + 1 * q.val = q.val; rw [e31]; omega
  · intro q
    show V c main_v96 (((cfg5.win 4).blk t).view.emb (ix2 (0 : Fin 1) q)) = V c main_v96 (ix2 (0 : Fin 1) q)
    refine congrArg (V c main_v96 : S1x32.Idx → EReal) (funext fun a => Fin.ext ?_)
    match a with
    | ⟨0, _⟩ => show win5_4.index t (0 : Fin 2) * 1 + 1 * 0 = 0; rw [e40]
    | ⟨1, _⟩ => show win5_4.index t (1 : Fin 2) * 32 + 1 * q.val = q.val; rw [e41]; omega
  · intro q
    show V c main_v97 (((cfg5.win 5).blk t).view.emb (ix2 (0 : Fin 1) q)) = V c main_v97 (ix2 (0 : Fin 1) q)
    refine congrArg (V c main_v97 : S1x32.Idx → EReal) (funext fun a => Fin.ext ?_)
    match a with
    | ⟨0, _⟩ => show win5_5.index t (0 : Fin 2) * 1 + 1 * 0 = 0; rw [e50]
    | ⟨1, _⟩ => show win5_5.index t (1 : Fin 2) * 32 + 1 * q.val = q.val; rw [e51]; omega

/-- An index of the output array lies in the block of point `t` exactly when each coordinate lies in the block's
    range on its axis. -/
theorem mem_blk5 (t : Fin cfg5.N) (i : S100000x32.Idx) :
    i ∈ ((cfg5.win 6).blk t).view.set ↔ ∀ a : Fin 2, win5_6.index t a * S5000x32.size a ≤ (i a).val
      ∧ (i a).val < win5_6.index t a * S5000x32.size a + S5000x32.size a := by
  show i ∈ ((View.whole main_v98).slice (win5_6.rect t)).set ↔ _
  rw [View.set_slice_whole, Rect.mem_set_unit]
  exact Iff.rfl

/-- After the region the whole output array is the normalised, rectified aggregate: every point writes its block
    of that one array, and row `r` lies in the block of point `r / 5000`. -/
theorem region5_bnrelu (c : Dev nD) : (dat5 (F := Ideal) V c).arrAt 6 cfg5.N
    = Cert.Spec.bnrelu (V c main_v92) (Cert.Spec.rowOf (V c main_v93)) (Cert.Spec.rowOf (V c main_v94))
        (Cert.Spec.rowOf (V c main_v95)) (Cert.Spec.rowOf (V c main_v96)) (Cert.Spec.rowOf (V c main_v97)) :=
  (dat5 (F := Ideal) V c).arrAt_eq_of_cover 6 _ (fun t _ => flushed5_eq V c t) fun i => by
    have hi0 : (i 0).val < 100000 := (i 0).isLt
    have hi1 : (i 1).val < 32 := (i 1).isLt
    obtain ⟨t, ht⟩ : ∃ t : Fin cfg5.N, t.val = (i 0).val / 5000 :=
      ⟨⟨(i 0).val / 5000, by show (i 0).val / 5000 < grid5.N; rw [N_5]; omega⟩, rfl⟩
    obtain ⟨-, -, e60, e61, -⟩ := idx_facts5 t
    refine ⟨t, flush5_6 t, ?_⟩
    rw [mem_blk5]
    intro a
    match a with
    | ⟨0, _⟩ =>
      show win5_6.index t (0 : Fin 2) * 5000 ≤ (i 0).val ∧ (i 0).val < win5_6.index t (0 : Fin 2) * 5000 + 5000
      rw [e60, ht]; omega
    | ⟨1, _⟩ =>
      show win5_6.index t (1 : Fin 2) * 32 ≤ (i 1).val ∧ (i 1).val < win5_6.index t (1 : Fin 2) * 32 + 32
      rw [e61]; omega

end Cert.KBn

end
-- ==== Proof.KFinal.lean ====
/-
  The two-class head of the network as the last gridded region computes it, and the whole output array it leaves.

  At every point of the grid the region holds a block of 5000 rows of the hidden activations, the whole `32 × 2`
  weight matrix and the whole `1 × 2` bias row. It forms the logits `l = x · w + b` of its rows, then for each row the
  larger logit `m`, the sum `s = e^(l₀ − m) + e^(l₁ − m)`, and writes `l − (m + log s)`. The row maximum is a fold of
  `max` from `−∞` over the two lanes, the row sum a sum over the two lanes; the keep-dims column `[5000, 1]` is read back
  at lane `0` wherever it is broadcast. Row `p` of block `t` is row `5000 · t + p` of the array, the 20 blocks cover
  the 100000 rows, so the array the region leaves is the log-softmax (in the spelling `l − (m + log s)`) of
  `x · w + b` for the arrays it found.
-/
import proofs.«153305_j4758823764428_1_alg».proof.Proof.Gen.KernelIdeal.Frame
import proofs.«153305_j4758823764428_1_alg».proof.Proof.Spec
import proofs.«153305_j4758823764428_1_alg».proof.Proof.LibPlainMatmul
import Idealize.ShloMosaic.Lib.Pipeline.Value
import Idealize.ShloMosaic.Lib.ValueLayout

noncomputable section

open scoped BigOperators

namespace Cert.KFinal

open Cert.KernelIdeal Cert.KernelIdeal.Gen Idealize.ShloMosaic Idealize.ShloMosaic.ValueIdx Idealize.ShloMosaic.TcCoe
open Idealize.SL.Sem
open Idealize.ShloMosaic.Pipeline (Dat)

/-! ## Columns: `[a] → [a, 1] → [a, b]` -/

section Columns
variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The two lane reductions of a `[M, 2]` array -/

section Lanes
variable {M : ℕ}

/-- Row `p` with lane `k` put back on the reduced axis is the index `(p, k)`. -/
theorem lift_lane (h : (⟨2, ![M, 2]⟩ : Shape).Reduces [1] ⟨1, ![M]⟩) (p : Fin M) (k : Fin 2) :
    h.lift (ix1 p) k = ix2 p k := by
  funext c
  apply Fin.ext
  match c with
  | ⟨0, _⟩ => rfl
  | ⟨1, _⟩ => rfl

/-- The fold of `max` from `−∞` over two lanes is the larger of the two values. -/
theorem fold_max_two (f : Fin 2 → EReal) : (Finset.univ : Finset (Fin 2)).fold max (⊥ : EReal) f = max (f 0) (f 1) := by
  rw [show (Finset.univ : Finset (Fin 2)) = insert (0 : Fin 2) {(1 : Fin 2)} from by decide,
    Finset.fold_insert (by decide), Finset.fold_singleton, max_bot_right]

/-- The lane maximum from `−∞` of row `p` is the larger of the row's two entries: `−∞` is the identity of `max`. -/
theorem laneMax_apply (src : FVec Ideal ⟨2, ![M, 2]⟩ .f32) (h : (⟨2, ![M, 2]⟩ : Shape).Reduces [1] ⟨1, ![M]⟩)
    (hφ : FKind.Formats .f32) (hacc : (0xFF800000#32 : BitVec 32) = FKind.maximumf.neutral .f32 hφ) (p : Fin M) :
    multiReduction .maximumf [1] ⟨1, ![M]⟩ src 0xFF800000#32 h hφ hacc (ix1 p)
      = max (src (ix2 p (0 : Fin 2))) (src (ix2 p (1 : Fin 2))) := by
  refine (Ideal.multiReduction_maximumf_single src _ h hφ hacc (ix1 p)).trans ?_
  have hbot : FloatOps.ofBits (F := Ideal) .f32 0xFF800000#32 = (⊥ : EReal) := by
    show Ideal.ofBits .f32 0xFF800000#32 = ⊥
    simp [Ideal.ofBits, Ideal.ieee]
  rw [hbot]
  refine (fold_max_two (src ∘ h.lift (ix1 p))).trans ?_
  exact congrArg₂ max (congrArg src (lift_lane h p 0)) (congrArg src (lift_lane h p 1))

/-- The lane sum of row `p` is the sum of the row's two entries. -/
theorem laneSum_apply (src : FVec Ideal ⟨2, ![M, 2]⟩ .f32) (h : (⟨2, ![M, 2]⟩ : Shape).Reduces [1] ⟨1, ![M]⟩)
    (hφ : FKind.Formats .f32) (hacc : (0x00000000#32 : BitVec 32) = FKind.add.neutral .f32 hφ) (p : Fin M) :
    multiReduction .add [1] ⟨1, ![M]⟩ src 0x00000000#32 h hφ hacc (ix1 p)
      = src (ix2 p (0 : Fin 2)) + src (ix2 p (1 : Fin 2)) := by
  refine (Ideal.multiReduction_add_single src _ h hφ hacc (ix1 p)).trans ?_
  refine (Fin.sum_univ_two fun k : Fin 2 => src (h.lift (ix1 p) k)).trans ?_
  exact congrArg₂ (· + ·) (congrArg src (lift_lane h p 0)) (congrArg src (lift_lane h p 1))

end Lanes

/-! ## One block: the logits and their log-softmax, entry by entry -/

section Block

/-- The logits of a block: its rows times the weights, accumulated from zero, plus the bias row under every row. -/
def logitsBlock (x : Vec Ideal S5000x32 .f32) (w : Vec Ideal S32x2 .f32) (b : Vec Ideal S1x2 .f32) :
    FVec Ideal S5000x2 .f32 :=
  addf (matmul dot_S5000x32_S32x2_S5000x2_1_0_0_1_n_n none
      (truncf .bf16 (shapeCast S5000x32 x shapeCasts_S5000x32_S5000x32) bitsLt_bf16_f32)
      (truncf .bf16 w bitsLt_bf16_f32) (constant S5000x2 .f32 0x00000000#32))
    (broadcastTo S5000x2 (shapeCast S1x2 b shapeCasts_S1x2_S1x2) broadcasts_S1x2_S5000x2)

/-- The column of row maxima of a block of logits. -/
def rowMaxCol (L : FVec Ideal S5000x2 .f32) : FVec Ideal S5000x1 .f32 :=
  shapeCast S5000x1 (multiReduction .maximumf [1] S5000 L 0xFF800000#32 reduces_S5000x2_S5000 (.inl rfl) rfl)
    shapeCasts_S5000_S5000x1

/-- The exponentials of the logits shifted by their row's maximum. -/
def expShift (L : FVec Ideal S5000x2 .f32) : FVec Ideal S5000x2 .f32 :=
  exp (subf L (broadcastTo S5000x2 (rowMaxCol L) broadcasts_S5000x1_S5000x2))

/-- The column of row sums of those exponentials. -/
def rowSumCol (L : FVec Ideal S5000x2 .f32) : FVec Ideal S5000x1 .f32 :=
  shapeCast S5000x1 (multiReduction .add [1] S5000 (expShift L) 0x00000000#32 reduces_S5000x2_S5000 (.inl rfl) rfl)
    shapeCasts_S5000_S5000x1

/-- The logits minus (row maximum plus logarithm of the row sum). -/
def lsmBlock (L : FVec Ideal S5000x2 .f32) : FVec Ideal S5000x2 .f32 :=
  subf L (broadcastTo S5000x2 (addf (rowMaxCol L) (log (rowSumCol L))) broadcasts_S5000x1_S5000x2)

/-- The stored value is the log-softmax of the block's logits: the same operations, named. -/
theorem pay_eq (x : Vec Ideal S5000x32 .f32) (w : Vec Ideal S32x2 .f32) (b : Vec Ideal S1x2 .f32) :
    k6_pay1 (F := Ideal) x w b = lsmBlock (logitsBlock x w b) := rfl

/-- A block's logit at `(p, q)`: the sum over `k` of `x (p, k) · w (k, q)`, plus `b (0, q)`. The narrowing of the
    operands' format is the identity on extended reals, and the product accumulates from zero. -/
theorem logitsBlock_apply (x : Vec Ideal S5000x32 .f32) (w : Vec Ideal S32x2 .f32) (b : Vec Ideal S1x2 .f32)
    (p : Fin 5000) (q : Fin 2) :
    logitsBlock x w b (ix2 p q) = Cert.Spec.addRow (Cert.Spec.lin x w) (Cert.Spec.rowOf b) (ix2 p q) := by
  have h1 : matmul (F := Ideal) dot_S5000x32_S32x2_S5000x2_1_0_0_1_n_n none
      (truncf .bf16 (shapeCast S5000x32 x shapeCasts_S5000x32_S5000x32) bitsLt_bf16_f32)
      (truncf .bf16 w bitsLt_bf16_f32) (constant S5000x2 .f32 0x00000000#32) (ix2 p q)
        = ∑ k : Fin 32, x (ix2 p k) * w (ix2 k q) := by
    refine (Cert.LibPlainMatmul.matmul_plain_zero_apply dot_S5000x32_S32x2_S5000x2_1_0_0_1_n_n rfl none _ _ p q).trans ?_
    refine Finset.sum_congr rfl fun k _ => ?_
    show shapeCast S5000x32 x shapeCasts_S5000x32_S5000x32 (ix2 p k) * w (ix2 k q) = _
    rw [shapeCast_self]
  have h2 : broadcastTo S5000x2 (shapeCast S1x2 b shapeCasts_S1x2_S1x2) broadcasts_S1x2_S5000x2 (ix2 p q)
      = b (ix2 (0 : Fin 1) q) := by
    refine (broadcastTo_1b_ab_apply _ broadcasts_S1x2_S5000x2 p q).trans ?_
    rw [shapeCast_self]
  unfold logitsBlock
  rw [addf_apply, h1, h2]
  rfl

/-- The column of row maxima at row `p` is the larger of the row's two logits. -/
theorem rowMaxCol_apply (L : FVec Ideal S5000x2 .f32) (p : Fin 5000) (u : Fin 1) :
    rowMaxCol L (ix2 p u) = Cert.Spec.rowMax L p :=
  (shapeCast_a_a1_apply _ shapeCasts_S5000_S5000x1 p u).trans
    (laneMax_apply L reduces_S5000x2_S5000 (.inl rfl) rfl p)

/-- A shifted exponential at `(p, k)`. -/
theorem expShift_apply (L : FVec Ideal S5000x2 .f32) (p : Fin 5000) (k : Fin 2) :
    expShift L (ix2 p k) = Ideal.exp (L (ix2 p k) - Cert.Spec.rowMax L p) := by
  show Ideal.exp (L (ix2 p k) - broadcastTo S5000x2 (rowMaxCol L) broadcasts_S5000x1_S5000x2 (ix2 p k)) = _
  rw [broadcastTo_a1_ab_apply (rowMaxCol L) broadcasts_S5000x1_S5000x2 p k, rowMaxCol_apply]

/-- The column of row sums at row `p` is the sum of the row's two shifted exponentials. -/
theorem rowSumCol_apply (L : FVec Ideal S5000x2 .f32) (p : Fin 5000) (u : Fin 1) :
    rowSumCol L (ix2 p u) = Cert.Spec.rowSumExp L p := by
  refine (shapeCast_a_a1_apply _ shapeCasts_S5000_S5000x1 p u).trans ?_
  refine (laneSum_apply (expShift L) reduces_S5000x2_S5000 (.inl rfl) rfl p).trans ?_
  rw [expShift_apply, expShift_apply]
  rfl

/-- The block's log-softmax at `(p, q)` is the specification's, in the spelling `l − (m + log s)`. -/
theorem lsmBlock_apply (L : FVec Ideal S5000x2 .f32) (p : Fin 5000) (q : Fin 2) :
    lsmBlock L (ix2 p q) = Cert.Spec.lsmOuter L (ix2 p q) := by
  show L (ix2 p q) - broadcastTo S5000x2 (addf (rowMaxCol L) (log (rowSumCol L))) broadcasts_S5000x1_S5000x2 (ix2 p q) = _
  rw [broadcastTo_a1_ab_apply (addf (rowMaxCol L) (log (rowSumCol L))) broadcasts_S5000x1_S5000x2 p q]
  show L (ix2 p q) - (rowMaxCol L (ix2 p (0 : Fin 1)) + Ideal.log (rowSumCol L (ix2 p (0 : Fin 1)))) = _
  rw [rowMaxCol_apply, rowSumCol_apply]
  rfl

/-- The stored value at `(p, q)`: the log-softmax of the block's logits `x · w + b`. -/
theorem pay_apply (x : Vec Ideal S5000x32 .f32) (w : Vec Ideal S32x2 .f32) (b : Vec Ideal S1x2 .f32)
    (p : Fin 5000) (q : Fin 2) :
    k6_pay1 (F := Ideal) x w b (ix2 p q) = Cert.Spec.lsmOuter (logitsBlock x w b) (ix2 p q) := by
  rw [pay_eq, lsmBlock_apply]

end Block

/-! ## Rows: the specification reads one row at a time -/

section Rows

/-- The log-softmax of a row depends on that row's two logits only. -/
theorem lsmOuter_row {M M' : ℕ} (L : (⟨2, ![M, 2]⟩ : Shape).Idx → EReal) (L' : (⟨2, ![M', 2]⟩ : Shape).Idx → EReal)
    (p : Fin M) (r : Fin M') (h : ∀ k : Fin 2, L (ix2 p k) = L' (ix2 r k)) (q : Fin 2) :
    Cert.Spec.lsmOuter L (ix2 p q) = Cert.Spec.lsmOuter L' (ix2 r q) := by
  show L (ix2 p q) - (Cert.Spec.rowMax L p + Ideal.log (Cert.Spec.rowSumExp L p))
    = L' (ix2 r q) - (Cert.Spec.rowMax L' r + Ideal.log (Cert.Spec.rowSumExp L' r))
  simp only [Cert.Spec.rowSumExp, Cert.Spec.rowMax, h]

/-- A row of logits `x · w + b` depends on that row of `x` only. -/
theorem logits_row {M M' K N : ℕ} (x : (⟨2, ![M, K]⟩ : Shape).Idx → EReal) (X : (⟨2, ![M', K]⟩ : Shape).Idx → EReal)
    (w : (⟨2, ![K, N]⟩ : Shape).Idx → EReal) (b : (⟨2, ![1, N]⟩ : Shape).Idx → EReal) (p : Fin M) (r : Fin M')
    (h : ∀ i : Fin K, x (ix2 p i) = X (ix2 r i)) (k : Fin N) :
    Cert.Spec.addRow (Cert.Spec.lin x w) (Cert.Spec.rowOf b) (ix2 p k)
      = Cert.Spec.addRow (Cert.Spec.lin X w) (Cert.Spec.rowOf b) (ix2 r k) := by
  show (∑ i : Fin K, x (ix2 p i) * w (ix2 i k)) + b (ix2 (0 : Fin 1) k)
    = (∑ i : Fin K, X (ix2 r i) * w (ix2 i k)) + b (ix2 (0 : Fin 1) k)
  simp only [h]

end Rows

/-! ## The region's output array -/

section Array

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the hidden rows' window and the output window sit at block `(t, 0)` at point `t`,
    the weights' and the bias row's windows at block `(0, 0)` throughout. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `p` of the hidden rows' block at point `t` is row `5000 · t + p` of the array. -/
theorem hidden_block_apply (c : Dev nD) (t : Fin cfg6.N) (p : Fin 5000) (k : Fin 32) (r : Fin 100000)
    (hr : r.val = 5000 * t.val + p.val) :
    (iblk6 V c 0 t : Vec Ideal S5000x32 .f32) (ix2 p k)
      = (V c main_v98 : S100000x32.Idx → Elt Ideal .f32) (ix2 r k) := by
  obtain ⟨e0, e1, -⟩ := idx_facts t
  unfold iblk6
  rw [View.read_apply]
  show V c main_v98 _ = V c main_v98 _
  congr 1
  funext a
  apply Fin.ext
  match a with
  | ⟨0, _⟩ => show win6_0.index t 0 * 5000 + 1 * p.val = r.val; rw [e0, hr]; omega
  | ⟨1, _⟩ => show win6_0.index t 1 * 32 + 1 * k.val = k.val; rw [e1]; omega

/-- The weights' block is the whole weight matrix at every point. -/
theorem weights_block_eq (c : Dev nD) (t : Fin cfg6.N) :
    (iblk6 V c 1 t : Vec Ideal S32x2 .f32) = (V c main_arg20 : S32x2.Idx → Elt Ideal .f32) := by
  obtain ⟨-, -, e2, e3, -⟩ := idx_facts t
  funext y
  unfold iblk6
  rw [View.read_apply]
  show V c main_arg20 _ = V c main_arg20 y
  congr 1
  funext a
  apply Fin.ext
  match a with
  | ⟨0, _⟩ => show win6_1.index t 0 * 32 + 1 * (y 0).val = (y 0).val; rw [e2]; omega
  | ⟨1, _⟩ => show win6_1.index t 1 * 2 + 1 * (y 1).val = (y 1).val; rw [e3]; omega

/-- The bias row's block is the whole bias row at every point. -/
theorem bias_block_eq (c : Dev nD) (t : Fin cfg6.N) :
    (iblk6 V c 2 t : Vec Ideal S1x2 .f32) = (V c main_v99 : S1x2.Idx → Elt Ideal .f32) := by
  obtain ⟨-, -, -, -, e4, e5, -⟩ := idx_facts t
  funext y
  unfold iblk6
  rw [View.read_apply]
  show V c main_v99 _ = V c main_v99 y
  congr 1
  funext a
  apply Fin.ext
  match a with
  | ⟨0, _⟩ => show win6_2.index t 0 * 1 + 1 * (y 0).val = (y 0).val; rw [e4]; omega
  | ⟨1, _⟩ => show win6_2.index t 1 * 2 + 1 * (y 1).val = (y 1).val; rw [e5]; omega

/-- What the output array ends holding: the log-softmax of `x · w + b` for the arrays the region finds. -/
abbrev headOf (c : Dev nD) : S100000x2.Idx → EReal :=
  Cert.Spec.lsmOuter (Cert.Spec.addRow (Cert.Spec.lin (V c main_v98) (V c main_arg20)) (Cert.Spec.rowOf (V c main_v99)))

/-- Entry `(p, q)` of what point `t` stores is entry `(5000 · t + p, q)` of `headOf`. -/
theorem point_entry (c : Dev nD) (t : Fin cfg6.N) (p : Fin 5000) (q : Fin 2) (r : Fin 100000)
    (hr : r.val = 5000 * t.val + p.val) :
    k6_pay1 (F := Ideal) (iblk6 V c 0 t) (iblk6 V c 1 t) (iblk6 V c 2 t) (ix2 p q) = headOf V c (ix2 r q) := by
  rw [weights_block_eq V c t, bias_block_eq V c t]
  refine (pay_apply (iblk6 V c 0 t) (V c main_arg20) (V c main_v99) p q).trans ?_
  refine lsmOuter_row _ _ p r (fun k => ?_) q
  refine (logitsBlock_apply (iblk6 V c 0 t) (V c main_arg20) (V c main_v99) p k).trans ?_
  exact logits_row (iblk6 V c 0 t) (V c main_v98) (V c main_arg20) (V c main_v99) p r
    (fun i => hidden_block_apply V c t p i r hr) k

/-- What point `t` writes back is block `t` of `headOf`. -/
theorem flushed_eq (c : Dev nD) (t : Fin cfg6.N) :
    (dat6 (F := Ideal) V c).flushed 3 t = ((cfg6.win 3).blk t).view.read (Elt Ideal) (headOf V c) := by
  show (cfg6.win 3).cut (grid6.coords t) ((dat6 V c).after 3 t) = _
  rw [after6_3]
  unfold out6_3
  rw [View.canon_unit_zero hz]
  simp only [View.ld_unit_zero (S := S5000x32) hz, View.ld_unit_zero (S := S32x2) hz, View.ld_unit_zero (S := S1x2) hz]
  obtain ⟨-, -, -, -, -, -, e6, e7⟩ := idx_facts t
  have hN : cfg6.N = 20 := N_6
  have ht : t.val < 20 := hN ▸ t.isLt
  funext j
  have hj0 : (j 0).val < 5000 := (j 0).isLt
  have hj : j = ix2 (n0 := 5000) (n1 := 2) (j 0) (j 1) := eq_ix2 (n0 := 5000) (n1 := 2) j
  show k6_pay1 (F := Ideal) (iblk6 V c 0 t) (iblk6 V c 1 t) (iblk6 V c 2 t) j
    = headOf V c (((cfg6.win 3).blk t).view.emb j)
  refine (congrArg (k6_pay1 (F := Ideal) (iblk6 V c 0 t) (iblk6 V c 1 t) (iblk6 V c 2 t)) hj).trans ?_
  refine (point_entry V c t (j 0) (j 1) ⟨5000 * t.val + (j 0).val, by omega⟩ rfl).trans ?_
  refine congrArg (headOf V c) ?_
  funext a
  apply Fin.ext
  match a with
  | ⟨0, _⟩ => show 5000 * t.val + (j 0).val = win6_3.index t 0 * 5000 + 1 * (j 0).val; rw [e6]; omega
  | ⟨1, _⟩ => show (j 1).val = win6_3.index t 1 * 2 + 1 * (j 1).val; rw [e7]; omega

/-- An index of the array is in point `t`'s block iff each coordinate is in the block's range on its axis. -/
theorem mem_blk (t : Fin cfg6.N) (i : S100000x2.Idx) :
    i ∈ ((cfg6.win 3).blk t).view.set ↔ ∀ a : Fin 2, win6_3.index t a * S5000x2.size a ≤ (i a).val
      ∧ (i a).val < win6_3.index t a * S5000x2.size a + S5000x2.size a := by
  show i ∈ ((View.whole main_v100).slice (win6_3.rect t)).set ↔ _
  rw [View.set_slice_whole, Rect.mem_set_unit]
  exact Iff.rfl

/-- Every row of the array is in some point's block: row `r` in that of point `r / 5000`. -/
theorem cover (i : S100000x2.Idx) :
    ∃ t : Fin cfg6.N, (cfg6.win 3).flush t = true ∧ i ∈ ((cfg6.win 3).blk t).view.set := by
  have hi0 : (i 0).val < 100000 := (i 0).isLt
  have hi1 : (i 1).val < 2 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨-, -, -, -, -, -, e6, e7⟩ := idx_facts t
  refine ⟨t, flush6_3 t, ?_⟩
  rw [mem_blk]
  intro a
  match a with
  | ⟨0, _⟩ =>
    show win6_3.index t 0 * 5000 ≤ (i 0).val ∧ (i 0).val < win6_3.index t 0 * 5000 + 5000
    rw [e6, ht]; omega
  | ⟨1, _⟩ =>
    show win6_3.index t 1 * 2 ≤ (i 1).val ∧ (i 1).val < win6_3.index t 1 * 2 + 2
    rw [e7]; omega

/-- THE OUTPUT ARRAY after the region: the log-softmax, in the spelling `l − (m + log s)`, of the hidden rows times the
    weights plus the bias row, for the arrays the region finds. -/
theorem region6_head (c : Dev nD) :
    (dat6 (F := Ideal) V c).arrAt 3 cfg6.N
      = Cert.Spec.lsmOuter (Cert.Spec.addRow (Cert.Spec.lin (V c main_v98) (V c main_arg20)) (Cert.Spec.rowOf (V c main_v99))) :=
  (dat6 (F := Ideal) V c).arrAt_eq_of_cover 3 (headOf V c) (fun t _ => flushed_eq V c t) cover

end Array

end Cert.KFinal

end
-- ==== Proof.Agg.lean ====
/-
  The graph aggregation both programs apply to a layer's transformed features `h`, as one function of `h` and of the
  edge list: every node receives the sum, over the edges arriving at it, of the source node's row of `h` scaled by
  the edge's symmetric normalisation `d[src]^(−1/2) · d[dst]^(−1/2)`, plus its own row scaled by `1 / d` (the
  self-loop), where `d` is one plus the number of edges arriving at the node. It is spelt with the reference
  program's own host operations (a row gather, a product, an accumulating row scatter into zeros, a sum), so that
  the reference's three aggregations are this function by unfolding, and nothing here looks inside a gather or a
  scatter. The degree vector and the two normalisations depend on the edge list only; the reference recomputes them
  in every layer, to the same value: unfolding the stage definitions down to the edge list makes the two sides one term.
-/
import proofs.«153305_j4758823764428_1_alg».proof.Proof.RefReadP

noncomputable section

namespace Cert.Agg

open Cert.ReferenceIdeal Cert.ReferenceIdeal.ReadP Idealize.ShloMosaic

/-- Aggregation of 64-wide features. -/
def agg64 (h : (⟨S100000x64, .f32⟩ : BufTy).Contents (Elt Ideal)) (x1 : (⟨S2x1600000, .i32⟩ : BufTy).Contents (Elt Ideal)) :
    (⟨S100000x64, .f32⟩ : BufTy).Contents (Elt Ideal) :=
  addf (F := Ideal) (φ := .f32)
    (Host.scatterAdd (F := Ideal) (φ := .f32) scatter_S100000x64_S1600000x1_S1600000x64_1_0_0_1 (val_main_v37 (F := Ideal)) (val_main_v38 (F := Ideal) x1)
      (mulf (F := Ideal) (φ := .f32) (Host.gather gather_S100000x64_S1600000x1_S1600000x64_1_0_n_n_0_1_164 h (val_main_v32 (F := Ideal) x1))
        (val_main_v35 (F := Ideal) x1)))
    (mulf (F := Ideal) (φ := .f32) h (val_main_v42 (F := Ideal) x1))

/-- Aggregation of 32-wide features. -/
def agg32 (h : (⟨S100000x32, .f32⟩ : BufTy).Contents (Elt Ideal)) (x1 : (⟨S2x1600000, .i32⟩ : BufTy).Contents (Elt Ideal)) :
    (⟨S100000x32, .f32⟩ : BufTy).Contents (Elt Ideal) :=
  addf (F := Ideal) (φ := .f32)
    (Host.scatterAdd (F := Ideal) (φ := .f32) scatter_S100000x32_S1600000x1_S1600000x32_1_0_0_1 (val_main_v157 (F := Ideal)) (val_main_v158 (F := Ideal) x1)
      (mulf (F := Ideal) (φ := .f32) (Host.gather gather_S100000x32_S1600000x1_S1600000x32_1_0_n_n_0_1_132 h (val_main_v152 (F := Ideal) x1))
        (val_main_v155 (F := Ideal) x1)))
    (mulf (F := Ideal) (φ := .f32) h (val_main_v162 (F := Ideal) x1))

variable (x0 : (⟨S100000x8, .f32⟩ : BufTy).Contents (Elt Ideal)) (x1 : (⟨S2x1600000, .i32⟩ : BufTy).Contents (Elt Ideal))
  (x2 : (⟨S8x64, .f32⟩ : BufTy).Contents (Elt Ideal)) (x3 x4 x5 x6 x7 : (⟨S64, .f32⟩ : BufTy).Contents (Elt Ideal))
  (x8 : (⟨S64x64, .f32⟩ : BufTy).Contents (Elt Ideal)) (x9 x10 x11 x12 x13 : (⟨S64, .f32⟩ : BufTy).Contents (Elt Ideal))
  (x14 : (⟨S64x32, .f32⟩ : BufTy).Contents (Elt Ideal))

/-- The reference's first aggregation is the function of its first product. -/
theorem ref_agg1 : val_main_v44 (F := Ideal) x0 x1 x2 = agg64 (val_main_v4 (F := Ideal) x0 x2) x1 := by
  unfold val_main_v44 val_main_v43 val_main_v39 val_main_v36 val_main_v33 agg64
  rfl

set_option maxRecDepth 16384 in
/-- The second layer recomputes the degree vector and both normalisations from the edge list: the same values. -/
theorem ref_agg2 : val_main_v104 (F := Ideal) x0 x1 x2 x3 x4 x5 x6 x7 x8 = agg64 (val_main_v64 (F := Ideal) x0 x1 x2 x3 x4 x5 x6 x7 x8) x1 := by
  simp only [agg64, val_main_v104, val_main_v103, val_main_v102, val_main_v101, val_main_v100, val_main_v71, val_main_v70, val_main_v69, val_main_cst_11, val_main_v68, val_main_v65, val_main_cst_9, val_main_v67, val_main_v3, val_main_v2, val_main_v66, val_main_cst_10, val_main_v99, val_main_v96, val_main_v95, val_main_v94, val_main_v86, val_main_v85, val_main_v84, val_main_v83, val_main_v82, val_main_v81, val_main_c_15, val_main_v80, val_main_v79, val_main_c_14, val_main_v78, val_main_v77, val_main_v76, val_main_v1, val_main_v0, val_main_v75, val_main_v74, val_main_c_13, val_main_v73, val_main_v72, val_main_c_12, val_main_v93, val_main_v92, val_main_v91, val_main_v90, val_main_v89, val_main_c_17, val_main_v88, val_main_v87, val_main_c_16, val_main_v98, val_main_v97, val_main_cst_18, val_main_v42, val_main_v41, val_main_v40, val_main_v11, val_main_v10, val_main_v9, val_main_cst_1, val_main_v8, val_main_v5, val_main_cst, val_main_v7, val_main_v6, val_main_cst_0, val_main_v35, val_main_v34, val_main_v26, val_main_v25, val_main_v24, val_main_v23, val_main_v22, val_main_v21, val_main_c_4, val_main_v20, val_main_v19, val_main_c_3, val_main_v18, val_main_v17, val_main_v16, val_main_v15, val_main_v14, val_main_c_2, val_main_v13, val_main_v12, val_main_c, val_main_v32, val_main_v31, val_main_v30, val_main_v29, val_main_c_6, val_main_v28, val_main_v27, val_main_c_5, val_main_v38, val_main_v37, val_main_cst_7]

/-- The third layer likewise, on 32-wide features. -/
theorem ref_agg3 : val_main_v164 (F := Ideal) x0 x1 x2 x3 x4 x5 x6 x7 x8 x9 x10 x11 x12 x13 x14 = agg32 (val_main_v124 (F := Ideal) x0 x1 x2 x3 x4 x5 x6 x7 x8 x9 x10 x11 x12 x13 x14) x1 := by
  unfold val_main_v164 val_main_v163 val_main_v159 val_main_v156 val_main_v153 agg32
  rfl

end Cert.Agg

end
-- ==== Proof.NetDef.lean ====
/-
  The network's logits as ONE function of the program's twenty-two arguments: three graph-convolution layers — a dense
  product, the graph aggregation, then bias, evaluation-mode batch normalisation and rectification — followed by the
  two-class linear head. Both programs compute the logarithm of the softmax of these logits, each in its own spelling.
-/
import proofs.«153305_j4758823764428_1_alg».proof.Proof.Spec
import proofs.«153305_j4758823764428_1_alg».proof.Proof.Agg

noncomputable section

namespace Cert.Net

open Cert.ReferenceIdeal Idealize.ShloMosaic Cert.Spec Cert.Agg

variable (x0 : (⟨S100000x8, .f32⟩ : BufTy).Contents (Elt Ideal)) (x1 : (⟨S2x1600000, .i32⟩ : BufTy).Contents (Elt Ideal))
  (x2 : (⟨S8x64, .f32⟩ : BufTy).Contents (Elt Ideal)) (x3 x4 x5 x6 x7 : (⟨S64, .f32⟩ : BufTy).Contents (Elt Ideal))
  (x8 : (⟨S64x64, .f32⟩ : BufTy).Contents (Elt Ideal)) (x9 x10 x11 x12 x13 : (⟨S64, .f32⟩ : BufTy).Contents (Elt Ideal))
  (x14 : (⟨S64x32, .f32⟩ : BufTy).Contents (Elt Ideal)) (x15 x16 x17 x18 x19 : (⟨S32, .f32⟩ : BufTy).Contents (Elt Ideal))
  (x20 : (⟨S32x2, .f32⟩ : BufTy).Contents (Elt Ideal)) (x21 : (⟨S2, .f32⟩ : BufTy).Contents (Elt Ideal))

/-- The first layer's output: `relu (bn (agg (x · W₁) + b₁))`. -/
def layer1 : (⟨S100000x64, .f32⟩ : BufTy).Contents (Elt Ideal) :=
  bnrelu (agg64 (lin x0 x2) x1) x3 x4 x5 x6 x7

/-- The second layer's output. -/
def layer2 : (⟨S100000x64, .f32⟩ : BufTy).Contents (Elt Ideal) :=
  bnrelu (agg64 (lin (layer1 x0 x1 x2 x3 x4 x5 x6 x7) x8) x1) x9 x10 x11 x12 x13

/-- The third layer's output, 32 wide. -/
def layer3 : (⟨S100000x32, .f32⟩ : BufTy).Contents (Elt Ideal) :=
  bnrelu (agg32 (lin (layer2 x0 x1 x2 x3 x4 x5 x6 x7 x8 x9 x10 x11 x12 x13) x14) x1) x15 x16 x17 x18 x19

/-- The logits: the head's product plus its bias. -/
def logits : (⟨S100000x2, .f32⟩ : BufTy).Contents (Elt Ideal) :=
  addRow (lin (layer3 x0 x1 x2 x3 x4 x5 x6 x7 x8 x9 x10 x11 x12 x13 x14 x15 x16 x17 x18 x19) x20) x21

end Cert.Net

end
-- ==== Proof.LibReshapeAt.lean ====
/-
  A row-major reshape read at coordinates. A reshape keeps an element's row-major position, so the entry `(p', q')` of
  the `P' × Q'` result is the operand's entry at the same position: the entry `(p, q)` of a `P × Q` operand when
  `p · Q + q = p' · Q' + q'`, the entry `(a, b, c)` of an `A × B × C` operand when `(a · B + b) · C + c = p' · Q' + q'`.
  The position equations are left to the caller: with literal extents they are linear arithmetic.
-/
import Idealize.ShloMosaic.Lib.Pipeline.Value
import Idealize.ShloMosaic.Lib.ValueIdx

noncomputable section

namespace Cert.LibReshapeAt

open Idealize.ShloMosaic Idealize.ShloMosaic.ValueIdx

/-- A rank-2 array reshaped to rank 2, at `(p', q')`. -/
theorem cast22 {α : Type} {P Q P' Q' : ℕ} (x : (⟨2, ![P, Q]⟩ : Shape).Idx → α)
    (h : (⟨2, ![P, Q]⟩ : Shape).ShapeCasts ⟨2, ![P', Q']⟩) (p' : Fin P') (q' : Fin Q') (p : Fin P) (q : Fin Q)
    (hk : p.val * Q + q.val = p'.val * Q' + q'.val) :
    shapeCast ⟨2, ![P', Q']⟩ x h (ix2 p' q') = x (ix2 p q) :=
  shapeCast_apply x h (ix2 p' q') (ix2 p q) (by rw [Shape.rowMajor_val_two, Shape.rowMajor_val_two]; exact hk)

/-- A rank-3 array reshaped to rank 2, at `(p', q')`. -/
theorem cast32 {α : Type} {A B C P' Q' : ℕ} (x : (⟨3, ![A, B, C]⟩ : Shape).Idx → α)
    (h : (⟨3, ![A, B, C]⟩ : Shape).ShapeCasts ⟨2, ![P', Q']⟩) (p' : Fin P') (q' : Fin Q') (a : Fin A) (b : Fin B) (c : Fin C)
    (hk : (a.val * B + b.val) * C + c.val = p'.val * Q' + q'.val) :
    shapeCast ⟨2, ![P', Q']⟩ x h (ix2 p' q') = x (ix3 a b c) :=
  shapeCast_apply x h (ix2 p' q') (ix3 a b c) (by rw [Shape.rowMajor_val_three, Shape.rowMajor_val_two]; exact hk)

/-- A vector reshaped to one row, at `(0, q)`. -/
theorem cast12 {α : Type} {N : ℕ} (x : (⟨1, ![N]⟩ : Shape).Idx → α)
    (h : (⟨1, ![N]⟩ : Shape).ShapeCasts ⟨2, ![1, N]⟩) (q : Fin N) :
    shapeCast ⟨2, ![1, N]⟩ x h (ix2 (0 : Fin 1) q) = x (ix1 q) :=
  shapeCast_apply x h (ix2 (0 : Fin 1) q) (ix1 q) (by
    rw [Shape.rowMajor_val_one, Shape.rowMajor_val_two]
    show q.val = 0 * N + q.val
    omega)

end Cert.LibReshapeAt

end
-- ==== Proof.KValue.lean ====
/-
  What the idealized kernel program leaves in its result array, as one function of its arguments.

  The program is seven kernel regions among stretches of host operations. The fold of its segments gives the buffer
  contents at every boundary; here each boundary's live buffers are read off in order:
  the edge list's two rows, the symmetric edge normalisation and the self-loop normalisation (host operations, once,
  before the first region); then per layer the dense product (a region), the aggregation (host operations, the same
  the reference applies), the five per-feature vectors re-laid as `1 × D` rows, and bias + batch normalisation +
  rectification (a region); last the head (a region): the product with the class weights, the bias row, and the
  logarithm of the softmax in the spelling `l − (m + log s)`. Each region's output array is the region's function
  of the arrays it finds at entry; a buffer no segment writes keeps its contents.
-/
import proofs.«153305_j4758823764428_1_alg».proof.Proof.Gen.KernelIdeal.Frame
import proofs.«153305_j4758823764428_1_alg».proof.Proof.KMatmul
import proofs.«153305_j4758823764428_1_alg».proof.Proof.KBn
import proofs.«153305_j4758823764428_1_alg».proof.Proof.KFinal
import proofs.«153305_j4758823764428_1_alg».proof.Proof.NetDef
import proofs.«153305_j4758823764428_1_alg».proof.Proof.LibReshapeAt
import Idealize.ShloMosaic.Lib.StableHlo.Run
import Idealize.ShloMosaic.Lib.Pipeline.Value

set_option maxRecDepth 16384

noncomputable section

namespace Cert.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- A vector re-laid as a `1 × D` array and read back through its one row is the vector. -/
theorem rowOf_reshape {D : ℕ} (x : (⟨1, ![D]⟩ : Shape).Idx → EReal) (h : (⟨1, ![D]⟩ : Shape).ShapeCasts ⟨2, ![1, D]⟩) :
    Cert.Spec.rowOf (shapeCast ⟨2, ![1, D]⟩ x h) = x := by
  funext i
  unfold Cert.Spec.rowOf
  rw [Cert.LibReshapeAt.cast12 x h (i 0)]
  exact congrArg x (ValueIdx.eq_ix1 i).symm

/-- The edge sources, as the first region finds them. -/
theorem at1_src : W1 (F := Ideal) m ρ c (Proc.devRef .tc main_v1) = Cert.ReferenceIdeal.ReadP.val_main_v1 (F := Ideal) (m ((c : Thread nD τ).loc main_arg1)) :=
  by
  show StableHlo.after hostOps0 (W0 m ρ c) (Proc.devRef .tc main_v1) = _
  after_results_simp
  simp only [Cert.ReferenceIdeal.ReadP.val_main_v1, Cert.ReferenceIdeal.ReadP.val_main_v0]
  rfl

/-- The edge destinations, as the first region finds them. -/
theorem at1_dst : W1 (F := Ideal) m ρ c (Proc.devRef .tc main_v3) = Cert.ReferenceIdeal.ReadP.val_main_v3 (F := Ideal) (m ((c : Thread nD τ).loc main_arg1)) :=
  by
  show StableHlo.after hostOps0 (W0 m ρ c) (Proc.devRef .tc main_v3) = _
  after_results_simp
  simp only [Cert.ReferenceIdeal.ReadP.val_main_v3, Cert.ReferenceIdeal.ReadP.val_main_v2]
  rfl

/-- Every edge's symmetric normalisation, as the first region finds them. -/
theorem at1_norm : W1 (F := Ideal) m ρ c (Proc.devRef .tc main_v25) = Cert.ReferenceIdeal.ReadP.val_main_v26 (F := Ideal) (m ((c : Thread nD τ).loc main_arg1)) :=
  by
  show StableHlo.after hostOps0 (W0 m ρ c) (Proc.devRef .tc main_v25) = _
  after_results_simp
  simp only [Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_v3, Cert.ReferenceIdeal.ReadP.val_main_v2, Cert.ReferenceIdeal.ReadP.val_main_v22, Cert.ReferenceIdeal.ReadP.val_main_v21, Cert.ReferenceIdeal.ReadP.val_main_c_4, Cert.ReferenceIdeal.ReadP.val_main_v20, Cert.ReferenceIdeal.ReadP.val_main_v19, Cert.ReferenceIdeal.ReadP.val_main_c_3, Cert.ReferenceIdeal.ReadP.val_main_v11, Cert.ReferenceIdeal.ReadP.val_main_v10, Cert.ReferenceIdeal.ReadP.val_main_v9, Cert.ReferenceIdeal.ReadP.val_main_cst_1, Cert.ReferenceIdeal.ReadP.val_main_v8, Cert.ReferenceIdeal.ReadP.val_main_v5, Cert.ReferenceIdeal.ReadP.val_main_cst, Cert.ReferenceIdeal.ReadP.val_main_v7, Cert.ReferenceIdeal.ReadP.val_main_v6, Cert.ReferenceIdeal.ReadP.val_main_cst_0, Cert.ReferenceIdeal.ReadP.val_main_v18, Cert.ReferenceIdeal.ReadP.val_main_v17, Cert.ReferenceIdeal.ReadP.val_main_v16, Cert.ReferenceIdeal.ReadP.val_main_v1, Cert.ReferenceIdeal.ReadP.val_main_v0, Cert.ReferenceIdeal.ReadP.val_main_v15, Cert.ReferenceIdeal.ReadP.val_main_v14, Cert.ReferenceIdeal.ReadP.val_main_c_2, Cert.ReferenceIdeal.ReadP.val_main_v13, Cert.ReferenceIdeal.ReadP.val_main_v12, Cert.ReferenceIdeal.ReadP.val_main_c]
  rfl

/-- Every node's self-loop normalisation, as the first region finds them. -/
theorem at1_self : W1 (F := Ideal) m ρ c (Proc.devRef .tc main_v26) = Cert.ReferenceIdeal.ReadP.val_main_v40 (F := Ideal) (m ((c : Thread nD τ).loc main_arg1)) :=
  by
  show StableHlo.after hostOps0 (W0 m ρ c) (Proc.devRef .tc main_v26) = _
  after_results_simp
  simp only [Cert.ReferenceIdeal.ReadP.val_main_v40, Cert.ReferenceIdeal.ReadP.val_main_v11, Cert.ReferenceIdeal.ReadP.val_main_v10, Cert.ReferenceIdeal.ReadP.val_main_v9, Cert.ReferenceIdeal.ReadP.val_main_cst_1, Cert.ReferenceIdeal.ReadP.val_main_v8, Cert.ReferenceIdeal.ReadP.val_main_v5, Cert.ReferenceIdeal.ReadP.val_main_cst, Cert.ReferenceIdeal.ReadP.val_main_v7, Cert.ReferenceIdeal.ReadP.val_main_v3, Cert.ReferenceIdeal.ReadP.val_main_v2, Cert.ReferenceIdeal.ReadP.val_main_v6, Cert.ReferenceIdeal.ReadP.val_main_cst_0]
  rfl

/-- Argument 0 is untouched up to boundary 1. -/
theorem at1_arg0 : W1 (F := Ideal) m ρ c (Proc.devRef .tc main_arg0) = (m ((c : Thread nD τ).loc main_arg0)) :=
  (show W1 (F := Ideal) m ρ c (Proc.devRef .tc main_arg0) = (m ((c : Thread nD τ).loc main_arg0)) from by
      show StableHlo.after hostOps0 (W0 m ρ c) (Proc.devRef .tc main_arg0) = _
      after_results_simp)

/-- Argument 2 is untouched up to boundary 1. -/
theorem at1_arg2 : W1 (F := Ideal) m ρ c (Proc.devRef .tc main_arg2) = (m ((c : Thread nD τ).loc main_arg2)) :=
  (show W1 (F := Ideal) m ρ c (Proc.devRef .tc main_arg2) = (m ((c : Thread nD τ).loc main_arg2)) from by
      show StableHlo.after hostOps0 (W0 m ρ c) (Proc.devRef .tc main_arg2) = _
      after_results_simp)

/-- The first dense product. -/
theorem at2_h : W2 (F := Ideal) m ρ c (Proc.devRef .tc main_v27) = Cert.Spec.lin (M := 100000) (K := 8) (N := 64) (m ((c : Thread nD τ).loc main_arg0)) (m ((c : Thread nD τ).loc main_arg2)) :=
  (W2_arr m ρ c 2).trans ((Cert.KMatmul.region0_lin (V1 m ρ) c).trans (by
    show Cert.Spec.lin (M := 100000) (K := 8) (N := 64) (W1 m ρ c (Proc.devRef .tc main_arg0)) (W1 m ρ c (Proc.devRef .tc main_arg2)) = _
    rw [at1_arg0, at1_arg2]))

/-- The edge sources, untouched up to boundary 2. -/
theorem at2_src : W2 (F := Ideal) m ρ c (Proc.devRef .tc main_v1) = Cert.ReferenceIdeal.ReadP.val_main_v1 (F := Ideal) (m ((c : Thread nD τ).loc main_arg1)) :=
  (W2_of_ne m ρ c main_v1 (by decide)).trans (at1_src m ρ c)

/-- The edge destinations, untouched up to boundary 2. -/
theorem at2_dst : W2 (F := Ideal) m ρ c (Proc.devRef .tc main_v3) = Cert.ReferenceIdeal.ReadP.val_main_v3 (F := Ideal) (m ((c : Thread nD τ).loc main_arg1)) :=
  (W2_of_ne m ρ c main_v3 (by decide)).trans (at1_dst m ρ c)

/-- Every edge's symmetric normalisation, untouched up to boundary 2. -/
theorem at2_norm : W2 (F := Ideal) m ρ c (Proc.devRef .tc main_v25) = Cert.ReferenceIdeal.ReadP.val_main_v26 (F := Ideal) (m ((c : Thread nD τ).loc main_arg1)) :=
  (W2_of_ne m ρ c main_v25 (by decide)).trans (at1_norm m ρ c)

/-- Every node's self-loop normalisation, untouched up to boundary 2. -/
theorem at2_self : W2 (F := Ideal) m ρ c (Proc.devRef .tc main_v26) = Cert.ReferenceIdeal.ReadP.val_main_v40 (F := Ideal) (m ((c : Thread nD τ).loc main_arg1)) :=
  (W2_of_ne m ρ c main_v26 (by decide)).trans (at1_self m ρ c)

/-- Argument 3 is untouched up to boundary 2. -/
theorem at2_arg3 : W2 (F := Ideal) m ρ c (Proc.devRef .tc main_arg3) = (m ((c : Thread nD τ).loc main_arg3)) :=
  ((W2_of_ne m ρ c main_arg3 (by decide)).trans (show W1 (F := Ideal) m ρ c (Proc.devRef .tc main_arg3) = (m ((c : Thread nD τ).loc main_arg3)) from by
      show StableHlo.after hostOps0 (W0 m ρ c) (Proc.devRef .tc main_arg3) = _
      after_results_simp))

/-- Argument 4 is untouched up to boundary 2. -/
theorem at2_arg4 : W2 (F := Ideal) m ρ c (Proc.devRef .tc main_arg4) = (m ((c : Thread nD τ).loc main_arg4)) :=
  ((W2_of_ne m ρ c main_arg4 (by decide)).trans (show W1 (F := Ideal) m ρ c (Proc.devRef .tc main_arg4) = (m ((c : Thread nD τ).loc main_arg4)) from by
      show StableHlo.after hostOps0 (W0 m ρ c) (Proc.devRef .tc main_arg4) = _
      after_results_simp))

/-- Argument 5 is untouched up to boundary 2. -/
theorem at2_arg5 : W2 (F := Ideal) m ρ c (Proc.devRef .tc main_arg5) = (m ((c : Thread nD τ).loc main_arg5)) :=
  ((W2_of_ne m ρ c main_arg5 (by decide)).trans (show W1 (F := Ideal) m ρ c (Proc.devRef .tc main_arg5) = (m ((c : Thread nD τ).loc main_arg5)) from by
      show StableHlo.after hostOps0 (W0 m ρ c) (Proc.devRef .tc main_arg5) = _
      after_results_simp))

/-- Argument 6 is untouched up to boundary 2. -/
theorem at2_arg6 : W2 (F := Ideal) m ρ c (Proc.devRef .tc main_arg6) = (m ((c : Thread nD τ).loc main_arg6)) :=
  ((W2_of_ne m ρ c main_arg6 (by decide)).trans (show W1 (F := Ideal) m ρ c (Proc.devRef .tc main_arg6) = (m ((c : Thread nD τ).loc main_arg6)) from by
      show StableHlo.after hostOps0 (W0 m ρ c) (Proc.devRef .tc main_arg6) = _
      after_results_simp))

/-- Argument 7 is untouched up to boundary 2. -/
theorem at2_arg7 : W2 (F := Ideal) m ρ c (Proc.devRef .tc main_arg7) = (m ((c : Thread nD τ).loc main_arg7)) :=
  ((W2_of_ne m ρ c main_arg7 (by decide)).trans (show W1 (F := Ideal) m ρ c (Proc.devRef .tc main_arg7) = (m ((c : Thread nD τ).loc main_arg7)) from by
      show StableHlo.after hostOps0 (W0 m ρ c) (Proc.devRef .tc main_arg7) = _
      after_results_simp))

/-- The aggregation of the layer's product, by the same host operations the reference applies. -/
theorem at3_agg : W3 (F := Ideal) m ρ c (Proc.devRef .tc main_v44) = Cert.Agg.agg64 (Cert.Spec.lin (M := 100000) (K := 8) (N := 64) (m ((c : Thread nD τ).loc main_arg0)) (m ((c : Thread nD τ).loc main_arg2))) (m ((c : Thread nD τ).loc main_arg1)) :=
  by
  show StableHlo.after hostOps1 (W2 m ρ c) (Proc.devRef .tc main_v44) = _
  after_results_simp
  rw [at2_h, at2_src, at2_dst, at2_norm, at2_self]
  simp only [Cert.Agg.agg64, Cert.ReferenceIdeal.ReadP.val_main_v42, Cert.ReferenceIdeal.ReadP.val_main_v41, Cert.ReferenceIdeal.ReadP.val_main_v40, Cert.ReferenceIdeal.ReadP.val_main_v11, Cert.ReferenceIdeal.ReadP.val_main_v10, Cert.ReferenceIdeal.ReadP.val_main_v9, Cert.ReferenceIdeal.ReadP.val_main_cst_1, Cert.ReferenceIdeal.ReadP.val_main_v8, Cert.ReferenceIdeal.ReadP.val_main_v5, Cert.ReferenceIdeal.ReadP.val_main_cst, Cert.ReferenceIdeal.ReadP.val_main_v7, Cert.ReferenceIdeal.ReadP.val_main_v3, Cert.ReferenceIdeal.ReadP.val_main_v2, Cert.ReferenceIdeal.ReadP.val_main_v6, Cert.ReferenceIdeal.ReadP.val_main_cst_0, Cert.ReferenceIdeal.ReadP.val_main_v35, Cert.ReferenceIdeal.ReadP.val_main_v34, Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_c_4, Cert.ReferenceIdeal.ReadP.val_main_v20, Cert.ReferenceIdeal.ReadP.val_main_v19, Cert.ReferenceIdeal.ReadP.val_main_c_3, Cert.ReferenceIdeal.ReadP.val_main_v18, Cert.ReferenceIdeal.ReadP.val_main_v17, Cert.ReferenceIdeal.ReadP.val_main_v16, Cert.ReferenceIdeal.ReadP.val_main_v1, Cert.ReferenceIdeal.ReadP.val_main_v0, Cert.ReferenceIdeal.ReadP.val_main_v15, Cert.ReferenceIdeal.ReadP.val_main_v14, Cert.ReferenceIdeal.ReadP.val_main_c_2, Cert.ReferenceIdeal.ReadP.val_main_v13, Cert.ReferenceIdeal.ReadP.val_main_v12, Cert.ReferenceIdeal.ReadP.val_main_c, Cert.ReferenceIdeal.ReadP.val_main_v32, Cert.ReferenceIdeal.ReadP.val_main_v31, Cert.ReferenceIdeal.ReadP.val_main_v30, Cert.ReferenceIdeal.ReadP.val_main_v29, Cert.ReferenceIdeal.ReadP.val_main_c_6, Cert.ReferenceIdeal.ReadP.val_main_v28, Cert.ReferenceIdeal.ReadP.val_main_v27, Cert.ReferenceIdeal.ReadP.val_main_c_5, Cert.ReferenceIdeal.ReadP.val_main_v38, Cert.ReferenceIdeal.ReadP.val_main_v37, Cert.ReferenceIdeal.ReadP.val_main_cst_7]
  rfl

/-- A per-feature vector re-laid as one row: read back as the vector. -/
theorem at3_row3 : Cert.Spec.rowOf (D := 64) (W3 (F := Ideal) m ρ c (Proc.devRef .tc main_v45)) = (m ((c : Thread nD τ).loc main_arg3)) :=
  by
  show Cert.Spec.rowOf (D := 64) (StableHlo.after hostOps1 (W2 m ρ c) (Proc.devRef .tc main_v45)) = _
  after_results_simp
  rw [at2_arg3]
  exact rowOf_reshape _ _

/-- A per-feature vector re-laid as one row: read back as the vector. -/
theorem at3_row4 : Cert.Spec.rowOf (D := 64) (W3 (F := Ideal) m ρ c (Proc.devRef .tc main_v46)) = (m ((c : Thread nD τ).loc main_arg4)) :=
  by
  show Cert.Spec.rowOf (D := 64) (StableHlo.after hostOps1 (W2 m ρ c) (Proc.devRef .tc main_v46)) = _
  after_results_simp
  rw [at2_arg4]
  exact rowOf_reshape _ _

/-- A per-feature vector re-laid as one row: read back as the vector. -/
theorem at3_row5 : Cert.Spec.rowOf (D := 64) (W3 (F := Ideal) m ρ c (Proc.devRef .tc main_v47)) = (m ((c : Thread nD τ).loc main_arg5)) :=
  by
  show Cert.Spec.rowOf (D := 64) (StableHlo.after hostOps1 (W2 m ρ c) (Proc.devRef .tc main_v47)) = _
  after_results_simp
  rw [at2_arg5]
  exact rowOf_reshape _ _

/-- A per-feature vector re-laid as one row: read back as the vector. -/
theorem at3_row6 : Cert.Spec.rowOf (D := 64) (W3 (F := Ideal) m ρ c (Proc.devRef .tc main_v48)) = (m ((c : Thread nD τ).loc main_arg6)) :=
  by
  show Cert.Spec.rowOf (D := 64) (StableHlo.after hostOps1 (W2 m ρ c) (Proc.devRef .tc main_v48)) = _
  after_results_simp
  rw [at2_arg6]
  exact rowOf_reshape _ _

/-- A per-feature vector re-laid as one row: read back as the vector. -/
theorem at3_row7 : Cert.Spec.rowOf (D := 64) (W3 (F := Ideal) m ρ c (Proc.devRef .tc main_v49)) = (m ((c : Thread nD τ).loc main_arg7)) :=
  by
  show Cert.Spec.rowOf (D := 64) (StableHlo.after hostOps1 (W2 m ρ c) (Proc.devRef .tc main_v49)) = _
  after_results_simp
  rw [at2_arg7]
  exact rowOf_reshape _ _

/-- The layer's output: bias, batch normalisation, rectification of the aggregate. -/
theorem at4_h : W4 (F := Ideal) m ρ c (Proc.devRef .tc main_v50) = Cert.Net.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans ((Cert.KBn.region1_bnrelu (V3 m ρ) c).trans (by
    show Cert.Spec.bnrelu (W3 m ρ c (Proc.devRef .tc main_v44)) (Cert.Spec.rowOf (D := 64) (W3 m ρ c (Proc.devRef .tc main_v45))) (Cert.Spec.rowOf (D := 64) (W3 m ρ c (Proc.devRef .tc main_v46))) (Cert.Spec.rowOf (D := 64) (W3 m ρ c (Proc.devRef .tc main_v47))) (Cert.Spec.rowOf (D := 64) (W3 m ρ c (Proc.devRef .tc main_v48))) (Cert.Spec.rowOf (D := 64) (W3 m ρ c (Proc.devRef .tc main_v49))) = _
    rw [at3_agg, at3_row3, at3_row4, at3_row5, at3_row6, at3_row7]
    unfold Cert.Net.layer1
    rfl))

/-- Argument 8 is untouched up to boundary 4. -/
theorem at4_arg8 : W4 (F := Ideal) m ρ c (Proc.devRef .tc main_arg8) = (m ((c : Thread nD τ).loc main_arg8)) :=
  ((W4_of_ne m ρ c main_arg8 (by decide)).trans ((show W3 (F := Ideal) m ρ c (Proc.devRef .tc main_arg8) = W2 (F := Ideal) m ρ c (Proc.devRef .tc main_arg8) from by
      show StableHlo.after hostOps1 (W2 m ρ c) (Proc.devRef .tc main_arg8) = _
      after_results_simp).trans ((W2_of_ne m ρ c main_arg8 (by decide)).trans (show W1 (F := Ideal) m ρ c (Proc.devRef .tc main_arg8) = (m ((c : Thread nD τ).loc main_arg8)) from by
      show StableHlo.after hostOps0 (W0 m ρ c) (Proc.devRef .tc main_arg8) = _
      after_results_simp))))

/-- The next dense product. -/
theorem at5_h : W5 (F := Ideal) m ρ c (Proc.devRef .tc main_v51) = Cert.Spec.lin (M := 100000) (K := 64) (N := 64) (Cert.Net.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (W5_arr m ρ c 2).trans ((Cert.KMatmul.region2_lin (V4 m ρ) c).trans (by
    show Cert.Spec.lin (M := 100000) (K := 64) (N := 64) (W4 m ρ c (Proc.devRef .tc main_v50)) (W4 m ρ c (Proc.devRef .tc main_arg8)) = _
    rw [at4_h, at4_arg8]))

/-- The edge sources, untouched up to boundary 5. -/
theorem at5_src : W5 (F := Ideal) m ρ c (Proc.devRef .tc main_v1) = Cert.ReferenceIdeal.ReadP.val_main_v1 (F := Ideal) (m ((c : Thread nD τ).loc main_arg1)) :=
  ((W5_of_ne m ρ c main_v1 (by decide)).trans ((W4_of_ne m ρ c main_v1 (by decide)).trans ((show W3 (F := Ideal) m ρ c (Proc.devRef .tc main_v1) = W2 (F := Ideal) m ρ c (Proc.devRef .tc main_v1) from by
      show StableHlo.after hostOps1 (W2 m ρ c) (Proc.devRef .tc main_v1) = _
      after_results_simp).trans (W2_of_ne m ρ c main_v1 (by decide))))).trans (at1_src m ρ c)

/-- The edge destinations, untouched up to boundary 5. -/
theorem at5_dst : W5 (F := Ideal) m ρ c (Proc.devRef .tc main_v3) = Cert.ReferenceIdeal.ReadP.val_main_v3 (F := Ideal) (m ((c : Thread nD τ).loc main_arg1)) :=
  ((W5_of_ne m ρ c main_v3 (by decide)).trans ((W4_of_ne m ρ c main_v3 (by decide)).trans ((show W3 (F := Ideal) m ρ c (Proc.devRef .tc main_v3) = W2 (F := Ideal) m ρ c (Proc.devRef .tc main_v3) from by
      show StableHlo.after hostOps1 (W2 m ρ c) (Proc.devRef .tc main_v3) = _
      after_results_simp).trans (W2_of_ne m ρ c main_v3 (by decide))))).trans (at1_dst m ρ c)

/-- Every edge's symmetric normalisation, untouched up to boundary 5. -/
theorem at5_norm : W5 (F := Ideal) m ρ c (Proc.devRef .tc main_v25) = Cert.ReferenceIdeal.ReadP.val_main_v26 (F := Ideal) (m ((c : Thread nD τ).loc main_arg1)) :=
  ((W5_of_ne m ρ c main_v25 (by decide)).trans ((W4_of_ne m ρ c main_v25 (by decide)).trans ((show W3 (F := Ideal) m ρ c (Proc.devRef .tc main_v25) = W2 (F := Ideal) m ρ c (Proc.devRef .tc main_v25) from by
      show StableHlo.after hostOps1 (W2 m ρ c) (Proc.devRef .tc main_v25) = _
      after_results_simp).trans (W2_of_ne m ρ c main_v25 (by decide))))).trans (at1_norm m ρ c)

/-- Every node's self-loop normalisation, untouched up to boundary 5. -/
theorem at5_self : W5 (F := Ideal) m ρ c (Proc.devRef .tc main_v26) = Cert.ReferenceIdeal.ReadP.val_main_v40 (F := Ideal) (m ((c : Thread nD τ).loc main_arg1)) :=
  ((W5_of_ne m ρ c main_v26 (by decide)).trans ((W4_of_ne m ρ c main_v26 (by decide)).trans ((show W3 (F := Ideal) m ρ c (Proc.devRef .tc main_v26) = W2 (F := Ideal) m ρ c (Proc.devRef .tc main_v26) from by
      show StableHlo.after hostOps1 (W2 m ρ c) (Proc.devRef .tc main_v26) = _
      after_results_simp).trans (W2_of_ne m ρ c main_v26 (by decide))))).trans (at1_self m ρ c)

/-- Argument 9 is untouched up to boundary 5. -/
theorem at5_arg9 : W5 (F := Ideal) m ρ c (Proc.devRef .tc main_arg9) = (m ((c : Thread nD τ).loc main_arg9)) :=
  ((W5_of_ne m ρ c main_arg9 (by decide)).trans ((W4_of_ne m ρ c main_arg9 (by decide)).trans ((show W3 (F := Ideal) m ρ c (Proc.devRef .tc main_arg9) = W2 (F := Ideal) m ρ c (Proc.devRef .tc main_arg9) from by
      show StableHlo.after hostOps1 (W2 m ρ c) (Proc.devRef .tc main_arg9) = _
      after_results_simp).trans ((W2_of_ne m ρ c main_arg9 (by decide)).trans (show W1 (F := Ideal) m ρ c (Proc.devRef .tc main_arg9) = (m ((c : Thread nD τ).loc main_arg9)) from by
      show StableHlo.after hostOps0 (W0 m ρ c) (Proc.devRef .tc main_arg9) = _
      after_results_simp)))))

/-- Argument 10 is untouched up to boundary 5. -/
theorem at5_arg10 : W5 (F := Ideal) m ρ c (Proc.devRef .tc main_arg10) = (m ((c : Thread nD τ).loc main_arg10)) :=
  ((W5_of_ne m ρ c main_arg10 (by decide)).trans ((W4_of_ne m ρ c main_arg10 (by decide)).trans ((show W3 (F := Ideal) m ρ c (Proc.devRef .tc main_arg10) = W2 (F := Ideal) m ρ c (Proc.devRef .tc main_arg10) from by
      show StableHlo.after hostOps1 (W2 m ρ c) (Proc.devRef .tc main_arg10) = _
      after_results_simp).trans ((W2_of_ne m ρ c main_arg10 (by decide)).trans (show W1 (F := Ideal) m ρ c (Proc.devRef .tc main_arg10) = (m ((c : Thread nD τ).loc main_arg10)) from by
      show StableHlo.after hostOps0 (W0 m ρ c) (Proc.devRef .tc main_arg10) = _
      after_results_simp)))))

/-- Argument 11 is untouched up to boundary 5. -/
theorem at5_arg11 : W5 (F := Ideal) m ρ c (Proc.devRef .tc main_arg11) = (m ((c : Thread nD τ).loc main_arg11)) :=
  ((W5_of_ne m ρ c main_arg11 (by decide)).trans ((W4_of_ne m ρ c main_arg11 (by decide)).trans ((show W3 (F := Ideal) m ρ c (Proc.devRef .tc main_arg11) = W2 (F := Ideal) m ρ c (Proc.devRef .tc main_arg11) from by
      show StableHlo.after hostOps1 (W2 m ρ c) (Proc.devRef .tc main_arg11) = _
      after_results_simp).trans ((W2_of_ne m ρ c main_arg11 (by decide)).trans (show W1 (F := Ideal) m ρ c (Proc.devRef .tc main_arg11) = (m ((c : Thread nD τ).loc main_arg11)) from by
      show StableHlo.after hostOps0 (W0 m ρ c) (Proc.devRef .tc main_arg11) = _
      after_results_simp)))))

/-- Argument 12 is untouched up to boundary 5. -/
theorem at5_arg12 : W5 (F := Ideal) m ρ c (Proc.devRef .tc main_arg12) = (m ((c : Thread nD τ).loc main_arg12)) :=
  ((W5_of_ne m ρ c main_arg12 (by decide)).trans ((W4_of_ne m ρ c main_arg12 (by decide)).trans ((show W3 (F := Ideal) m ρ c (Proc.devRef .tc main_arg12) = W2 (F := Ideal) m ρ c (Proc.devRef .tc main_arg12) from by
      show StableHlo.after hostOps1 (W2 m ρ c) (Proc.devRef .tc main_arg12) = _
      after_results_simp).trans ((W2_of_ne m ρ c main_arg12 (by decide)).trans (show W1 (F := Ideal) m ρ c (Proc.devRef .tc main_arg12) = (m ((c : Thread nD τ).loc main_arg12)) from by
      show StableHlo.after hostOps0 (W0 m ρ c) (Proc.devRef .tc main_arg12) = _
      after_results_simp)))))

/-- Argument 13 is untouched up to boundary 5. -/
theorem at5_arg13 : W5 (F := Ideal) m ρ c (Proc.devRef .tc main_arg13) = (m ((c : Thread nD τ).loc main_arg13)) :=
  ((W5_of_ne m ρ c main_arg13 (by decide)).trans ((W4_of_ne m ρ c main_arg13 (by decide)).trans ((show W3 (F := Ideal) m ρ c (Proc.devRef .tc main_arg13) = W2 (F := Ideal) m ρ c (Proc.devRef .tc main_arg13) from by
      show StableHlo.after hostOps1 (W2 m ρ c) (Proc.devRef .tc main_arg13) = _
      after_results_simp).trans ((W2_of_ne m ρ c main_arg13 (by decide)).trans (show W1 (F := Ideal) m ρ c (Proc.devRef .tc main_arg13) = (m ((c : Thread nD τ).loc main_arg13)) from by
      show StableHlo.after hostOps0 (W0 m ρ c) (Proc.devRef .tc main_arg13) = _
      after_results_simp)))))

/-- The aggregation of the layer's product, by the same host operations the reference applies. -/
theorem at6_agg : W6 (F := Ideal) m ρ c (Proc.devRef .tc main_v68) = Cert.Agg.agg64 (Cert.Spec.lin (M := 100000) (K := 64) (N := 64) (Cert.Net.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) :=
  by
  show StableHlo.after hostOps3 (W5 m ρ c) (Proc.devRef .tc main_v68) = _
  after_results_simp
  rw [at5_h, at5_src, at5_dst, at5_norm, at5_self]
  simp only [Cert.Agg.agg64, Cert.ReferenceIdeal.ReadP.val_main_v42, Cert.ReferenceIdeal.ReadP.val_main_v41, Cert.ReferenceIdeal.ReadP.val_main_v40, Cert.ReferenceIdeal.ReadP.val_main_v11, Cert.ReferenceIdeal.ReadP.val_main_v10, Cert.ReferenceIdeal.ReadP.val_main_v9, Cert.ReferenceIdeal.ReadP.val_main_cst_1, Cert.ReferenceIdeal.ReadP.val_main_v8, Cert.ReferenceIdeal.ReadP.val_main_v5, Cert.ReferenceIdeal.ReadP.val_main_cst, Cert.ReferenceIdeal.ReadP.val_main_v7, Cert.ReferenceIdeal.ReadP.val_main_v3, Cert.ReferenceIdeal.ReadP.val_main_v2, Cert.ReferenceIdeal.ReadP.val_main_v6, Cert.ReferenceIdeal.ReadP.val_main_cst_0, Cert.ReferenceIdeal.ReadP.val_main_v35, Cert.ReferenceIdeal.ReadP.val_main_v34, Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_c_4, Cert.ReferenceIdeal.ReadP.val_main_v20, Cert.ReferenceIdeal.ReadP.val_main_v19, Cert.ReferenceIdeal.ReadP.val_main_c_3, Cert.ReferenceIdeal.ReadP.val_main_v18, Cert.ReferenceIdeal.ReadP.val_main_v17, Cert.ReferenceIdeal.ReadP.val_main_v16, Cert.ReferenceIdeal.ReadP.val_main_v1, Cert.ReferenceIdeal.ReadP.val_main_v0, Cert.ReferenceIdeal.ReadP.val_main_v15, Cert.ReferenceIdeal.ReadP.val_main_v14, Cert.ReferenceIdeal.ReadP.val_main_c_2, Cert.ReferenceIdeal.ReadP.val_main_v13, Cert.ReferenceIdeal.ReadP.val_main_v12, Cert.ReferenceIdeal.ReadP.val_main_c, Cert.ReferenceIdeal.ReadP.val_main_v32, Cert.ReferenceIdeal.ReadP.val_main_v31, Cert.ReferenceIdeal.ReadP.val_main_v30, Cert.ReferenceIdeal.ReadP.val_main_v29, Cert.ReferenceIdeal.ReadP.val_main_c_6, Cert.ReferenceIdeal.ReadP.val_main_v28, Cert.ReferenceIdeal.ReadP.val_main_v27, Cert.ReferenceIdeal.ReadP.val_main_c_5, Cert.ReferenceIdeal.ReadP.val_main_v38, Cert.ReferenceIdeal.ReadP.val_main_v37, Cert.ReferenceIdeal.ReadP.val_main_cst_7]
  rfl

/-- A per-feature vector re-laid as one row: read back as the vector. -/
theorem at6_row9 : Cert.Spec.rowOf (D := 64) (W6 (F := Ideal) m ρ c (Proc.devRef .tc main_v69)) = (m ((c : Thread nD τ).loc main_arg9)) :=
  by
  show Cert.Spec.rowOf (D := 64) (StableHlo.after hostOps3 (W5 m ρ c) (Proc.devRef .tc main_v69)) = _
  after_results_simp
  rw [at5_arg9]
  exact rowOf_reshape _ _

/-- A per-feature vector re-laid as one row: read back as the vector. -/
theorem at6_row10 : Cert.Spec.rowOf (D := 64) (W6 (F := Ideal) m ρ c (Proc.devRef .tc main_v70)) = (m ((c : Thread nD τ).loc main_arg10)) :=
  by
  show Cert.Spec.rowOf (D := 64) (StableHlo.after hostOps3 (W5 m ρ c) (Proc.devRef .tc main_v70)) = _
  after_results_simp
  rw [at5_arg10]
  exact rowOf_reshape _ _

/-- A per-feature vector re-laid as one row: read back as the vector. -/
theorem at6_row11 : Cert.Spec.rowOf (D := 64) (W6 (F := Ideal) m ρ c (Proc.devRef .tc main_v71)) = (m ((c : Thread nD τ).loc main_arg11)) :=
  by
  show Cert.Spec.rowOf (D := 64) (StableHlo.after hostOps3 (W5 m ρ c) (Proc.devRef .tc main_v71)) = _
  after_results_simp
  rw [at5_arg11]
  exact rowOf_reshape _ _

/-- A per-feature vector re-laid as one row: read back as the vector. -/
theorem at6_row12 : Cert.Spec.rowOf (D := 64) (W6 (F := Ideal) m ρ c (Proc.devRef .tc main_v72)) = (m ((c : Thread nD τ).loc main_arg12)) :=
  by
  show Cert.Spec.rowOf (D := 64) (StableHlo.after hostOps3 (W5 m ρ c) (Proc.devRef .tc main_v72)) = _
  after_results_simp
  rw [at5_arg12]
  exact rowOf_reshape _ _

/-- A per-feature vector re-laid as one row: read back as the vector. -/
theorem at6_row13 : Cert.Spec.rowOf (D := 64) (W6 (F := Ideal) m ρ c (Proc.devRef .tc main_v73)) = (m ((c : Thread nD τ).loc main_arg13)) :=
  by
  show Cert.Spec.rowOf (D := 64) (StableHlo.after hostOps3 (W5 m ρ c) (Proc.devRef .tc main_v73)) = _
  after_results_simp
  rw [at5_arg13]
  exact rowOf_reshape _ _

/-- The layer's output: bias, batch normalisation, rectification of the aggregate. -/
theorem at7_h : W7 (F := Ideal) m ρ c (Proc.devRef .tc main_v74) = Cert.Net.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W7_arr m ρ c 6).trans ((Cert.KBn.region3_bnrelu (V6 m ρ) c).trans (by
    show Cert.Spec.bnrelu (W6 m ρ c (Proc.devRef .tc main_v68)) (Cert.Spec.rowOf (D := 64) (W6 m ρ c (Proc.devRef .tc main_v69))) (Cert.Spec.rowOf (D := 64) (W6 m ρ c (Proc.devRef .tc main_v70))) (Cert.Spec.rowOf (D := 64) (W6 m ρ c (Proc.devRef .tc main_v71))) (Cert.Spec.rowOf (D := 64) (W6 m ρ c (Proc.devRef .tc main_v72))) (Cert.Spec.rowOf (D := 64) (W6 m ρ c (Proc.devRef .tc main_v73))) = _
    rw [at6_agg, at6_row9, at6_row10, at6_row11, at6_row12, at6_row13]
    unfold Cert.Net.layer2
    rfl))

/-- Argument 14 is untouched up to boundary 7. -/
theorem at7_arg14 : W7 (F := Ideal) m ρ c (Proc.devRef .tc main_arg14) = (m ((c : Thread nD τ).loc main_arg14)) :=
  ((W7_of_ne m ρ c main_arg14 (by decide)).trans ((show W6 (F := Ideal) m ρ c (Proc.devRef .tc main_arg14) = W5 (F := Ideal) m ρ c (Proc.devRef .tc main_arg14) from by
      show StableHlo.after hostOps3 (W5 m ρ c) (Proc.devRef .tc main_arg14) = _
      after_results_simp).trans ((W5_of_ne m ρ c main_arg14 (by decide)).trans ((W4_of_ne m ρ c main_arg14 (by decide)).trans ((show W3 (F := Ideal) m ρ c (Proc.devRef .tc main_arg14) = W2 (F := Ideal) m ρ c (Proc.devRef .tc main_arg14) from by
      show StableHlo.after hostOps1 (W2 m ρ c) (Proc.devRef .tc main_arg14) = _
      after_results_simp).trans ((W2_of_ne m ρ c main_arg14 (by decide)).trans (show W1 (F := Ideal) m ρ c (Proc.devRef .tc main_arg14) = (m ((c : Thread nD τ).loc main_arg14)) from by
      show StableHlo.after hostOps0 (W0 m ρ c) (Proc.devRef .tc main_arg14) = _
      after_results_simp)))))))

/-- The next dense product. -/
theorem at8_h : W8 (F := Ideal) m ρ c (Proc.devRef .tc main_v75) = Cert.Spec.lin (M := 100000) (K := 64) (N := 32) (Cert.Net.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)) :=
  (W8_arr m ρ c 2).trans ((Cert.KMatmul.region4_lin (V7 m ρ) c).trans (by
    show Cert.Spec.lin (M := 100000) (K := 64) (N := 32) (W7 m ρ c (Proc.devRef .tc main_v74)) (W7 m ρ c (Proc.devRef .tc main_arg14)) = _
    rw [at7_h, at7_arg14]))

/-- The edge sources, untouched up to boundary 8. -/
theorem at8_src : W8 (F := Ideal) m ρ c (Proc.devRef .tc main_v1) = Cert.ReferenceIdeal.ReadP.val_main_v1 (F := Ideal) (m ((c : Thread nD τ).loc main_arg1)) :=
  ((W8_of_ne m ρ c main_v1 (by decide)).trans ((W7_of_ne m ρ c main_v1 (by decide)).trans ((show W6 (F := Ideal) m ρ c (Proc.devRef .tc main_v1) = W5 (F := Ideal) m ρ c (Proc.devRef .tc main_v1) from by
      show StableHlo.after hostOps3 (W5 m ρ c) (Proc.devRef .tc main_v1) = _
      after_results_simp).trans ((W5_of_ne m ρ c main_v1 (by decide)).trans ((W4_of_ne m ρ c main_v1 (by decide)).trans ((show W3 (F := Ideal) m ρ c (Proc.devRef .tc main_v1) = W2 (F := Ideal) m ρ c (Proc.devRef .tc main_v1) from by
      show StableHlo.after hostOps1 (W2 m ρ c) (Proc.devRef .tc main_v1) = _
      after_results_simp).trans (W2_of_ne m ρ c main_v1 (by decide)))))))).trans (at1_src m ρ c)

/-- The edge destinations, untouched up to boundary 8. -/
theorem at8_dst : W8 (F := Ideal) m ρ c (Proc.devRef .tc main_v3) = Cert.ReferenceIdeal.ReadP.val_main_v3 (F := Ideal) (m ((c : Thread nD τ).loc main_arg1)) :=
  ((W8_of_ne m ρ c main_v3 (by decide)).trans ((W7_of_ne m ρ c main_v3 (by decide)).trans ((show W6 (F := Ideal) m ρ c (Proc.devRef .tc main_v3) = W5 (F := Ideal) m ρ c (Proc.devRef .tc main_v3) from by
      show StableHlo.after hostOps3 (W5 m ρ c) (Proc.devRef .tc main_v3) = _
      after_results_simp).trans ((W5_of_ne m ρ c main_v3 (by decide)).trans ((W4_of_ne m ρ c main_v3 (by decide)).trans ((show W3 (F := Ideal) m ρ c (Proc.devRef .tc main_v3) = W2 (F := Ideal) m ρ c (Proc.devRef .tc main_v3) from by
      show StableHlo.after hostOps1 (W2 m ρ c) (Proc.devRef .tc main_v3) = _
      after_results_simp).trans (W2_of_ne m ρ c main_v3 (by decide)))))))).trans (at1_dst m ρ c)

/-- Every edge's symmetric normalisation, untouched up to boundary 8. -/
theorem at8_norm : W8 (F := Ideal) m ρ c (Proc.devRef .tc main_v25) = Cert.ReferenceIdeal.ReadP.val_main_v26 (F := Ideal) (m ((c : Thread nD τ).loc main_arg1)) :=
  ((W8_of_ne m ρ c main_v25 (by decide)).trans ((W7_of_ne m ρ c main_v25 (by decide)).trans ((show W6 (F := Ideal) m ρ c (Proc.devRef .tc main_v25) = W5 (F := Ideal) m ρ c (Proc.devRef .tc main_v25) from by
      show StableHlo.after hostOps3 (W5 m ρ c) (Proc.devRef .tc main_v25) = _
      after_results_simp).trans ((W5_of_ne m ρ c main_v25 (by decide)).trans ((W4_of_ne m ρ c main_v25 (by decide)).trans ((show W3 (F := Ideal) m ρ c (Proc.devRef .tc main_v25) = W2 (F := Ideal) m ρ c (Proc.devRef .tc main_v25) from by
      show StableHlo.after hostOps1 (W2 m ρ c) (Proc.devRef .tc main_v25) = _
      after_results_simp).trans (W2_of_ne m ρ c main_v25 (by decide)))))))).trans (at1_norm m ρ c)

/-- Every node's self-loop normalisation, untouched up to boundary 8. -/
theorem at8_self : W8 (F := Ideal) m ρ c (Proc.devRef .tc main_v26) = Cert.ReferenceIdeal.ReadP.val_main_v40 (F := Ideal) (m ((c : Thread nD τ).loc main_arg1)) :=
  ((W8_of_ne m ρ c main_v26 (by decide)).trans ((W7_of_ne m ρ c main_v26 (by decide)).trans ((show W6 (F := Ideal) m ρ c (Proc.devRef .tc main_v26) = W5 (F := Ideal) m ρ c (Proc.devRef .tc main_v26) from by
      show StableHlo.after hostOps3 (W5 m ρ c) (Proc.devRef .tc main_v26) = _
      after_results_simp).trans ((W5_of_ne m ρ c main_v26 (by decide)).trans ((W4_of_ne m ρ c main_v26 (by decide)).trans ((show W3 (F := Ideal) m ρ c (Proc.devRef .tc main_v26) = W2 (F := Ideal) m ρ c (Proc.devRef .tc main_v26) from by
      show StableHlo.after hostOps1 (W2 m ρ c) (Proc.devRef .tc main_v26) = _
      after_results_simp).trans (W2_of_ne m ρ c main_v26 (by decide)))))))).trans (at1_self m ρ c)

/-- Argument 15 is untouched up to boundary 8. -/
theorem at8_arg15 : W8 (F := Ideal) m ρ c (Proc.devRef .tc main_arg15) = (m ((c : Thread nD τ).loc main_arg15)) :=
  ((W8_of_ne m ρ c main_arg15 (by decide)).trans ((W7_of_ne m ρ c main_arg15 (by decide)).trans ((show W6 (F := Ideal) m ρ c (Proc.devRef .tc main_arg15) = W5 (F := Ideal) m ρ c (Proc.devRef .tc main_arg15) from by
      show StableHlo.after hostOps3 (W5 m ρ c) (Proc.devRef .tc main_arg15) = _
      after_results_simp).trans ((W5_of_ne m ρ c main_arg15 (by decide)).trans ((W4_of_ne m ρ c main_arg15 (by decide)).trans ((show W3 (F := Ideal) m ρ c (Proc.devRef .tc main_arg15) = W2 (F := Ideal) m ρ c (Proc.devRef .tc main_arg15) from by
      show StableHlo.after hostOps1 (W2 m ρ c) (Proc.devRef .tc main_arg15) = _
      after_results_simp).trans ((W2_of_ne m ρ c main_arg15 (by decide)).trans (show W1 (F := Ideal) m ρ c (Proc.devRef .tc main_arg15) = (m ((c : Thread nD τ).loc main_arg15)) from by
      show StableHlo.after hostOps0 (W0 m ρ c) (Proc.devRef .tc main_arg15) = _
      after_results_simp))))))))

/-- Argument 16 is untouched up to boundary 8. -/
theorem at8_arg16 : W8 (F := Ideal) m ρ c (Proc.devRef .tc main_arg16) = (m ((c : Thread nD τ).loc main_arg16)) :=
  ((W8_of_ne m ρ c main_arg16 (by decide)).trans ((W7_of_ne m ρ c main_arg16 (by decide)).trans ((show W6 (F := Ideal) m ρ c (Proc.devRef .tc main_arg16) = W5 (F := Ideal) m ρ c (Proc.devRef .tc main_arg16) from by
      show StableHlo.after hostOps3 (W5 m ρ c) (Proc.devRef .tc main_arg16) = _
      after_results_simp).trans ((W5_of_ne m ρ c main_arg16 (by decide)).trans ((W4_of_ne m ρ c main_arg16 (by decide)).trans ((show W3 (F := Ideal) m ρ c (Proc.devRef .tc main_arg16) = W2 (F := Ideal) m ρ c (Proc.devRef .tc main_arg16) from by
      show StableHlo.after hostOps1 (W2 m ρ c) (Proc.devRef .tc main_arg16) = _
      after_results_simp).trans ((W2_of_ne m ρ c main_arg16 (by decide)).trans (show W1 (F := Ideal) m ρ c (Proc.devRef .tc main_arg16) = (m ((c : Thread nD τ).loc main_arg16)) from by
      show StableHlo.after hostOps0 (W0 m ρ c) (Proc.devRef .tc main_arg16) = _
      after_results_simp))))))))

/-- Argument 17 is untouched up to boundary 8. -/
theorem at8_arg17 : W8 (F := Ideal) m ρ c (Proc.devRef .tc main_arg17) = (m ((c : Thread nD τ).loc main_arg17)) :=
  ((W8_of_ne m ρ c main_arg17 (by decide)).trans ((W7_of_ne m ρ c main_arg17 (by decide)).trans ((show W6 (F := Ideal) m ρ c (Proc.devRef .tc main_arg17) = W5 (F := Ideal) m ρ c (Proc.devRef .tc main_arg17) from by
      show StableHlo.after hostOps3 (W5 m ρ c) (Proc.devRef .tc main_arg17) = _
      after_results_simp).trans ((W5_of_ne m ρ c main_arg17 (by decide)).trans ((W4_of_ne m ρ c main_arg17 (by decide)).trans ((show W3 (F := Ideal) m ρ c (Proc.devRef .tc main_arg17) = W2 (F := Ideal) m ρ c (Proc.devRef .tc main_arg17) from by
      show StableHlo.after hostOps1 (W2 m ρ c) (Proc.devRef .tc main_arg17) = _
      after_results_simp).trans ((W2_of_ne m ρ c main_arg17 (by decide)).trans (show W1 (F := Ideal) m ρ c (Proc.devRef .tc main_arg17) = (m ((c : Thread nD τ).loc main_arg17)) from by
      show StableHlo.after hostOps0 (W0 m ρ c) (Proc.devRef .tc main_arg17) = _
      after_results_simp))))))))

/-- Argument 18 is untouched up to boundary 8. -/
theorem at8_arg18 : W8 (F := Ideal) m ρ c (Proc.devRef .tc main_arg18) = (m ((c : Thread nD τ).loc main_arg18)) :=
  ((W8_of_ne m ρ c main_arg18 (by decide)).trans ((W7_of_ne m ρ c main_arg18 (by decide)).trans ((show W6 (F := Ideal) m ρ c (Proc.devRef .tc main_arg18) = W5 (F := Ideal) m ρ c (Proc.devRef .tc main_arg18) from by
      show StableHlo.after hostOps3 (W5 m ρ c) (Proc.devRef .tc main_arg18) = _
      after_results_simp).trans ((W5_of_ne m ρ c main_arg18 (by decide)).trans ((W4_of_ne m ρ c main_arg18 (by decide)).trans ((show W3 (F := Ideal) m ρ c (Proc.devRef .tc main_arg18) = W2 (F := Ideal) m ρ c (Proc.devRef .tc main_arg18) from by
      show StableHlo.after hostOps1 (W2 m ρ c) (Proc.devRef .tc main_arg18) = _
      after_results_simp).trans ((W2_of_ne m ρ c main_arg18 (by decide)).trans (show W1 (F := Ideal) m ρ c (Proc.devRef .tc main_arg18) = (m ((c : Thread nD τ).loc main_arg18)) from by
      show StableHlo.after hostOps0 (W0 m ρ c) (Proc.devRef .tc main_arg18) = _
      after_results_simp))))))))

/-- Argument 19 is untouched up to boundary 8. -/
theorem at8_arg19 : W8 (F := Ideal) m ρ c (Proc.devRef .tc main_arg19) = (m ((c : Thread nD τ).loc main_arg19)) :=
  ((W8_of_ne m ρ c main_arg19 (by decide)).trans ((W7_of_ne m ρ c main_arg19 (by decide)).trans ((show W6 (F := Ideal) m ρ c (Proc.devRef .tc main_arg19) = W5 (F := Ideal) m ρ c (Proc.devRef .tc main_arg19) from by
      show StableHlo.after hostOps3 (W5 m ρ c) (Proc.devRef .tc main_arg19) = _
      after_results_simp).trans ((W5_of_ne m ρ c main_arg19 (by decide)).trans ((W4_of_ne m ρ c main_arg19 (by decide)).trans ((show W3 (F := Ideal) m ρ c (Proc.devRef .tc main_arg19) = W2 (F := Ideal) m ρ c (Proc.devRef .tc main_arg19) from by
      show StableHlo.after hostOps1 (W2 m ρ c) (Proc.devRef .tc main_arg19) = _
      after_results_simp).trans ((W2_of_ne m ρ c main_arg19 (by decide)).trans (show W1 (F := Ideal) m ρ c (Proc.devRef .tc main_arg19) = (m ((c : Thread nD τ).loc main_arg19)) from by
      show StableHlo.after hostOps0 (W0 m ρ c) (Proc.devRef .tc main_arg19) = _
      after_results_simp))))))))

/-- The aggregation of the layer's product, by the same host operations the reference applies. -/
theorem at9_agg : W9 (F := Ideal) m ρ c (Proc.devRef .tc main_v92) = Cert.Agg.agg32 (Cert.Spec.lin (M := 100000) (K := 64) (N := 32) (Cert.Net.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14))) (m ((c : Thread nD τ).loc main_arg1)) :=
  by
  show StableHlo.after hostOps5 (W8 m ρ c) (Proc.devRef .tc main_v92) = _
  after_results_simp
  rw [at8_h, at8_src, at8_dst, at8_norm, at8_self]
  simp only [Cert.Agg.agg32, Cert.ReferenceIdeal.ReadP.val_main_v162, Cert.ReferenceIdeal.ReadP.val_main_v161, Cert.ReferenceIdeal.ReadP.val_main_v160, Cert.ReferenceIdeal.ReadP.val_main_v131, Cert.ReferenceIdeal.ReadP.val_main_v130, Cert.ReferenceIdeal.ReadP.val_main_v129, Cert.ReferenceIdeal.ReadP.val_main_cst_22, Cert.ReferenceIdeal.ReadP.val_main_v128, Cert.ReferenceIdeal.ReadP.val_main_v125, Cert.ReferenceIdeal.ReadP.val_main_cst_20, Cert.ReferenceIdeal.ReadP.val_main_v127, Cert.ReferenceIdeal.ReadP.val_main_v3, Cert.ReferenceIdeal.ReadP.val_main_v2, Cert.ReferenceIdeal.ReadP.val_main_v126, Cert.ReferenceIdeal.ReadP.val_main_cst_21, Cert.ReferenceIdeal.ReadP.val_main_v155, Cert.ReferenceIdeal.ReadP.val_main_v154, Cert.ReferenceIdeal.ReadP.val_main_v146, Cert.ReferenceIdeal.ReadP.val_main_v145, Cert.ReferenceIdeal.ReadP.val_main_v144, Cert.ReferenceIdeal.ReadP.val_main_v143, Cert.ReferenceIdeal.ReadP.val_main_v142, Cert.ReferenceIdeal.ReadP.val_main_v141, Cert.ReferenceIdeal.ReadP.val_main_c_26, Cert.ReferenceIdeal.ReadP.val_main_v140, Cert.ReferenceIdeal.ReadP.val_main_v139, Cert.ReferenceIdeal.ReadP.val_main_c_25, Cert.ReferenceIdeal.ReadP.val_main_v138, Cert.ReferenceIdeal.ReadP.val_main_v137, Cert.ReferenceIdeal.ReadP.val_main_v136, Cert.ReferenceIdeal.ReadP.val_main_v1, Cert.ReferenceIdeal.ReadP.val_main_v0, Cert.ReferenceIdeal.ReadP.val_main_v135, Cert.ReferenceIdeal.ReadP.val_main_v134, Cert.ReferenceIdeal.ReadP.val_main_c_24, Cert.ReferenceIdeal.ReadP.val_main_v133, Cert.ReferenceIdeal.ReadP.val_main_v132, Cert.ReferenceIdeal.ReadP.val_main_c_23, Cert.ReferenceIdeal.ReadP.val_main_v152, Cert.ReferenceIdeal.ReadP.val_main_v151, Cert.ReferenceIdeal.ReadP.val_main_v150, Cert.ReferenceIdeal.ReadP.val_main_v149, Cert.ReferenceIdeal.ReadP.val_main_c_28, Cert.ReferenceIdeal.ReadP.val_main_v148, Cert.ReferenceIdeal.ReadP.val_main_v147, Cert.ReferenceIdeal.ReadP.val_main_c_27, Cert.ReferenceIdeal.ReadP.val_main_v158, Cert.ReferenceIdeal.ReadP.val_main_v157, Cert.ReferenceIdeal.ReadP.val_main_cst_29, Cert.ReferenceIdeal.ReadP.val_main_v40, Cert.ReferenceIdeal.ReadP.val_main_v11, Cert.ReferenceIdeal.ReadP.val_main_v10, Cert.ReferenceIdeal.ReadP.val_main_v9, Cert.ReferenceIdeal.ReadP.val_main_cst_1, Cert.ReferenceIdeal.ReadP.val_main_v8, Cert.ReferenceIdeal.ReadP.val_main_v5, Cert.ReferenceIdeal.ReadP.val_main_cst, Cert.ReferenceIdeal.ReadP.val_main_v7, Cert.ReferenceIdeal.ReadP.val_main_v6, Cert.ReferenceIdeal.ReadP.val_main_cst_0, Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_c_4, Cert.ReferenceIdeal.ReadP.val_main_v20, Cert.ReferenceIdeal.ReadP.val_main_v19, Cert.ReferenceIdeal.ReadP.val_main_c_3, Cert.ReferenceIdeal.ReadP.val_main_v18, Cert.ReferenceIdeal.ReadP.val_main_v17, Cert.ReferenceIdeal.ReadP.val_main_v16, Cert.ReferenceIdeal.ReadP.val_main_v15, Cert.ReferenceIdeal.ReadP.val_main_v14, Cert.ReferenceIdeal.ReadP.val_main_c_2, Cert.ReferenceIdeal.ReadP.val_main_v13, Cert.ReferenceIdeal.ReadP.val_main_v12, Cert.ReferenceIdeal.ReadP.val_main_c]
  rfl

/-- A per-feature vector re-laid as one row: read back as the vector. -/
theorem at9_row15 : Cert.Spec.rowOf (D := 32) (W9 (F := Ideal) m ρ c (Proc.devRef .tc main_v93)) = (m ((c : Thread nD τ).loc main_arg15)) :=
  by
  show Cert.Spec.rowOf (D := 32) (StableHlo.after hostOps5 (W8 m ρ c) (Proc.devRef .tc main_v93)) = _
  after_results_simp
  rw [at8_arg15]
  exact rowOf_reshape _ _

/-- A per-feature vector re-laid as one row: read back as the vector. -/
theorem at9_row16 : Cert.Spec.rowOf (D := 32) (W9 (F := Ideal) m ρ c (Proc.devRef .tc main_v94)) = (m ((c : Thread nD τ).loc main_arg16)) :=
  by
  show Cert.Spec.rowOf (D := 32) (StableHlo.after hostOps5 (W8 m ρ c) (Proc.devRef .tc main_v94)) = _
  after_results_simp
  rw [at8_arg16]
  exact rowOf_reshape _ _

/-- A per-feature vector re-laid as one row: read back as the vector. -/
theorem at9_row17 : Cert.Spec.rowOf (D := 32) (W9 (F := Ideal) m ρ c (Proc.devRef .tc main_v95)) = (m ((c : Thread nD τ).loc main_arg17)) :=
  by
  show Cert.Spec.rowOf (D := 32) (StableHlo.after hostOps5 (W8 m ρ c) (Proc.devRef .tc main_v95)) = _
  after_results_simp
  rw [at8_arg17]
  exact rowOf_reshape _ _

/-- A per-feature vector re-laid as one row: read back as the vector. -/
theorem at9_row18 : Cert.Spec.rowOf (D := 32) (W9 (F := Ideal) m ρ c (Proc.devRef .tc main_v96)) = (m ((c : Thread nD τ).loc main_arg18)) :=
  by
  show Cert.Spec.rowOf (D := 32) (StableHlo.after hostOps5 (W8 m ρ c) (Proc.devRef .tc main_v96)) = _
  after_results_simp
  rw [at8_arg18]
  exact rowOf_reshape _ _

/-- A per-feature vector re-laid as one row: read back as the vector. -/
theorem at9_row19 : Cert.Spec.rowOf (D := 32) (W9 (F := Ideal) m ρ c (Proc.devRef .tc main_v97)) = (m ((c : Thread nD τ).loc main_arg19)) :=
  by
  show Cert.Spec.rowOf (D := 32) (StableHlo.after hostOps5 (W8 m ρ c) (Proc.devRef .tc main_v97)) = _
  after_results_simp
  rw [at8_arg19]
  exact rowOf_reshape _ _

/-- The layer's output: bias, batch normalisation, rectification of the aggregate. -/
theorem at10_h : W10 (F := Ideal) m ρ c (Proc.devRef .tc main_v98) = Cert.Net.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (W10_arr m ρ c 6).trans ((Cert.KBn.region5_bnrelu (V9 m ρ) c).trans (by
    show Cert.Spec.bnrelu (W9 m ρ c (Proc.devRef .tc main_v92)) (Cert.Spec.rowOf (D := 32) (W9 m ρ c (Proc.devRef .tc main_v93))) (Cert.Spec.rowOf (D := 32) (W9 m ρ c (Proc.devRef .tc main_v94))) (Cert.Spec.rowOf (D := 32) (W9 m ρ c (Proc.devRef .tc main_v95))) (Cert.Spec.rowOf (D := 32) (W9 m ρ c (Proc.devRef .tc main_v96))) (Cert.Spec.rowOf (D := 32) (W9 m ρ c (Proc.devRef .tc main_v97))) = _
    rw [at9_agg, at9_row15, at9_row16, at9_row17, at9_row18, at9_row19]
    unfold Cert.Net.layer3
    rfl))

/-- Argument 21 is untouched up to boundary 10. -/
theorem at10_arg21 : W10 (F := Ideal) m ρ c (Proc.devRef .tc main_arg21) = (m ((c : Thread nD τ).loc main_arg21)) :=
  ((W10_of_ne m ρ c main_arg21 (by decide)).trans ((show W9 (F := Ideal) m ρ c (Proc.devRef .tc main_arg21) = W8 (F := Ideal) m ρ c (Proc.devRef .tc main_arg21) from by
      show StableHlo.after hostOps5 (W8 m ρ c) (Proc.devRef .tc main_arg21) = _
      after_results_simp).trans ((W8_of_ne m ρ c main_arg21 (by decide)).trans ((W7_of_ne m ρ c main_arg21 (by decide)).trans ((show W6 (F := Ideal) m ρ c (Proc.devRef .tc main_arg21) = W5 (F := Ideal) m ρ c (Proc.devRef .tc main_arg21) from by
      show StableHlo.after hostOps3 (W5 m ρ c) (Proc.devRef .tc main_arg21) = _
      after_results_simp).trans ((W5_of_ne m ρ c main_arg21 (by decide)).trans ((W4_of_ne m ρ c main_arg21 (by decide)).trans ((show W3 (F := Ideal) m ρ c (Proc.devRef .tc main_arg21) = W2 (F := Ideal) m ρ c (Proc.devRef .tc main_arg21) from by
      show StableHlo.after hostOps1 (W2 m ρ c) (Proc.devRef .tc main_arg21) = _
      after_results_simp).trans ((W2_of_ne m ρ c main_arg21 (by decide)).trans (show W1 (F := Ideal) m ρ c (Proc.devRef .tc main_arg21) = (m ((c : Thread nD τ).loc main_arg21)) from by
      show StableHlo.after hostOps0 (W0 m ρ c) (Proc.devRef .tc main_arg21) = _
      after_results_simp))))))))))

/-- Argument 20 is untouched up to boundary 11. -/
theorem at11_arg20 : W11 (F := Ideal) m ρ c (Proc.devRef .tc main_arg20) = (m ((c : Thread nD τ).loc main_arg20)) :=
  ((show W11 (F := Ideal) m ρ c (Proc.devRef .tc main_arg20) = W10 (F := Ideal) m ρ c (Proc.devRef .tc main_arg20) from by
      show StableHlo.after hostOps6 (W10 m ρ c) (Proc.devRef .tc main_arg20) = _
      after_results_simp).trans ((W10_of_ne m ρ c main_arg20 (by decide)).trans ((show W9 (F := Ideal) m ρ c (Proc.devRef .tc main_arg20) = W8 (F := Ideal) m ρ c (Proc.devRef .tc main_arg20) from by
      show StableHlo.after hostOps5 (W8 m ρ c) (Proc.devRef .tc main_arg20) = _
      after_results_simp).trans ((W8_of_ne m ρ c main_arg20 (by decide)).trans ((W7_of_ne m ρ c main_arg20 (by decide)).trans ((show W6 (F := Ideal) m ρ c (Proc.devRef .tc main_arg20) = W5 (F := Ideal) m ρ c (Proc.devRef .tc main_arg20) from by
      show StableHlo.after hostOps3 (W5 m ρ c) (Proc.devRef .tc main_arg20) = _
      after_results_simp).trans ((W5_of_ne m ρ c main_arg20 (by decide)).trans ((W4_of_ne m ρ c main_arg20 (by decide)).trans ((show W3 (F := Ideal) m ρ c (Proc.devRef .tc main_arg20) = W2 (F := Ideal) m ρ c (Proc.devRef .tc main_arg20) from by
      show StableHlo.after hostOps1 (W2 m ρ c) (Proc.devRef .tc main_arg20) = _
      after_results_simp).trans ((W2_of_ne m ρ c main_arg20 (by decide)).trans (show W1 (F := Ideal) m ρ c (Proc.devRef .tc main_arg20) = (m ((c : Thread nD τ).loc main_arg20)) from by
      show StableHlo.after hostOps0 (W0 m ρ c) (Proc.devRef .tc main_arg20) = _
      after_results_simp)))))))))))

/-- The last layer's output as the head finds it. -/
theorem at11_h : W11 (F := Ideal) m ρ c (Proc.devRef .tc main_v98) = Cert.Net.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (show W11 (F := Ideal) m ρ c (Proc.devRef .tc main_v98) = W10 (F := Ideal) m ρ c (Proc.devRef .tc main_v98) from by
      show StableHlo.after hostOps6 (W10 m ρ c) (Proc.devRef .tc main_v98) = _
      after_results_simp).trans (at10_h m ρ c)

/-- The head's bias re-laid as one row: read back as the vector. -/
theorem at11_row21 : Cert.Spec.rowOf (D := 2) (W11 (F := Ideal) m ρ c (Proc.devRef .tc main_v99)) = (m ((c : Thread nD τ).loc main_arg21)) :=
  by
  show Cert.Spec.rowOf (D := 2) (StableHlo.after hostOps6 (W10 m ρ c) (Proc.devRef .tc main_v99)) = _
  after_results_simp
  rw [at10_arg21]
  exact rowOf_reshape _ _

/-- THE RESULT: the logarithm of the softmax of the network's logits, the shift added back to the logarithm before subtracting. -/
theorem result : W12 (F := Ideal) m ρ c (Proc.devRef .tc main_v100) = Cert.Spec.lsmOuter (M := 100000) (Cert.Net.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) :=
  (W12_arr m ρ c 3).trans ((Cert.KFinal.region6_head (V11 m ρ) c).trans (by
    show Cert.Spec.lsmOuter (M := 100000) (Cert.Spec.addRow (Cert.Spec.lin (M := 100000) (K := 32) (N := 2) (W11 m ρ c (Proc.devRef .tc main_v98)) (W11 m ρ c (Proc.devRef .tc main_arg20))) (Cert.Spec.rowOf (D := 2) (W11 m ρ c (Proc.devRef .tc main_v99)))) = _
    rw [at11_h, at11_arg20, at11_row21]
    unfold Cert.Net.logits
    rfl))

end Cert.KValue

end
-- ==== Proof.RDense.lean ====
/-
  The three dense layers of the reference program, each as one matrix product.

  Each is a general dot product contracting the second axis of its left operand with the first axis of its right
  operand, so its entry `(p, q)` is the sum over `k` of the left operand at `(p, k)` times the right operand at
  `(k, q)`: the matrix product `Cert.Spec.lin`. The left operand of the second and third layer is whatever the
  program computed before it; it is carried as one unopened value.
-/
import proofs.«153305_j4758823764428_1_alg».proof.Proof.RefReadP
import proofs.«153305_j4758823764428_1_alg».proof.Proof.Spec

noncomputable section

open scoped BigOperators

namespace Cert.RDense

open Idealize.ShloMosaic Idealize.ShloMosaic.ValueIdx
open Cert.ReferenceIdeal Cert.ReferenceIdeal.ReadP

/-- The first dense layer: the node features times the first weight matrix. -/
theorem ref_lin1 (x0 : (⟨S100000x8, .f32⟩ : BufTy).Contents (Elt Ideal)) (x2 : (⟨S8x64, .f32⟩ : BufTy).Contents (Elt Ideal)) :
    ReadP.val_main_v4 (F := Ideal) x0 x2 = Cert.Spec.lin x0 x2 := by
  funext i
  rw [val_main_v4_apply]
  show _ = ∑ k : Fin 8, x0 (ix2 (i 0) k) * x2 (ix2 k (i 1))
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  exact congrArg₂ (fun a b : EReal => a * b) (congrArg _ el) (congrArg _ er)

/-- The second dense layer: the first layer's output times the second weight matrix. -/
theorem ref_lin2 (x0 : (⟨S100000x8, .f32⟩ : BufTy).Contents (Elt Ideal)) (x1 : (⟨S2x1600000, .i32⟩ : BufTy).Contents (Elt Ideal)) (x2 : (⟨S8x64, .f32⟩ : BufTy).Contents (Elt Ideal))
    (x3 x4 x5 x6 x7 : (⟨S64, .f32⟩ : BufTy).Contents (Elt Ideal)) (x8 : (⟨S64x64, .f32⟩ : BufTy).Contents (Elt Ideal)) :
    ReadP.val_main_v64 (F := Ideal) x0 x1 x2 x3 x4 x5 x6 x7 x8
      = Cert.Spec.lin (ReadP.val_main_v63 (F := Ideal) x0 x1 x2 x3 x4 x5 x6 x7) x8 := by
  funext i
  rw [val_main_v64_apply]
  generalize val_main_v63 (F := Ideal) x0 x1 x2 x3 x4 x5 x6 x7 = y
  show _ = ∑ k : Fin 64, y (ix2 (i 0) k) * x8 (ix2 k (i 1))
  refine Finset.sum_congr rfl fun k _ => ?_
  have el : lidx_main_v64 i k = ix2 (i 0) k := funext fun a => Fin.ext (by
    match a with
    | ⟨0, _⟩ => rfl
    | ⟨1, _⟩ => rfl)
  have er : ridx_main_v64 i k = ix2 k (i 1) := funext fun a => Fin.ext (by
    match a with
    | ⟨0, _⟩ => rfl
    | ⟨1, _⟩ => rfl)
  exact congrArg₂ (fun a b : EReal => a * b) (congrArg _ el) (congrArg _ er)

/-- The third dense layer: the second layer's output times the third weight matrix. -/
theorem ref_lin3 (x0 : (⟨S100000x8, .f32⟩ : BufTy).Contents (Elt Ideal)) (x1 : (⟨S2x1600000, .i32⟩ : BufTy).Contents (Elt Ideal)) (x2 : (⟨S8x64, .f32⟩ : BufTy).Contents (Elt Ideal))
    (x3 x4 x5 x6 x7 : (⟨S64, .f32⟩ : BufTy).Contents (Elt Ideal)) (x8 : (⟨S64x64, .f32⟩ : BufTy).Contents (Elt Ideal))
    (x9 x10 x11 x12 x13 : (⟨S64, .f32⟩ : BufTy).Contents (Elt Ideal)) (x14 : (⟨S64x32, .f32⟩ : BufTy).Contents (Elt Ideal)) :
    ReadP.val_main_v124 (F := Ideal) x0 x1 x2 x3 x4 x5 x6 x7 x8 x9 x10 x11 x12 x13 x14
      = Cert.Spec.lin (ReadP.val_main_v123 (F := Ideal) x0 x1 x2 x3 x4 x5 x6 x7 x8 x9 x10 x11 x12 x13) x14 := by
  funext i
  rw [val_main_v124_apply]
  generalize val_main_v123 (F := Ideal) x0 x1 x2 x3 x4 x5 x6 x7 x8 x9 x10 x11 x12 x13 = y
  show _ = ∑ k : Fin 64, y (ix2 (i 0) k) * x14 (ix2 k (i 1))
  refine Finset.sum_congr rfl fun k _ => ?_
  have el : lidx_main_v124 i k = ix2 (i 0) k := funext fun a => Fin.ext (by
    match a with
    | ⟨0, _⟩ => rfl
    | ⟨1, _⟩ => rfl)
  have er : ridx_main_v124 i k = ix2 k (i 1) := funext fun a => Fin.ext (by
    match a with
    | ⟨0, _⟩ => rfl
    | ⟨1, _⟩ => rfl)
  exact congrArg₂ (fun a b : EReal => a * b) (congrArg _ el) (congrArg _ er)

end Cert.RDense

end
-- ==== Proof.RBn.lean ====
/-
  The reference program's three bias, batch-normalisation and rectification stretches, each read index by index as the
  normalisation of the aggregate that enters it: the bias, mean, scale and shift vectors are spread over the rows,
  the variance plus epsilon goes through the reciprocal square root before it is spread, and the last operation
  keeps the larger of the result and zero.
-/
import proofs.«153305_j4758823764428_1_alg».proof.Proof.RefReadP
import proofs.«153305_j4758823764428_1_alg».proof.Proof.Spec

noncomputable section

namespace Cert.RBn

open Cert.ReferenceIdeal Cert.ReferenceIdeal.ReadP Idealize.ShloMosaic Idealize.ShloMosaic.ValueIdx

/-- Layer 1: the bias is the fourth argument, then scale, shift, running mean and running variance. -/
theorem ref_bn1 (x0 : (⟨S100000x8, .f32⟩ : BufTy).Contents (Elt Ideal)) (x1 : (⟨S2x1600000, .i32⟩ : BufTy).Contents (Elt Ideal)) (x2 : (⟨S8x64, .f32⟩ : BufTy).Contents (Elt Ideal))
    (x3 x4 x5 x6 x7 : (⟨S64, .f32⟩ : BufTy).Contents (Elt Ideal)) :
    ReadP.val_main_v63 (F := Ideal) x0 x1 x2 x3 x4 x5 x6 x7
      = Cert.Spec.bnrelu (ReadP.val_main_v44 (F := Ideal) x0 x1 x2) x3 x4 x5 x6 x7 := by
  funext i
  rw [val_main_v63_apply, val_main_v62_apply, val_main_v59_apply, val_main_v56_apply, val_main_v50_apply,
    val_main_v47_apply, val_main_v46_apply, val_main_v45_apply, val_main_v49_apply,
    val_main_v48_apply, val_main_v55_apply, val_main_v54_apply, val_main_v53_apply,
    val_main_v52_apply, val_main_v51_apply, val_main_cst_8_apply, val_main_v58_apply,
    val_main_v57_apply, val_main_v61_apply, val_main_v60_apply, val_main_call0_v0_apply,
    val_main_call0_cst_apply]
  generalize ReadP.val_main_v44 (F := Ideal) x0 x1 x2 = A
  simp only [Ideal.maximumf_def, Ideal.addf_def, Ideal.subf_def, Ideal.mulf_def, Ideal.hostUnary_rsqrt_def,
    Ideal.ofBits_def, Ideal.ofBits_zero_f32]
  have e0 : idx_main_v45 (idx_main_v46 i) = ix1 (i 1) := funext fun a => match a with | ⟨0, _⟩ => rfl
  have e1 : idx_main_v48 (idx_main_v49 i) = ix1 (i 1) := funext fun a => match a with | ⟨0, _⟩ => rfl
  have e2 : idx_main_v54 (idx_main_v55 i) = ix1 (i 1) := funext fun a => match a with | ⟨0, _⟩ => rfl
  have e3 : idx_main_v57 (idx_main_v58 i) = ix1 (i 1) := funext fun a => match a with | ⟨0, _⟩ => rfl
  have e4 : idx_main_v60 (idx_main_v61 i) = ix1 (i 1) := funext fun a => match a with | ⟨0, _⟩ => rfl
  rw [e0, e1, e2, e3, e4]
  rfl

/-- Layer 2, on the aggregate of the second convolution. -/
theorem ref_bn2 (x0 : (⟨S100000x8, .f32⟩ : BufTy).Contents (Elt Ideal)) (x1 : (⟨S2x1600000, .i32⟩ : BufTy).Contents (Elt Ideal)) (x2 : (⟨S8x64, .f32⟩ : BufTy).Contents (Elt Ideal))
    (x3 x4 x5 x6 x7 : (⟨S64, .f32⟩ : BufTy).Contents (Elt Ideal)) (x8 : (⟨S64x64, .f32⟩ : BufTy).Contents (Elt Ideal))
    (x9 x10 x11 x12 x13 : (⟨S64, .f32⟩ : BufTy).Contents (Elt Ideal)) :
    ReadP.val_main_v123 (F := Ideal) x0 x1 x2 x3 x4 x5 x6 x7 x8 x9 x10 x11 x12 x13
      = Cert.Spec.bnrelu (ReadP.val_main_v104 (F := Ideal) x0 x1 x2 x3 x4 x5 x6 x7 x8) x9 x10 x11 x12 x13 := by
  funext i
  rw [val_main_v123_apply, val_main_v122_apply, val_main_v119_apply, val_main_v116_apply,
    val_main_v110_apply, val_main_v107_apply, val_main_v106_apply, val_main_v105_apply,
    val_main_v109_apply, val_main_v108_apply, val_main_v115_apply, val_main_v114_apply,
    val_main_v113_apply, val_main_v112_apply, val_main_v111_apply, val_main_cst_19_apply,
    val_main_v118_apply, val_main_v117_apply, val_main_v121_apply, val_main_v120_apply,
    val_main_call1_v0_apply, val_main_call1_cst_apply]
  generalize ReadP.val_main_v104 (F := Ideal) x0 x1 x2 x3 x4 x5 x6 x7 x8 = A
  simp only [Ideal.maximumf_def, Ideal.addf_def, Ideal.subf_def, Ideal.mulf_def, Ideal.hostUnary_rsqrt_def,
    Ideal.ofBits_def, Ideal.ofBits_zero_f32]
  have e0 : idx_main_v105 (idx_main_v106 i) = ix1 (i 1) := funext fun a => match a with | ⟨0, _⟩ => rfl
  have e1 : idx_main_v108 (idx_main_v109 i) = ix1 (i 1) := funext fun a => match a with | ⟨0, _⟩ => rfl
  have e2 : idx_main_v114 (idx_main_v115 i) = ix1 (i 1) := funext fun a => match a with | ⟨0, _⟩ => rfl
  have e3 : idx_main_v117 (idx_main_v118 i) = ix1 (i 1) := funext fun a => match a with | ⟨0, _⟩ => rfl
  have e4 : idx_main_v120 (idx_main_v121 i) = ix1 (i 1) := funext fun a => match a with | ⟨0, _⟩ => rfl
  rw [e0, e1, e2, e3, e4]
  rfl

/-- Layer 3, of width 32, on the aggregate of the third convolution. -/
theorem ref_bn3 (x0 : (⟨S100000x8, .f32⟩ : BufTy).Contents (Elt Ideal)) (x1 : (⟨S2x1600000, .i32⟩ : BufTy).Contents (Elt Ideal)) (x2 : (⟨S8x64, .f32⟩ : BufTy).Contents (Elt Ideal))
    (x3 x4 x5 x6 x7 : (⟨S64, .f32⟩ : BufTy).Contents (Elt Ideal)) (x8 : (⟨S64x64, .f32⟩ : BufTy).Contents (Elt Ideal))
    (x9 x10 x11 x12 x13 : (⟨S64, .f32⟩ : BufTy).Contents (Elt Ideal)) (x14 : (⟨S64x32, .f32⟩ : BufTy).Contents (Elt Ideal))
    (x15 x16 x17 x18 x19 : (⟨S32, .f32⟩ : BufTy).Contents (Elt Ideal)) :
    ReadP.val_main_v183 (F := Ideal) x0 x1 x2 x3 x4 x5 x6 x7 x8 x9 x10 x11 x12 x13 x14 x15 x16 x17 x18 x19
      = Cert.Spec.bnrelu (ReadP.val_main_v164 (F := Ideal) x0 x1 x2 x3 x4 x5 x6 x7 x8 x9 x10 x11 x12 x13 x14) x15 x16 x17 x18 x19 := by
  funext i
  rw [val_main_v183_apply, val_main_v182_apply, val_main_v179_apply, val_main_v176_apply,
    val_main_v170_apply, val_main_v167_apply, val_main_v166_apply, val_main_v165_apply,
    val_main_v169_apply, val_main_v168_apply, val_main_v175_apply, val_main_v174_apply,
    val_main_v173_apply, val_main_v172_apply, val_main_v171_apply, val_main_cst_30_apply,
    val_main_v178_apply, val_main_v177_apply, val_main_v181_apply, val_main_v180_apply,
    val_main_call2_v0_apply, val_main_call2_cst_apply]
  generalize ReadP.val_main_v164 (F := Ideal) x0 x1 x2 x3 x4 x5 x6 x7 x8 x9 x10 x11 x12 x13 x14 = A
  simp only [Ideal.maximumf_def, Ideal.addf_def, Ideal.subf_def, Ideal.mulf_def, Ideal.hostUnary_rsqrt_def,
    Ideal.ofBits_def, Ideal.ofBits_zero_f32]
  have e0 : idx_main_v165 (idx_main_v166 i) = ix1 (i 1) := funext fun a => match a with | ⟨0, _⟩ => rfl
  have e1 : idx_main_v168 (idx_main_v169 i) = ix1 (i 1) := funext fun a => match a with | ⟨0, _⟩ => rfl
  have e2 : idx_main_v174 (idx_main_v175 i) = ix1 (i 1) := funext fun a => match a with | ⟨0, _⟩ => rfl
  have e3 : idx_main_v177 (idx_main_v178 i) = ix1 (i 1) := funext fun a => match a with | ⟨0, _⟩ => rfl
  have e4 : idx_main_v180 (idx_main_v181 i) = ix1 (i 1) := funext fun a => match a with | ⟨0, _⟩ => rfl
  rw [e0, e1, e2, e3, e4]
  rfl

end Cert.RBn

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«153305_j4758823764428_1_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.RFinal.lean ====
/-
  The two-class head of the network as the reference program computes it.

  The logits are the hidden activations times the `32 × 2` weights plus the bias vector under every row. The outlined
  log-softmax then takes, row by row, the larger logit `m` (a fold of `max` from `−∞` over the two lanes, and once more
  `max` with `−∞`, both the identity), the shifted logits `l − m`, the sum `s` of their two exponentials (added to the
  initial value `0`), and returns `(l − m) − log s`. The keep-dims columns `[100000, 1]` are read back at lane `0`.
-/
import proofs.«153305_j4758823764428_1_alg».proof.Proof.RefReadP
import proofs.«153305_j4758823764428_1_alg».proof.Proof.Spec
import proofs.«153305_j4758823764428_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.RFinal

open Cert.ReferenceIdeal Cert.ReferenceIdeal.Gen Idealize.ShloMosaic Idealize.ShloMosaic.ValueIdx Idealize.ShloMosaic.TcCoe
open Idealize.SL.Sem Idealize.ShloMosaic.StableHlo

/-! ## Columns: `[M] → [M, 1] → [M, N]` by `broadcast_in_dim` -/

section Columns
variable {α : Type}

/-- An `[M]` array broadcast along axis 0 into the column `[M, 1]` reads, at `(p, u)`, the operand at `p`. -/
theorem bcast_col_apply {M : ℕ} (x : (⟨1, ![M]⟩ : Shape).Idx → α)
    (h : (⟨1, ![M]⟩ : Shape).BroadcastsInDim ⟨2, ![M, 1]⟩ (![0] : Fin 1 → Fin 2)) (p : Fin M) (u : Fin 1) :
    broadcastInDim ⟨2, ![M, 1]⟩ ![0] h x (ix2 p u) = x (ix1 p) := by
  refine broadcastInDim_apply _ h x (ix2 p u) (ix1 p) fun a => ?_
  match a with
  | ⟨0, _⟩ =>
    show p.val = if M = 1 then 0 else p.val
    split
    · have := p.isLt; omega
    · rfl

/-- A column `[M, 1]` broadcast to `[M, N]` reads, at `(p, q)`, the column at row `p`. -/
theorem bcast_row_apply {M N : ℕ} (x : (⟨2, ![M, 1]⟩ : Shape).Idx → α)
    (h : (⟨2, ![M, 1]⟩ : Shape).BroadcastsInDim ⟨2, ![M, N]⟩ (![0, 1] : Fin 2 → Fin 2)) (p : Fin M) (q : Fin N) :
    broadcastInDim ⟨2, ![M, N]⟩ ![0, 1] h x (ix2 p q) = x (ix2 p (0 : Fin 1)) := by
  refine broadcastInDim_apply _ h x (ix2 p q) (ix2 p (0 : Fin 1)) fun a => ?_
  match a with
  | ⟨0, _⟩ =>
    show p.val = if M = 1 then 0 else p.val
    split
    · have := p.isLt; omega
    · rfl
  | ⟨1, _⟩ => rfl

end Columns

/-! ## The two lane reductions of a `[M, 2]` array -/

section Lanes
variable {M : ℕ}

/-- Row `p` with lane `k` put back on the reduced axis is the index `(p, k)`. -/
theorem lift_lane (h : (⟨2, ![M, 2]⟩ : Shape).Reduces [1] ⟨1, ![M]⟩) (p : Fin M) (k : Fin 2) :
    h.lift (ix1 p) k = ix2 p k := by
  funext c
  apply Fin.ext
  match c with
  | ⟨0, _⟩ => rfl
  | ⟨1, _⟩ => rfl

/-- The fold of `max` from `−∞` over two lanes is the larger of the two values. -/
theorem fold_max_two (f : Fin 2 → EReal) : (Finset.univ : Finset (Fin 2)).fold max (⊥ : EReal) f = max (f 0) (f 1) := by
  rw [show (Finset.univ : Finset (Fin 2)) = insert (0 : Fin 2) {(1 : Fin 2)} from by decide,
    Finset.fold_insert (by decide), Finset.fold_singleton, max_bot_right]

/-- A `reduce` with body `max` over the lanes, from an initial value `−∞`, is at row `p` the larger of the row's two
    entries. -/
theorem hostLaneMax_apply (x : FVec Ideal ⟨2, ![M, 2]⟩ .f32) (init : (⟨0, ![]⟩ : Shape).Idx → Ideal .f32)
    (h' : (⟨2, ![M, 2]⟩ : Shape).ReducesTo [1] ⟨1, ![M]⟩) (h : (⟨2, ![M, 2]⟩ : Shape).Reduces [1] ⟨1, ![M]⟩)
    (hu : 0 < (⟨0, ![]⟩ : Shape).numel) (hinit : init (Shape.Idx.first hu) = (⊥ : EReal)) (p : Fin M) :
    Host.reduce (FloatOps.maximumf (F := Ideal) (φ := .f32)) x init h' hu (ix1 p)
      = max (x (ix2 p (0 : Fin 2))) (x (ix2 p (1 : Fin 2))) := by
  refine (Host.reduce_eq_fold_single (FloatOps.maximumf (F := Ideal) (φ := .f32)) x init h' h hu (ix1 p)).trans ?_
  rw [hinit]
  refine (fold_max_two (x ∘ h.lift (ix1 p))).trans ?_
  exact congrArg₂ max (congrArg x (lift_lane h p 0)) (congrArg x (lift_lane h p 1))

/-- A float sum over the lanes, from an initial value `0`, is at row `p` the sum of the row's two entries. -/
theorem hostLaneSum_apply (x : FVec Ideal ⟨2, ![M, 2]⟩ .f32) (init : (⟨0, ![]⟩ : Shape).Idx → Ideal .f32)
    (h' : (⟨2, ![M, 2]⟩ : Shape).ReducesTo [1] ⟨1, ![M]⟩) (h : (⟨2, ![M, 2]⟩ : Shape).Reduces [1] ⟨1, ![M]⟩)
    (hu : 0 < (⟨0, ![]⟩ : Shape).numel) (hinit : init (Shape.Idx.first hu) = (0 : EReal)) (p : Fin M) :
    Host.reduceAdd x init h' hu (ix1 p) = x (ix2 p (0 : Fin 2)) + x (ix2 p (1 : Fin 2)) := by
  show Ideal.hostReduceAdd h' x (init (Shape.Idx.first hu)) (ix1 p) = _
  rw [hinit]
  refine (Ideal.hostReduceAdd_single h' h x 0 (ix1 p)).trans ?_
  rw [zero_add]
  refine (Fin.sum_univ_two fun k : Fin 2 => x (h.lift (ix1 p) k)).trans ?_
  exact congrArg₂ (· + ·) (congrArg x (lift_lane h p 0)) (congrArg x (lift_lane h p 1))

end Lanes

/-! ## The outlined log-softmax as one function of the logits -/

section LogSoftmax

/-- The row maxima: the lane maximum from `−∞`, then once more the maximum with `−∞`. -/
def hostRowMax (L : FVec Ideal S100000x2 .f32) : FVec Ideal S100000 .f32 :=
  maximumf (broadcastInDim S100000 ![] bcast_S_S100000 (constant (F := Ideal) S_ .f32 0xFF800000#32))
    (Host.reduce FloatOps.maximumf L (constant (F := Ideal) S_ .f32 0xFF800000#32) reducesTo_S100000x2_S100000_d1 h_S_)

/-- The logits shifted by their row's maximum. -/
def hostShift (L : FVec Ideal S100000x2 .f32) : FVec Ideal S100000x2 .f32 :=
  subf L (broadcastInDim S100000x2 ![0, 1] bcast_S100000x1_S100000x2_0_1
    (broadcastInDim S100000x1 ![0] bcast_S100000_S100000x1_0 (hostRowMax L)))

/-- The row sums of the exponentials of the shifted logits. -/
def hostRowSum (L : FVec Ideal S100000x2 .f32) : FVec Ideal S100000 .f32 :=
  Host.reduceAdd (Host.exp (hostShift L)) (constant (F := Ideal) S_ .f32 0x00000000#32) reducesTo_S100000x2_S100000_d1 h_S_

/-- The shifted logits minus the logarithm of their row's sum. -/
def hostLsm (L : FVec Ideal S100000x2 .f32) : FVec Ideal S100000x2 .f32 :=
  subf (hostShift L) (broadcastInDim S100000x2 ![0, 1] bcast_S100000x1_S100000x2_0_1
    (Host.log (broadcastInDim S100000x1 ![0] bcast_S100000_S100000x1_0 (hostRowSum L))))

theorem hostRowMax_apply (L : FVec Ideal S100000x2 .f32) (p : Fin 100000) :
    hostRowMax L (ix1 p) = Cert.Spec.rowMax L p := by
  have hbot : Ideal.ofBits .f32 0xFF800000#32 = (⊥ : EReal) := by simp [Ideal.ofBits, Ideal.ieee]
  show max (Ideal.ofBits .f32 0xFF800000#32)
    (Host.reduce (FloatOps.maximumf (F := Ideal) (φ := .f32)) L (constant (F := Ideal) S_ .f32 0xFF800000#32)
      reducesTo_S100000x2_S100000_d1 h_S_ (ix1 p)) = _
  rw [hostLaneMax_apply L _ reducesTo_S100000x2_S100000_d1 (by decide) h_S_ hbot p, hbot, max_bot_left]
  rfl

theorem hostShift_apply (L : FVec Ideal S100000x2 .f32) (p : Fin 100000) (q : Fin 2) :
    hostShift L (ix2 p q) = L (ix2 p q) - Cert.Spec.rowMax L p := by
  show L (ix2 p q) - broadcastInDim S100000x2 ![0, 1] bcast_S100000x1_S100000x2_0_1
    (broadcastInDim S100000x1 ![0] bcast_S100000_S100000x1_0 (hostRowMax L)) (ix2 p q) = _
  rw [bcast_row_apply _ bcast_S100000x1_S100000x2_0_1 p q, bcast_col_apply _ bcast_S100000_S100000x1_0 p 0,
    hostRowMax_apply]

theorem hostRowSum_apply (L : FVec Ideal S100000x2 .f32) (p : Fin 100000) :
    hostRowSum L (ix1 p) = Cert.Spec.rowSumExp L p := by
  have hzero : Ideal.ofBits .f32 0x00000000#32 = (0 : EReal) := Ideal.ofBits_zero_f32
  refine (hostLaneSum_apply (Host.exp (hostShift L)) _ reducesTo_S100000x2_S100000_d1 (by decide) h_S_ hzero p).trans ?_
  show Ideal.exp (hostShift L (ix2 p 0)) + Ideal.exp (hostShift L (ix2 p 1)) = _
  rw [hostShift_apply, hostShift_apply]
  rfl

/-- The host's logarithm of an array, at an entry. -/
theorem hostLog_apply {s : Shape} (x : FVec Ideal s .f32) (i : s.Idx) : Host.log x i = Ideal.log (x i) := rfl

/-- The outlined log-softmax is the specification's, in the spelling `(l − m) − log s`. -/
theorem hostLsm_eq (L : FVec Ideal S100000x2 .f32) : hostLsm L = Cert.Spec.lsmInner L := by
  funext i
  obtain ⟨p, q, rfl⟩ : ∃ (p : Fin 100000) (q : Fin 2), i = ix2 p q := ⟨i 0, i 1, eq_ix2 i⟩
  unfold hostLsm
  rw [subf_apply, bcast_row_apply _ bcast_S100000x1_S100000x2_0_1 p q, hostLog_apply,
    bcast_col_apply _ bcast_S100000_S100000x1_0 p 0, hostRowSum_apply, hostShift_apply]
  rfl

end LogSoftmax

/-! ## The reference's head, stage by stage -/

section Head

open Cert.ReferenceIdeal.ReadP

variable (x0 : (⟨S100000x8, .f32⟩ : BufTy).Contents (Elt Ideal)) (x1 : (⟨S2x1600000, .i32⟩ : BufTy).Contents (Elt Ideal))
  (x2 : (⟨S8x64, .f32⟩ : BufTy).Contents (Elt Ideal)) (x3 x4 x5 x6 x7 : (⟨S64, .f32⟩ : BufTy).Contents (Elt Ideal))
  (x8 : (⟨S64x64, .f32⟩ : BufTy).Contents (Elt Ideal)) (x9 x10 x11 x12 x13 : (⟨S64, .f32⟩ : BufTy).Contents (Elt Ideal))
  (x14 : (⟨S64x32, .f32⟩ : BufTy).Contents (Elt Ideal)) (x15 x16 x17 x18 x19 : (⟨S32, .f32⟩ : BufTy).Contents (Elt Ideal))
  (x20 : (⟨S32x2, .f32⟩ : BufTy).Contents (Elt Ideal)) (x21 : (⟨S2, .f32⟩ : BufTy).Contents (Elt Ideal))

/-- The reference's logits: the hidden activations times the weights, plus the bias vector under every row. -/
theorem ref_logits :
    val_main_v187 (F := Ideal) x0 x1 x2 x3 x4 x5 x6 x7 x8 x9 x10 x11 x12 x13 x14 x15 x16 x17 x18 x19 x20 x21
      = Cert.Spec.addRow (Cert.Spec.lin (val_main_v183 (F := Ideal) x0 x1 x2 x3 x4 x5 x6 x7 x8 x9 x10 x11 x12 x13 x14 x15 x16 x17 x18 x19) x20) x21 := by
  funext i
  obtain ⟨p, q, rfl⟩ : ∃ (p : Fin 100000) (q : Fin 2), i = ix2 p q := ⟨i 0, i 1, eq_ix2 i⟩
  rw [val_main_v187_apply, val_main_v184_apply, val_main_v186_apply, val_main_v185_apply]
  generalize val_main_v183 (F := Ideal) x0 x1 x2 x3 x4 x5 x6 x7 x8 x9 x10 x11 x12 x13 x14 x15 x16 x17 x18 x19 = y
  have hl : ∀ k : Fin 32, lidx_main_v184 (ix2 p q) k = ix2 p k := fun k => funext fun a => by
    match a with
    | ⟨0, _⟩ => rfl
    | ⟨1, _⟩ => rfl
  have hr : ∀ k : Fin 32, ridx_main_v184 (ix2 p q) k = ix2 k q := fun k => funext fun a => by
    match a with
    | ⟨0, _⟩ => rfl
    | ⟨1, _⟩ => rfl
  have hb : idx_main_v185 (idx_main_v186 (ix2 p q)) = ix1 q := funext fun a => by
    match a with
    | ⟨0, _⟩ => rfl
  show (∑ k : Fin 32, y (lidx_main_v184 (ix2 p q) k) * x20 (ridx_main_v184 (ix2 p q) k))
      + x21 (idx_main_v185 (idx_main_v186 (ix2 p q)))
    = (∑ k : Fin 32, y (ix2 p k) * x20 (ix2 k q)) + x21 (ix1 q)
  simp only [hl, hr, hb]

/-- The reference's last stage is the outlined log-softmax of its logits: the same operations, named. -/
theorem v188_eq_hostLsm :
    val_main_v188 (F := Ideal) x0 x1 x2 x3 x4 x5 x6 x7 x8 x9 x10 x11 x12 x13 x14 x15 x16 x17 x18 x19 x20 x21
      = hostLsm (val_main_v187 (F := Ideal) x0 x1 x2 x3 x4 x5 x6 x7 x8 x9 x10 x11 x12 x13 x14 x15 x16 x17 x18 x19 x20 x21) := rfl

/-- The reference's result is the log-softmax, in the spelling `(l − m) − log s`, of its logits. -/
theorem ref_lsm :
    val_main_v188 (F := Ideal) x0 x1 x2 x3 x4 x5 x6 x7 x8 x9 x10 x11 x12 x13 x14 x15 x16 x17 x18 x19 x20 x21
      = Cert.Spec.lsmInner (val_main_v187 (F := Ideal) x0 x1 x2 x3 x4 x5 x6 x7 x8 x9 x10 x11 x12 x13 x14 x15 x16 x17 x18 x19 x20 x21) :=
  (v188_eq_hostLsm x0 x1 x2 x3 x4 x5 x6 x7 x8 x9 x10 x11 x12 x13 x14 x15 x16 x17 x18 x19 x20 x21).trans (hostLsm_eq _)

end Head

end Cert.RFinal

end
-- ==== Proof.RValue.lean ====
/-
  What the reference program computes, as the same function of the arguments: stage by stage its dense products are
  the matrix product, its aggregations are the shared aggregation (by unfolding: they are the same host operations),
  its normalisation chains are bias + batch normalisation + rectification, and its outlined log-softmax is the
  spelling `(l − m) − log s` of the logits.
-/
import proofs.«153305_j4758823764428_1_alg».proof.Proof.RefReadP
import proofs.«153305_j4758823764428_1_alg».proof.Proof.RDense
import proofs.«153305_j4758823764428_1_alg».proof.Proof.RBn
import proofs.«153305_j4758823764428_1_alg».proof.Proof.RFinal
import proofs.«153305_j4758823764428_1_alg».proof.Proof.Agg
import proofs.«153305_j4758823764428_1_alg».proof.Proof.NetDef

noncomputable section

namespace Cert.RValue

open Cert.ReferenceIdeal Cert.ReferenceIdeal.ReadP Idealize.ShloMosaic

variable (x0 : (⟨S100000x8, .f32⟩ : BufTy).Contents (Elt Ideal)) (x1 : (⟨S2x1600000, .i32⟩ : BufTy).Contents (Elt Ideal))
  (x2 : (⟨S8x64, .f32⟩ : BufTy).Contents (Elt Ideal)) (x3 x4 x5 x6 x7 : (⟨S64, .f32⟩ : BufTy).Contents (Elt Ideal))
  (x8 : (⟨S64x64, .f32⟩ : BufTy).Contents (Elt Ideal)) (x9 x10 x11 x12 x13 : (⟨S64, .f32⟩ : BufTy).Contents (Elt Ideal))
  (x14 : (⟨S64x32, .f32⟩ : BufTy).Contents (Elt Ideal)) (x15 x16 x17 x18 x19 : (⟨S32, .f32⟩ : BufTy).Contents (Elt Ideal))
  (x20 : (⟨S32x2, .f32⟩ : BufTy).Contents (Elt Ideal)) (x21 : (⟨S2, .f32⟩ : BufTy).Contents (Elt Ideal))

/-- The reference's first rectified layer. -/
theorem ref_layer1 : val_main_v63 (F := Ideal) x0 x1 x2 x3 x4 x5 x6 x7 = Cert.Net.layer1 x0 x1 x2 x3 x4 x5 x6 x7 := by
  rw [Cert.RBn.ref_bn1, Cert.Agg.ref_agg1, Cert.RDense.ref_lin1]
  rfl

/-- The second. -/
theorem ref_layer2 : val_main_v123 (F := Ideal) x0 x1 x2 x3 x4 x5 x6 x7 x8 x9 x10 x11 x12 x13 = Cert.Net.layer2 x0 x1 x2 x3 x4 x5 x6 x7 x8 x9 x10 x11 x12 x13 := by
  rw [Cert.RBn.ref_bn2, Cert.Agg.ref_agg2, Cert.RDense.ref_lin2, ref_layer1]
  rfl

/-- The third. -/
theorem ref_layer3 : val_main_v183 (F := Ideal) x0 x1 x2 x3 x4 x5 x6 x7 x8 x9 x10 x11 x12 x13 x14 x15 x16 x17 x18 x19 = Cert.Net.layer3 x0 x1 x2 x3 x4 x5 x6 x7 x8 x9 x10 x11 x12 x13 x14 x15 x16 x17 x18 x19 := by
  rw [Cert.RBn.ref_bn3, Cert.Agg.ref_agg3, Cert.RDense.ref_lin3, ref_layer2]
  rfl

/-- The reference's logits are the network's. -/
theorem ref_logits : val_main_v187 (F := Ideal) x0 x1 x2 x3 x4 x5 x6 x7 x8 x9 x10 x11 x12 x13 x14 x15 x16 x17 x18 x19 x20 x21 = Cert.Net.logits x0 x1 x2 x3 x4 x5 x6 x7 x8 x9 x10 x11 x12 x13 x14 x15 x16 x17 x18 x19 x20 x21 := by
  rw [Cert.RFinal.ref_logits, ref_layer3]
  rfl

/-- THE REFERENCE'S RESULT: the logarithm of the softmax of the network's logits, in the spelling `(l − m) − log s`. -/
theorem ref_value : val_main_v188 (F := Ideal) x0 x1 x2 x3 x4 x5 x6 x7 x8 x9 x10 x11 x12 x13 x14 x15 x16 x17 x18 x19 x20 x21 = Cert.Spec.lsmInner (M := 100000) (Cert.Net.logits x0 x1 x2 x3 x4 x5 x6 x7 x8 x9 x10 x11 x12 x13 x14 x15 x16 x17 x18 x19 x20 x21) := by
  rw [Cert.RFinal.ref_lsm, ref_logits]

end Cert.RValue

end
-- ==== Proof.LogSoftmax.lean ====
/-
  The one algebraic law of the two-class head: on real logits the two spellings of log-softmax agree.

  With `m` the larger of the two real logits, both shifted logits `l − m` are real, their exponentials are
  positive reals, so the sum `s` of the two exponentials is a positive real and `log s` is a real number.
  Everything is then an identity of real numbers: `l − (m + log s) = (l − m) − log s`.
-/
import proofs.«153305_j4758823764428_1_alg».proof.Proof.Spec

noncomputable section

namespace Cert.LogSoftmax

open Idealize.ShloMosaic Idealize.ShloMosaic.ValueIdx

/-- The larger of two reals, read in the extended reals, is the larger of their images. -/
theorem coe_max (a b : ℝ) : max (a : EReal) (b : EReal) = ((max a b : ℝ) : EReal) :=
  (EReal.coe_strictMono.monotone.map_max).symm

/-- The exponential of the difference of two reals is the real exponential. -/
theorem exp_coe_sub (a m : ℝ) : Ideal.exp ((a : EReal) - (m : EReal)) = ((Real.exp (a - m) : ℝ) : EReal) := by
  rw [← EReal.coe_sub, Ideal.exp_coe]

/-- The logarithm of a sum of two real exponentials is the real logarithm: the sum is positive. -/
theorem log_exp_add_exp (x y : ℝ) :
    Ideal.log (((Real.exp x : ℝ) : EReal) + ((Real.exp y : ℝ) : EReal))
      = ((Real.log (Real.exp x + Real.exp y) : ℝ) : EReal) := by
  rw [← EReal.coe_add, Ideal.log_coe, if_neg]
  exact not_le.mpr (add_pos (Real.exp_pos x) (Real.exp_pos y))

/-- The law on one row: for real `r`, `a`, `b` and `m = max a b`. -/
theorem row_law (r a b : ℝ) :
    (r : EReal) - (max (a : EReal) (b : EReal)
        + Ideal.log (Ideal.exp ((a : EReal) - max (a : EReal) (b : EReal))
            + Ideal.exp ((b : EReal) - max (a : EReal) (b : EReal))))
      = ((r : EReal) - max (a : EReal) (b : EReal))
        - Ideal.log (Ideal.exp ((a : EReal) - max (a : EReal) (b : EReal))
            + Ideal.exp ((b : EReal) - max (a : EReal) (b : EReal))) := by
  rw [coe_max, exp_coe_sub, exp_coe_sub, log_exp_add_exp]
  rw [← EReal.coe_add, ← EReal.coe_sub, ← EReal.coe_sub, ← EReal.coe_sub]
  congr 1
  ring

end Cert.LogSoftmax

namespace Cert.Spec

open Idealize.ShloMosaic Idealize.ShloMosaic.ValueIdx

/-- On real logits, `l − (m + log s) = (l − m) − log s`. -/
theorem lsm_eq {M : ℕ} (L : (⟨2, ![M, 2]⟩ : Shape).Idx → EReal) (hL : Cert.Spec.AllReal L) :
    Cert.Spec.lsmOuter L = Cert.Spec.lsmInner L := by
  funext j
  obtain ⟨r, hr⟩ := hL j
  obtain ⟨a, ha⟩ := hL (ix2 (j 0) (0 : Fin 2))
  obtain ⟨b, hb⟩ := hL (ix2 (j 0) (1 : Fin 2))
  simp only [lsmOuter, lsmInner, rowSumExp, rowMax, hr, ha, hb]
  exact Cert.LogSoftmax.row_law r a b

end Cert.Spec

end
-- ==== Proof.Finite.lean ====
/-
  What the precondition says about the inputs. The precondition is a conjunction of one-bit scalars: for each of the
  twenty-one float arrays, "every entry has absolute value below +∞", and for three of the vectors (the running
  variances) "every entry is at least 0". On the extended reals an entry whose absolute value max x (−x) is below ⊤ is
  neither ⊤ nor ⊥, hence a real number; an entry that is a real number and at least 0 is a non-negative real number.
-/
import proofs.«153305_j4758823764428_1_alg».proof.Pre_finite_inputs
import proofs.«153305_j4758823764428_1_alg».proof.Proof.Spec
import Idealize.ShloMosaic.Lib.ReduceAll
import Idealize.ShloMosaic.PureOps.Ideal.Laws
import Idealize.ShloMosaic.Lib.ValueIdx

noncomputable section

namespace Cert.Finite

open Idealize.ShloMosaic Idealize.ShloMosaic.ValueIdx
open Cert.Pre_finite_inputs

/-- The scalar shape has exactly one index. -/
instance : Subsingleton S_.Idx := ⟨fun a b => funext fun d => d.elim0⟩

/-- The word of +∞ denotes the top of the extended reals. -/
theorem inf_word : Ideal.ofBits .f32 0x7F800000#32 = (⊤ : EReal) := by simp [Ideal.ofBits, Ideal.ieee]

/-- A one-bit word made from a truth value is 1 exactly when the value is true. -/
theorem ofBool_eq_one (b : Bool) : BitVec.ofBool b = 1#1 ↔ b = true := by cases b <;> decide

/-- An extended real whose absolute value max x (−x) is strictly below +∞ is a real number: x = ⊤ makes the maximum ⊤,
    and x = ⊥ makes −x = ⊤. -/
theorem real_of_abs_lt (x : EReal)
    (h : Ideal.cmp .olt (max x (-x)) (Ideal.ofBits .f32 0x7F800000#32) = 1#1) : ∃ r : ℝ, x = (r : EReal) := by
  rw [inf_word] at h
  unfold Ideal.cmp at h
  rw [ofBool_eq_one, decide_eq_true_eq, max_lt_iff] at h
  have hlt := h
  induction x using EReal.rec with
  | bot => exact absurd hlt.2 (by simp)
  | coe r => exact ⟨r, rfl⟩
  | top => exact absurd hlt.1 (by simp)

/-- An extended real that compares at least the zero word is at least 0. -/
theorem nonneg_of_ge (x : EReal) (h : Ideal.cmp .oge x (Ideal.ofBits .f32 0x00000000#32) = 1#1) : 0 ≤ x := by
  rw [Ideal.ofBits_zero_f32] at h
  unfold Ideal.cmp at h
  rw [ofBool_eq_one, decide_eq_true_eq] at h
  exact h

/-- A conjunction of one-bit scalars is true exactly when both are. -/
theorem and_scalar (x y : IVec S_ 1) (j : S_.Idx) : andi x y j = 1#1 ↔ x j = 1#1 ∧ y j = 1#1 :=
  IntOp.andi_eq_one

/-- "All entries have absolute value below +∞", true, makes every entry a real number; for an array of any shape. -/
theorem allReal_of_all {s : Shape} {axes : List (Fin s.rank)} {u : Shape} (a : FVec Ideal s .f32)
    (hb : S_.BroadcastsInDim s (![] : Fin 0 → Fin s.rank)) (hr : s.ReducesTo axes S_) (hu : 0 < u.numel)
    (init : IVec u 1) (j : S_.Idx)
    (e : Host.reduce IntOp.andi
          (cmpf .olt (Host.absf a) (broadcastInDim s ![] hb (constant (F := Ideal) S_ .f32 0x7F800000#32))) init hr hu j
        = 1#1) :
    Cert.Spec.AllReal a := fun i =>
  real_of_abs_lt (a i) (Host.reduce_andi_all _ init hr hu j e i)

/-- "All entries are at least 0", true, makes every entry at least 0. -/
theorem nonneg_of_all {s : Shape} {axes : List (Fin s.rank)} {u : Shape} (a : FVec Ideal s .f32)
    (hb : S_.BroadcastsInDim s (![] : Fin 0 → Fin s.rank)) (hr : s.ReducesTo axes S_) (hu : 0 < u.numel)
    (init : IVec u 1) (j : S_.Idx)
    (e : Host.reduce IntOp.andi
          (cmpf .oge a (broadcastInDim s ![] hb (constant (F := Ideal) S_ .f32 0x00000000#32))) init hr hu j
        = 1#1) (i : s.Idx) :
    0 ≤ a i :=
  nonneg_of_ge (a i) (Host.reduce_andi_all _ init hr hu j e i)

/-- A real entry that is at least 0 is a non-negative real. -/
theorem nonnegReal {s : Shape} (a : s.Idx → EReal) (hr : Cert.Spec.AllReal a) (h0 : ∀ i, 0 ≤ a i) (i : s.Idx) :
    ∃ r : ℝ, 0 ≤ r ∧ a i = (r : EReal) := by
  obtain ⟨r, e⟩ := hr i
  exact ⟨r, by have := h0 i; rw [e] at this; exact_mod_cast this, e⟩

/-- The precondition decoded: every float argument has only real entries, and the three variance vectors only
    non-negative real entries. The precondition's value at the one scalar index is a left-nested conjunction of
    twenty-four one-bit scalars, in the order of the arguments, the three sign conditions last. -/
theorem inputs_real [Cert.Pre_finite_inputs.Facts]
    (a0 : FVec Ideal Cert.Pre_finite_inputs.S100000x8 .f32) (a1 : IVec Cert.Pre_finite_inputs.S2x1600000 32) (a2 : FVec Ideal Cert.Pre_finite_inputs.S8x64 .f32)
    (a3 : FVec Ideal Cert.Pre_finite_inputs.S64 .f32) (a4 : FVec Ideal Cert.Pre_finite_inputs.S64 .f32) (a5 : FVec Ideal Cert.Pre_finite_inputs.S64 .f32) (a6 : FVec Ideal Cert.Pre_finite_inputs.S64 .f32) (a7 : FVec Ideal Cert.Pre_finite_inputs.S64 .f32)
    (a8 : FVec Ideal Cert.Pre_finite_inputs.S64x64 .f32) (a9 : FVec Ideal Cert.Pre_finite_inputs.S64 .f32) (a10 : FVec Ideal Cert.Pre_finite_inputs.S64 .f32)
    (a11 : FVec Ideal Cert.Pre_finite_inputs.S64 .f32) (a12 : FVec Ideal Cert.Pre_finite_inputs.S64 .f32) (a13 : FVec Ideal Cert.Pre_finite_inputs.S64 .f32)
    (a14 : FVec Ideal Cert.Pre_finite_inputs.S64x32 .f32) (a15 : FVec Ideal Cert.Pre_finite_inputs.S32 .f32) (a16 : FVec Ideal Cert.Pre_finite_inputs.S32 .f32)
    (a17 : FVec Ideal Cert.Pre_finite_inputs.S32 .f32) (a18 : FVec Ideal Cert.Pre_finite_inputs.S32 .f32) (a19 : FVec Ideal Cert.Pre_finite_inputs.S32 .f32)
    (a20 : FVec Ideal Cert.Pre_finite_inputs.S32x2 .f32) (a21 : FVec Ideal Cert.Pre_finite_inputs.S2 .f32)
    (h : Cert.Pre_finite_inputs.fn (F := Ideal) a0 a1 a2 a3 a4 a5 a6 a7 a8 a9 a10 a11 a12 a13 a14 a15 a16 a17 a18 a19 a20 a21 = (fun _ => 1#1)) :
    Cert.Spec.AllReal a0 ∧ Cert.Spec.AllReal a2 ∧ Cert.Spec.AllReal a3 ∧ Cert.Spec.AllReal a4 ∧ Cert.Spec.AllReal a5 ∧ Cert.Spec.AllReal a6 ∧ Cert.Spec.AllReal a7 ∧ Cert.Spec.AllReal a8 ∧ Cert.Spec.AllReal a9 ∧ Cert.Spec.AllReal a10 ∧ Cert.Spec.AllReal a11 ∧ Cert.Spec.AllReal a12 ∧ Cert.Spec.AllReal a13 ∧ Cert.Spec.AllReal a14 ∧ Cert.Spec.AllReal a15 ∧ Cert.Spec.AllReal a16 ∧ Cert.Spec.AllReal a17 ∧ Cert.Spec.AllReal a18 ∧ Cert.Spec.AllReal a19 ∧ Cert.Spec.AllReal a20 ∧ Cert.Spec.AllReal a21
      ∧ (∀ i, ∃ r : ℝ, 0 ≤ r ∧ a7 i = (r : EReal)) ∧ (∀ i, ∃ r : ℝ, 0 ≤ r ∧ a13 i = (r : EReal)) ∧ (∀ i, ∃ r : ℝ, 0 ≤ r ∧ a19 i = (r : EReal)) := by
  have e := congrFun h ix0
  dsimp only [fn, fn_part1, fn_part2, fn_part3, fn_part4, fn_part5, fn_part6] at e
  simp only [and_scalar] at e
  obtain ⟨⟨⟨⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, h21⟩, g7⟩, g13⟩, g19⟩ := e
  have r0 : Cert.Spec.AllReal a0 := allReal_of_all a0 _ _ _ _ _ h0
  have r2 : Cert.Spec.AllReal a2 := allReal_of_all a2 _ _ _ _ _ h2
  have r3 : Cert.Spec.AllReal a3 := allReal_of_all a3 _ _ _ _ _ h3
  have r4 : Cert.Spec.AllReal a4 := allReal_of_all a4 _ _ _ _ _ h4
  have r5 : Cert.Spec.AllReal a5 := allReal_of_all a5 _ _ _ _ _ h5
  have r6 : Cert.Spec.AllReal a6 := allReal_of_all a6 _ _ _ _ _ h6
  have r7 : Cert.Spec.AllReal a7 := allReal_of_all a7 _ _ _ _ _ h7
  have r8 : Cert.Spec.AllReal a8 := allReal_of_all a8 _ _ _ _ _ h8
  have r9 : Cert.Spec.AllReal a9 := allReal_of_all a9 _ _ _ _ _ h9
  have r10 : Cert.Spec.AllReal a10 := allReal_of_all a10 _ _ _ _ _ h10
  have r11 : Cert.Spec.AllReal a11 := allReal_of_all a11 _ _ _ _ _ h11
  have r12 : Cert.Spec.AllReal a12 := allReal_of_all a12 _ _ _ _ _ h12
  have r13 : Cert.Spec.AllReal a13 := allReal_of_all a13 _ _ _ _ _ h13
  have r14 : Cert.Spec.AllReal a14 := allReal_of_all a14 _ _ _ _ _ h14
  have r15 : Cert.Spec.AllReal a15 := allReal_of_all a15 _ _ _ _ _ h15
  have r16 : Cert.Spec.AllReal a16 := allReal_of_all a16 _ _ _ _ _ h16
  have r17 : Cert.Spec.AllReal a17 := allReal_of_all a17 _ _ _ _ _ h17
  have r18 : Cert.Spec.AllReal a18 := allReal_of_all a18 _ _ _ _ _ h18
  have r19 : Cert.Spec.AllReal a19 := allReal_of_all a19 _ _ _ _ _ h19
  have r20 : Cert.Spec.AllReal a20 := allReal_of_all a20 _ _ _ _ _ h20
  have r21 : Cert.Spec.AllReal a21 := allReal_of_all a21 _ _ _ _ _ h21
  exact ⟨r0, r2, r3, r4, r5, r6, r7, r8, r9, r10, r11, r12, r13, r14, r15, r16, r17, r18, r19, r20, r21,
    nonnegReal a7 r7 (nonneg_of_all a7 _ _ _ _ _ g7), nonnegReal a13 r13 (nonneg_of_all a13 _ _ _ _ _ g13),
    nonnegReal a19 r19 (nonneg_of_all a19 _ _ _ _ _ g19)⟩

end Cert.Finite

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.SpecLin.lean ====
/-
  Matrix products and row sums of real entries have real entries.

  A finite sum of products of real numbers is a real number: with real witnesses chosen for every entry of the two
  operands, entry `(p, q)` of the product is the image of the real sum of the witnesses' products, because the
  inclusion of the reals in the extended reals respects products and finite sums. Adding a vector to every row adds
  two reals entry by entry.
-/
import proofs.«153305_j4758823764428_1_alg».proof.Proof.Spec
import proofs.«153305_j4758823764428_1_alg».proof.Proof.LibSumSwap

noncomputable section

open scoped BigOperators

namespace Cert.Spec

open Idealize.ShloMosaic Idealize.ShloMosaic.ValueIdx

/-- The matrix product of two arrays of reals is an array of reals. -/
theorem lin_real {M K N : ℕ} {x : (⟨2, ![M, K]⟩ : Shape).Idx → EReal} {w : (⟨2, ![K, N]⟩ : Shape).Idx → EReal} :
    AllReal x → AllReal w → AllReal (lin x w) := by
  intro hx hw j
  choose fx hfx using hx
  choose fw hfw using hw
  refine ⟨∑ k : Fin K, fx (ix2 (j 0) k) * fw (ix2 k (j 1)), ?_⟩
  show ∑ k : Fin K, x (ix2 (j 0) k) * w (ix2 k (j 1)) = _
  rw [SumSwap.coe_sum]
  refine Finset.sum_congr rfl fun k _ => ?_
  rw [hfx, hfw, EReal.coe_mul]

/-- A real vector added to every row of a real array gives a real array. -/
theorem addRow_real {M D : ℕ} {a : (⟨2, ![M, D]⟩ : Shape).Idx → EReal} {b : (⟨1, ![D]⟩ : Shape).Idx → EReal} :
    AllReal a → AllReal b → AllReal (addRow a b) := by
  intro ha hb j
  obtain ⟨r, hr⟩ := ha j
  obtain ⟨s, hs⟩ := hb (ix1 (j 1))
  refine ⟨r + s, ?_⟩
  show a j + b (ix1 (j 1)) = _
  rw [hr, hs, EReal.coe_add]

end Cert.Spec

end
-- ==== Proof.SpecBn.lean ====
/-
  Realness of the normalisation step: the epsilon is a positive real number, and bias, batch normalisation and
  rectification send real entries, real parameters and a non-negative real variance to real entries.
-/
import proofs.«153305_j4758823764428_1_alg».proof.Proof.Spec

noncomputable section

namespace Cert.Spec

open Idealize.ShloMosaic Idealize.ShloMosaic.ValueIdx

/-- The batch-normalisation epsilon is a positive real number: its word has sign bit 0, exponent field 110 and
    fraction field 2606508, so it denotes `(2^23 + 2606508) · 2^(110 − 127 − 23)`. -/
theorem eps_pos : ∃ r : ℝ, 0 < r ∧ Cert.Spec.eps = (r : EReal) := by
  refine ⟨((2 ^ 23 + 2606508 : ℕ) : ℝ) * (2 : ℝ) ^ ((110 : ℤ) - 127 - 23), by positivity, ?_⟩
  unfold Cert.Spec.eps
  simp [Ideal.ofBits, Ideal.ieee, -EReal.coe_mul]

/-- The reciprocal square root of a positive real number is a real number. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- Bias, normalisation and rectification of real entries with real parameters and a non-negative real variance is
    real: the variance plus epsilon is a positive real, its reciprocal square root a real, and sums, differences,
    products and the larger of two reals are real. -/
theorem bnrelu_real {M D : ℕ} {a : (⟨2, ![M, D]⟩ : Shape).Idx → EReal} {b g be rm rv : (⟨1, ![D]⟩ : Shape).Idx → EReal}
    (ha : AllReal a) (hb : AllReal b) (hg : AllReal g) (hbe : AllReal be) (hrm : AllReal rm)
    (hrv : ∀ i, ∃ r : ℝ, 0 ≤ r ∧ rv i = (r : EReal)) : AllReal (bnrelu a b g be rm rv) := by
  intro j
  obtain ⟨ra, ea⟩ := ha j
  obtain ⟨rb, eb⟩ := hb (ix1 (j 1))
  obtain ⟨rg, eg⟩ := hg (ix1 (j 1))
  obtain ⟨rbe, ebe⟩ := hbe (ix1 (j 1))
  obtain ⟨rrm, erm⟩ := hrm (ix1 (j 1))
  obtain ⟨rrv, hrv0, erv⟩ := hrv (ix1 (j 1))
  obtain ⟨re, hre, ee⟩ := eps_pos
  have hpos : 0 < rrv + re := by linarith
  refine ⟨max ((((ra + rb) - rrm) * (Real.sqrt (rrv + re))⁻¹) * rg + rbe) 0, ?_⟩
  show max ((((a j + b (ix1 (j 1))) - rm (ix1 (j 1))) * Ideal.rsqrt (rv (ix1 (j 1)) + eps)) * g (ix1 (j 1))
    + be (ix1 (j 1))) 0 = _
  rw [ea, eb, eg, ebe, erm, erv, ee, ← EReal.coe_add rrv re, rsqrt_coe_of_pos hpos,
    ← EReal.coe_add, ← EReal.coe_sub, ← EReal.coe_mul, ← EReal.coe_mul, ← EReal.coe_add, ← EReal.coe_zero,
    ← EReal.coe_strictMono.monotone.map_max]

end Cert.Spec

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.LibGatherVec.lean ====
/-
  A gather `x[idx]` of a vector `x : [N]` on the host, read at an index.

  `x[idx]` for a vector `x` and an integer array `idx` lowers to a gather with one collapsed axis (the vector's only
  axis), no offset axis (each start index picks one scalar) and a trailing index-vector axis of extent one on the
  start indices. Result entry `r` is the vector's entry at the position the start index names: the start index is
  read as a signed integer and clamped into `[0, N − 1]`, so every integer names a position. The statement takes the
  dimension numbers as a record built from the literal lists; a printed record with the same lists is equal to it by
  `rfl`.
-/
import Idealize.ShloMosaic.Lib.ValueIdx
import proofs.«153305_j4758823764428_1_alg».proof.Proof.LibGatherRows

noncomputable section

namespace Cert.LibGatherVec

open Idealize.ShloMosaic Idealize.ShloMosaic.ValueIdx
open Cert.LibGatherRows (clampRow)

variable {α : Type}

/-- The dimension numbers of `x[idx]` for a vector `[N]` and start indices `[R, 1]`, result `[R]`. -/
abbrev vecDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section Vec
variable {N R w : ℕ}
  (wf : GatherDims.WF ⟨1, ![N]⟩ ⟨2, ![R, 1]⟩ ⟨1, ![R]⟩ [] [0] [] [0] [] 1 ![1])
  (idx : IVec ⟨2, ![R, 1]⟩ w) (r : Fin R)

/-- On the vector's axis the operand coordinate is the clamped start index: no batching, and the axis is collapsed. -/
theorem vec_axis0 :
    (vecDims N R wf).start (ix1 r) idx 0 + (vecDims N R wf).batchCoord (ix1 r) 0
      + (vecDims N R wf).offCoord (ix1 r) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Vec

/-- Entry `r` of the gather is the vector's entry at the clamped start index `idx (r, 0)`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampRow N hN (idx (ix2 r (0 : Fin 1))))) := by
  unfold Host.gather
  congr 1
  funext a
  refine Fin.ext ?_
  match a with
  | ⟨0, _⟩ => exact vec_axis0 wf idx r

end Cert.LibGatherVec

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibScatterAddVec.lean ====
/-
  An accumulating scatter `x.at[idx].add(u)` of a vector `x : [N]` on the host, on the extended reals, read at an
  index.

  Summing the entries of `u : [E]` into the entries of `x` that an integer vector `idx` names lowers to a scatter
  whose body is an addition, with one inserted window axis (the vector's only axis), no update window axis (each
  scatter index carries one scalar) and a trailing index-vector axis of extent one on the scatter indices. Update
  entry `e` lands on entry `i` of the vector exactly when the scatter index `idx (e, 0)`, read as a signed integer,
  is `i`; an index outside `[0, N)` lands nowhere and its entry is dropped. So entry `i` of the result is

      x i + ∑ over the e with idx (e, 0) = i of u e,

  the sum running over the same set of positions as for a table of rows scattered by the same indices.
  The statement takes the dimension numbers as a record built from the literal lists; a printed record with the same
  lists is equal to it by `rfl`.
-/
import Idealize.ShloMosaic.PureOps.Ideal.Laws
import Idealize.ShloMosaic.Lib.ValueIdx
import proofs.«153305_j4758823764428_1_alg».proof.Proof.LibScatterAddRows

noncomputable section

open scoped BigOperators

namespace Cert.LibScatterAddVec

open Idealize.ShloMosaic Idealize.ShloMosaic.ValueIdx
open Cert.LibScatterAddRows (landing)

/-- The dimension numbers of `x.at[idx].add(u)` for a vector `[N]`, scatter indices `[E, 1]`, updates `[E]`. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : ℕ} (wf : ScatterDims.WF ⟨1, ![N]⟩ ⟨2, ![E, 1]⟩ ⟨1, ![E]⟩ [] [0] [0] 1)
  (idx : IVec ⟨2, ![E, 1]⟩ w) (e : Fin E)

/-- On the vector's axis the window starts at the scatter index `idx (e, 0)`, read signed. -/
theorem start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem zero_not_mem_sKept : (0 : Fin 1) ∉ (vecDims N E wf).sKept := by
  simp [ScatterDims.sKept, Shape.kept]

/-- The vector's axis is inserted: the window coordinate there is zero. -/
theorem window_zero : (vecDims N E wf).window (ix1 e) 0 = 0 := by
  unfold ScatterDims.window
  rw [dif_neg (zero_not_mem_sKept wf)]

end Coordinates

section Landing
variable {N E w : ℕ} (wf : ScatterDims.WF ⟨1, ![N]⟩ ⟨2, ![E, 1]⟩ ⟨1, ![E]⟩ [] [0] [0] 1)
  (idx : IVec ⟨2, ![E, 1]⟩ w)

/-- Update entry `e` lands on entry `i` of the vector exactly when its scatter index, read signed, is `i`. -/
theorem resultIdx?_vec (e : Fin E) (i : Fin N) :
    (vecDims N E wf).resultIdx? (ix1 e) idx = some (ix1 i) ↔ (idx (ix2 e (0 : Fin 1))).toInt = (i.val : ℤ) := by
  unfold ScatterDims.resultIdx?
  split
  · rename_i h
    rw [Option.some.injEq]
    have hr := h 0
    rw [start_zero, window_zero] at hr
    constructor
    · intro hf
      have h0 : ((vecDims N E wf).start (ix1 e) idx 0 + ((vecDims N E wf).window (ix1 e) 0 : ℕ)).toNat = i.val :=
        congrArg (fun f => (f 0).val) hf
      rw [start_zero, window_zero] at h0
      omega
    · intro h0
      funext a
      refine Fin.ext ?_
      match a with
      | ⟨0, _⟩ =>
        show ((vecDims N E wf).start (ix1 e) idx 0 + ((vecDims N E wf).window (ix1 e) 0 : ℕ)).toNat = i.val
        rw [start_zero, window_zero]; omega
  · rename_i h
    constructor
    · intro hf; exact absurd hf (by simp)
    · intro h0
      exfalso
      apply h
      intro a
      match a with
      | ⟨0, _⟩ =>
        show 0 ≤ (vecDims N E wf).start (ix1 e) idx 0 + ((vecDims N E wf).window (ix1 e) 0 : ℕ)
          ∧ (vecDims N E wf).start (ix1 e) idx 0 + ((vecDims N E wf).window (ix1 e) 0 : ℕ) < (N : ℤ)
        rw [start_zero, window_zero, h0]
        have := i.isLt
        constructor <;> omega

/-- THE ACCUMULATING SCATTER READ AT `i`: the vector's entry plus the updates summed over the positions whose
    scatter index is `i`. -/
theorem hostScatterAdd_vec_apply (x : (⟨1, ![N]⟩ : Shape).Idx → EReal) (upd : (⟨1, ![E]⟩ : Shape).Idx → EReal)
    (i : Fin N) :
    Ideal.hostScatterAdd (vecDims N E wf) x idx upd (ix1 i) = x (ix1 i) + ∑ e ∈ landing idx i.val, upd (ix1 e) := by
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultIdx?_vec wf idx e i).mp (Finset.mem_filter.mp hj).2⟩
  · intro e he
    exact Finset.mem_filter.mpr ⟨Finset.mem_univ _, (resultIdx?_vec wf idx e i).mpr (Finset.mem_filter.mp he).2⟩
  · intro j _
    exact (eq_ix1 j).symm
  · intro e _
    rfl
  · intro j _
    exact congrArg upd (eq_ix1 j)

end Landing

/-- The same for a printed `stablehlo.scatter` with an `add` body whose dimension numbers are these lists. -/
theorem scatterAdd_vec_apply {N E w : ℕ} {φ : FTy}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecDims N E wf)
    (idx : IVec ⟨2, ![E, 1]⟩ w) (x : FVec Ideal ⟨1, ![N]⟩ φ) (upd : FVec Ideal ⟨1, ![E]⟩ φ) (i : Fin N) :
    Host.scatterAdd d x idx upd (ix1 i) = x (ix1 i) + ∑ e ∈ landing idx i.val, upd (ix1 e) := by
  subst hd
  exact hostScatterAdd_vec_apply wf idx x upd i

end Cert.LibScatterAddVec

end
-- ==== Proof.AggReal.lean ====
/-
  The graph aggregation maps arrays of real numbers to arrays of real numbers, whatever the edge list holds.

  Why. A node's degree is one plus a count of edges, so it is a real number that is at least one; its inverse
  square root is therefore a real number (the inverse square root leaves the reals only at zero, at negative numbers
  and at the infinities). A gather reads, at every position, SOME entry of the array it reads from — an index outside
  the array is clamped into it — so a gather of reals holds reals. The edge normalisation is a product of two
  gathered inverse square roots, the self-loop normalisation the square of one: reals. An accumulating scatter into
  zeros holds, at every position, zero plus a finite sum of some of the scattered entries, each a product of a
  gathered feature and a normalisation: a finite sum of reals. The aggregate adds to that the node's own feature
  times its self-loop normalisation.
-/
import proofs.«153305_j4758823764428_1_alg».proof.Proof.Agg
import proofs.«153305_j4758823764428_1_alg».proof.Proof.Spec
import proofs.«153305_j4758823764428_1_alg».proof.Proof.LibGatherRows
import proofs.«153305_j4758823764428_1_alg».proof.Proof.LibGatherVec
import proofs.«153305_j4758823764428_1_alg».proof.Proof.LibScatterAddRows
import proofs.«153305_j4758823764428_1_alg».proof.Proof.LibScatterAddVec
import Idealize.ShloMosaic.PureOps.Ideal.Laws
import Idealize.ShloMosaic.Lib.ValueIdx

noncomputable section

open scoped BigOperators

namespace Cert.AggReal

open Cert.ReferenceIdeal Cert.ReferenceIdeal.ReadP Idealize.ShloMosaic Idealize.ShloMosaic.ValueIdx
open Cert.Spec (AllReal)

/-! ## Real numbers inside the extended reals -/

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is a real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => rw [Finset.sum_empty]; exact real_zero
  | insert i s hi ih =>
    rw [Finset.sum_insert hi]
    exact real_add (h i (Finset.mem_insert_self i s)) (ih fun j hj => h j (Finset.mem_insert_of_mem hj))

/-- A finite sum of non-negative reals is a non-negative real. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => rw [Finset.sum_empty]; exact ⟨0, le_refl 0, EReal.coe_zero.symm⟩
  | insert i s hi ih =>
    rw [Finset.sum_insert hi]
    obtain ⟨a, ha0, ha⟩ := h i (Finset.mem_insert_self i s)
    obtain ⟨b, hb0, hb⟩ := ih fun j hj => h j (Finset.mem_insert_of_mem hj)
    exact ⟨a + b, add_nonneg ha0 hb0, by rw [ha, hb, EReal.coe_add]⟩

/-- The word of the number one. -/
theorem one_word : Ideal.ofBits .f32 0x3F800000#32 = ((1 : ℝ) : EReal) := by
  rw [EReal.coe_one]
  simp [Ideal.ofBits, Ideal.ieee, -EReal.coe_mul]
  norm_num

/-- The inverse square root of a positive real is a real. -/
theorem rsqrt_real {r : ℝ} (hr : 0 < r) : ∃ q : ℝ, Ideal.rsqrt (r : EReal) = (q : EReal) :=
  ⟨(Real.sqrt r)⁻¹, by
    show (if r < 0 then (⊥ : EReal) else if r = 0 then ⊤ else (((Real.sqrt r)⁻¹ : ℝ) : EReal)) = _
    rw [if_neg (not_lt.mpr hr.le), if_neg hr.ne']⟩

/-! ## The host operations, for arrays of any size -/

/-- Scattering ones into zeros counts: every entry of the result is a non-negative real. -/
theorem scatter_count_nonneg {N E w : ℕ}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = Cert.LibScatterAddVec.vecDims N E wf)
    (idx : IVec ⟨2, ![E, 1]⟩ w) (z : FVec Ideal ⟨1, ![N]⟩ .f32) (u : FVec Ideal ⟨1, ![E]⟩ .f32)
    (hz : ∀ j, z j = 0) (hu : ∀ j, u j = ((1 : ℝ) : EReal)) (i : Fin N) :
    ∃ r : ℝ, 0 ≤ r ∧ Host.scatterAdd d z idx u (ix1 i) = (r : EReal) := by
  obtain ⟨s, hs0, hs⟩ := nonneg_sum (Cert.LibScatterAddRows.landing idx i.val) (fun e => u (ix1 e))
    (fun e _ => ⟨1, zero_le_one, hu _⟩)
  refine ⟨s, hs0, (Cert.LibScatterAddVec.scatterAdd_vec_apply wf d hd idx z u i).trans ?_⟩
  rw [hz, zero_add, hs]

/-- A gather from a vector of reals holds reals. -/
theorem gather_vec_real {N R w : ℕ} (hN : 0 < N)
    (wf : GatherDims.WF ⟨1, ![N]⟩ ⟨2, ![R, 1]⟩ ⟨1, ![R]⟩ [] [0] [] [0] [] 1 ![1])
    (d : GatherDims ⟨1, ![N]⟩ ⟨2, ![R, 1]⟩ ⟨1, ![R]⟩) (hd : d = Cert.LibGatherVec.vecDims N R wf)
    (x : (⟨1, ![N]⟩ : Shape).Idx → EReal) (idx : IVec ⟨2, ![R, 1]⟩ w) (hx : AllReal x) :
    AllReal (Host.gather d x idx) := by
  subst hd
  intro j
  obtain ⟨r, rfl⟩ : ∃ r : Fin R, j = ix1 r := ⟨j 0, eq_ix1 j⟩
  rw [Cert.LibGatherVec.gather_vec_apply hN wf x idx r]
  exact hx _

/-- The aggregate of real features under real normalisations is real: zero, plus a finite sum of products of a
    gathered feature and an edge normalisation, plus the node's feature times its self-loop normalisation. -/
theorem agg_real {N D E w : ℕ} (hN : 0 < N)
    (swf : ScatterDims.WF ⟨2, ![N, D]⟩ ⟨2, ![E, 1]⟩ ⟨2, ![E, D]⟩ [1] [0] [0] 1)
    (sd : ScatterDims ⟨2, ![N, D]⟩ ⟨2, ![E, 1]⟩ ⟨2, ![E, D]⟩) (hsd : sd = Cert.LibScatterAddRows.rowDims N D E swf)
    (gwf : GatherDims.WF ⟨2, ![N, D]⟩ ⟨2, ![E, 1]⟩ ⟨2, ![E, D]⟩ [1] [0] [] [0] [] 1 ![1, D])
    (gd : GatherDims ⟨2, ![N, D]⟩ ⟨2, ![E, 1]⟩ ⟨2, ![E, D]⟩) (hgd : gd = Cert.LibGatherRows.rowDims2 N D E gwf)
    (zeros : FVec Ideal ⟨2, ![N, D]⟩ .f32) (sidx gidx : IVec ⟨2, ![E, 1]⟩ w)
    (h : FVec Ideal ⟨2, ![N, D]⟩ .f32) (nrm : FVec Ideal ⟨2, ![E, D]⟩ .f32) (self : FVec Ideal ⟨2, ![N, D]⟩ .f32)
    (hz : ∀ j, zeros j = 0) (hh : AllReal h) (hn : AllReal nrm) (hs : AllReal self) :
    AllReal (addf (F := Ideal) (Host.scatterAdd sd zeros sidx (mulf (F := Ideal) (Host.gather gd h gidx) nrm))
      (mulf (F := Ideal) h self)) := by
  subst hgd
  intro j
  obtain ⟨i, c, rfl⟩ : ∃ (i : Fin N) (c : Fin D), j = ix2 i c := ⟨j 0, j 1, eq_ix2 j⟩
  show ∃ r : ℝ, Host.scatterAdd sd zeros sidx
      (mulf (F := Ideal) (Host.gather (Cert.LibGatherRows.rowDims2 N D E gwf) h gidx) nrm) (ix2 i c)
        + h (ix2 i c) * self (ix2 i c) = (r : EReal)
  rw [Cert.LibScatterAddRows.scatterAdd_rows_apply swf sidx sd hsd zeros _ i c, hz]
  refine real_add (real_add real_zero (real_sum _ _ fun e _ => ?_)) (real_mul (hh _) (hs _))
  show ∃ r : ℝ, Host.gather (Cert.LibGatherRows.rowDims2 N D E gwf) h gidx (ix2 e c) * nrm (ix2 e c) = (r : EReal)
  rw [Cert.LibGatherRows.gather_rows2_apply hN gwf h gidx e c]
  exact real_mul (hh _) (hn _)

/-! ## The normalisations of the edge list

The first two layers use one computation of the degrees and normalisations; the third layer computes them again from
the edge list by the same operations. The same facts are stated for each. -/

section Norms
variable (x1 : (⟨S2x1600000, .i32⟩ : BufTy).Contents (Elt Ideal))

/-! ### As the 64-wide aggregations use them -/

theorem ones_edges (j : S1600000.Idx) : val_main_v5 (F := Ideal) j = ((1 : ℝ) : EReal) :=
  (val_main_v5_apply (F := Ideal) j).trans one_word

theorem zeros_nodes (j : S100000.Idx) : val_main_v6 (F := Ideal) j = 0 :=
  (val_main_v6_apply (F := Ideal) j).trans Ideal.ofBits_zero_f32

theorem ones_nodes (j : S100000.Idx) : val_main_v9 (F := Ideal) j = ((1 : ℝ) : EReal) :=
  (val_main_v9_apply (F := Ideal) j).trans one_word

/-- The number of edges arriving at a node is a non-negative real. -/
theorem count_nonneg (i : Fin 100000) : ∃ r : ℝ, 0 ≤ r ∧ val_main_v8 (F := Ideal) x1 (ix1 i) = (r : EReal) := by
  unfold val_main_v8
  exact scatter_count_nonneg scatter_S100000_S1600000x1_S1600000_n_0_0_1.wf scatter_S100000_S1600000x1_S1600000_n_0_0_1 rfl
    (val_main_v7 (F := Ideal) x1) (val_main_v6 (F := Ideal)) (val_main_v5 (F := Ideal)) zeros_nodes ones_edges i

/-- The inverse square root of the degree, one plus that count, is a real. -/
theorem dinv_real : AllReal (val_main_v11 (F := Ideal) x1) := by
  intro j
  obtain ⟨i, rfl⟩ : ∃ i : Fin 100000, j = ix1 i := ⟨j 0, eq_ix1 j⟩
  obtain ⟨s, hs0, hs⟩ := count_nonneg x1 i
  rw [val_main_v11_apply, Ideal.hostUnary_rsqrt_def, val_main_v10_apply, Ideal.addf_def, hs, ones_nodes, ← EReal.coe_add]
  exact rsqrt_real (by linarith)

theorem src_dinv_real : AllReal (val_main_v18 (F := Ideal) x1) := by
  unfold val_main_v18
  exact gather_vec_real (by norm_num) gather_S100000_S1600000x1_S1600000_n_0_n_n_0_1_1.wf
    gather_S100000_S1600000x1_S1600000_n_0_n_n_0_1_1 rfl (val_main_v11 (F := Ideal) x1) (val_main_v17 (F := Ideal) x1)
    (dinv_real x1)

theorem dst_dinv_real : AllReal (val_main_v25 (F := Ideal) x1) := by
  unfold val_main_v25
  exact gather_vec_real (by norm_num) gather_S100000_S1600000x1_S1600000_n_0_n_n_0_1_1.wf
    gather_S100000_S1600000x1_S1600000_n_0_n_n_0_1_1 rfl (val_main_v11 (F := Ideal) x1) (val_main_v24 (F := Ideal) x1)
    (dinv_real x1)

/-- The edge normalisation, the product of the two endpoints' inverse square roots, is real. -/
theorem edge_norm_real : AllReal (val_main_v26 (F := Ideal) x1) := by
  intro j
  rw [val_main_v26_apply, Ideal.mulf_def]
  exact real_mul (src_dinv_real x1 j) (dst_dinv_real x1 j)

theorem edge_col_real : AllReal (val_main_v34 (F := Ideal) x1) := fun j => by
  rw [val_main_v34_apply]; exact edge_norm_real x1 _

/-- The self-loop normalisation, the square of the node's inverse square root, is real. -/
theorem self_norm_real : AllReal (val_main_v40 (F := Ideal) x1) := by
  intro j
  rw [val_main_v40_apply, Ideal.mulf_def]
  exact real_mul (dinv_real x1 j) (dinv_real x1 j)

theorem self_col_real : AllReal (val_main_v41 (F := Ideal) x1) := fun j => by
  rw [val_main_v41_apply]; exact self_norm_real x1 _

/-- Both normalisations spread along the 64 features. -/
theorem edge64_real : AllReal (val_main_v35 (F := Ideal) x1) := fun j => by
  rw [val_main_v35_apply]; exact edge_col_real x1 _

theorem self64_real : AllReal (val_main_v42 (F := Ideal) x1) := fun j => by
  rw [val_main_v42_apply]; exact self_col_real x1 _

theorem zeros64 (j : S100000x64.Idx) : val_main_v37 (F := Ideal) j = 0 :=
  (val_main_v37_apply (F := Ideal) j).trans Ideal.ofBits_zero_f32

/-! ### As the 32-wide aggregation uses them -/

theorem ones_edges' (j : S1600000.Idx) : val_main_v125 (F := Ideal) j = ((1 : ℝ) : EReal) :=
  (val_main_v125_apply (F := Ideal) j).trans one_word

theorem zeros_nodes' (j : S100000.Idx) : val_main_v126 (F := Ideal) j = 0 :=
  (val_main_v126_apply (F := Ideal) j).trans Ideal.ofBits_zero_f32

theorem ones_nodes' (j : S100000.Idx) : val_main_v129 (F := Ideal) j = ((1 : ℝ) : EReal) :=
  (val_main_v129_apply (F := Ideal) j).trans one_word

/-- The number of edges arriving at a node is a non-negative real. -/
theorem count_nonneg' (i : Fin 100000) : ∃ r : ℝ, 0 ≤ r ∧ val_main_v128 (F := Ideal) x1 (ix1 i) = (r : EReal) := by
  unfold val_main_v128
  exact scatter_count_nonneg scatter_S100000_S1600000x1_S1600000_n_0_0_1.wf scatter_S100000_S1600000x1_S1600000_n_0_0_1 rfl
    (val_main_v127 (F := Ideal) x1) (val_main_v126 (F := Ideal)) (val_main_v125 (F := Ideal)) zeros_nodes' ones_edges' i

/-- The inverse square root of the degree, one plus that count, is a real. -/
theorem dinv_real' : AllReal (val_main_v131 (F := Ideal) x1) := by
  intro j
  obtain ⟨i, rfl⟩ : ∃ i : Fin 100000, j = ix1 i := ⟨j 0, eq_ix1 j⟩
  obtain ⟨s, hs0, hs⟩ := count_nonneg' x1 i
  rw [val_main_v131_apply, Ideal.hostUnary_rsqrt_def, val_main_v130_apply, Ideal.addf_def, hs, ones_nodes', ← EReal.coe_add]
  exact rsqrt_real (by linarith)

theorem src_dinv_real' : AllReal (val_main_v138 (F := Ideal) x1) := by
  unfold val_main_v138
  exact gather_vec_real (by norm_num) gather_S100000_S1600000x1_S1600000_n_0_n_n_0_1_1.wf
    gather_S100000_S1600000x1_S1600000_n_0_n_n_0_1_1 rfl (val_main_v131 (F := Ideal) x1) (val_main_v137 (F := Ideal) x1)
    (dinv_real' x1)

theorem dst_dinv_real' : AllReal (val_main_v145 (F := Ideal) x1) := by
  unfold val_main_v145
  exact gather_vec_real (by norm_num) gather_S100000_S1600000x1_S1600000_n_0_n_n_0_1_1.wf
    gather_S100000_S1600000x1_S1600000_n_0_n_n_0_1_1 rfl (val_main_v131 (F := Ideal) x1) (val_main_v144 (F := Ideal) x1)
    (dinv_real' x1)

/-- The edge normalisation, the product of the two endpoints' inverse square roots, is real. -/
theorem edge_norm_real' : AllReal (val_main_v146 (F := Ideal) x1) := by
  intro j
  rw [val_main_v146_apply, Ideal.mulf_def]
  exact real_mul (src_dinv_real' x1 j) (dst_dinv_real' x1 j)

theorem edge_col_real' : AllReal (val_main_v154 (F := Ideal) x1) := fun j => by
  rw [val_main_v154_apply]; exact edge_norm_real' x1 _

/-- The self-loop normalisation, the square of the node's inverse square root, is real. -/
theorem self_norm_real' : AllReal (val_main_v160 (F := Ideal) x1) := by
  intro j
  rw [val_main_v160_apply, Ideal.mulf_def]
  exact real_mul (dinv_real' x1 j) (dinv_real' x1 j)

theorem self_col_real' : AllReal (val_main_v161 (F := Ideal) x1) := fun j => by
  rw [val_main_v161_apply]; exact self_norm_real' x1 _

/-- Both normalisations spread along the 32 features. -/
theorem edge32_real : AllReal (val_main_v155 (F := Ideal) x1) := fun j => by
  rw [val_main_v155_apply]; exact edge_col_real' x1 _

theorem self32_real : AllReal (val_main_v162 (F := Ideal) x1) := fun j => by
  rw [val_main_v162_apply]; exact self_col_real' x1 _

theorem zeros32 (j : S100000x32.Idx) : val_main_v157 (F := Ideal) j = 0 :=
  (val_main_v157_apply (F := Ideal) j).trans Ideal.ofBits_zero_f32

end Norms

/-! ## The two aggregations -/

/-- The 64-wide aggregate of real features is real, for any edge list. -/
theorem agg64_real (h : (⟨S100000x64, .f32⟩ : BufTy).Contents (Elt Ideal)) (x1 : (⟨S2x1600000, .i32⟩ : BufTy).Contents (Elt Ideal))
    (hh : Cert.Spec.AllReal h) : Cert.Spec.AllReal (Cert.Agg.agg64 h x1) := by
  unfold Cert.Agg.agg64
  exact agg_real (by norm_num) scatter_S100000x64_S1600000x1_S1600000x64_1_0_0_1.wf
    scatter_S100000x64_S1600000x1_S1600000x64_1_0_0_1 rfl
    gather_S100000x64_S1600000x1_S1600000x64_1_0_n_n_0_1_164.wf
    gather_S100000x64_S1600000x1_S1600000x64_1_0_n_n_0_1_164 rfl
    (val_main_v37 (F := Ideal)) (val_main_v38 (F := Ideal) x1) (val_main_v32 (F := Ideal) x1) h
    (val_main_v35 (F := Ideal) x1) (val_main_v42 (F := Ideal) x1) zeros64 hh (edge64_real x1) (self64_real x1)

/-- The 32-wide aggregate of real features is real, for any edge list. -/
theorem agg32_real (h : (⟨S100000x32, .f32⟩ : BufTy).Contents (Elt Ideal)) (x1 : (⟨S2x1600000, .i32⟩ : BufTy).Contents (Elt Ideal))
    (hh : Cert.Spec.AllReal h) : Cert.Spec.AllReal (Cert.Agg.agg32 h x1) := by
  unfold Cert.Agg.agg32
  exact agg_real (by norm_num) scatter_S100000x32_S1600000x1_S1600000x32_1_0_0_1.wf
    scatter_S100000x32_S1600000x1_S1600000x32_1_0_0_1 rfl
    gather_S100000x32_S1600000x1_S1600000x32_1_0_n_n_0_1_132.wf
    gather_S100000x32_S1600000x1_S1600000x32_1_0_n_n_0_1_132 rfl
    (val_main_v157 (F := Ideal)) (val_main_v158 (F := Ideal) x1) (val_main_v152 (F := Ideal) x1) h
    (val_main_v155 (F := Ideal) x1) (val_main_v162 (F := Ideal) x1) zeros32 hh (edge32_real x1) (self32_real x1)

end Cert.AggReal

end
-- ==== Proof.Net.lean ====
/-
  The network's logits are real numbers when every float argument is real and the three running variances are
  nonnegative (so that `variance + ε` is positive under the reciprocal square root): every stage maps real arrays to
  real arrays — sums and products of reals, a reciprocal square root of a positive real, and an aggregation whose
  degree is at least one.
-/
import proofs.«153305_j4758823764428_1_alg».proof.Proof.NetDef
import proofs.«153305_j4758823764428_1_alg».proof.Proof.SpecLin
import proofs.«153305_j4758823764428_1_alg».proof.Proof.SpecBn
import proofs.«153305_j4758823764428_1_alg».proof.Proof.AggReal

noncomputable section

namespace Cert.Net

open Cert.ReferenceIdeal Idealize.ShloMosaic Cert.Spec Cert.Agg

variable {x0 : (⟨S100000x8, .f32⟩ : BufTy).Contents (Elt Ideal)} {x1 : (⟨S2x1600000, .i32⟩ : BufTy).Contents (Elt Ideal)}
  {x2 : (⟨S8x64, .f32⟩ : BufTy).Contents (Elt Ideal)} {x3 x4 x5 x6 x7 : (⟨S64, .f32⟩ : BufTy).Contents (Elt Ideal)}
  {x8 : (⟨S64x64, .f32⟩ : BufTy).Contents (Elt Ideal)} {x9 x10 x11 x12 x13 : (⟨S64, .f32⟩ : BufTy).Contents (Elt Ideal)}
  {x14 : (⟨S64x32, .f32⟩ : BufTy).Contents (Elt Ideal)} {x15 x16 x17 x18 x19 : (⟨S32, .f32⟩ : BufTy).Contents (Elt Ideal)}
  {x20 : (⟨S32x2, .f32⟩ : BufTy).Contents (Elt Ideal)} {x21 : (⟨S2, .f32⟩ : BufTy).Contents (Elt Ideal)}

/-- Real arguments and nonnegative running variances give real logits: every stage maps real arrays to real arrays
    (sums and products of reals; a reciprocal square root of a positive real; the aggregation's degree is at least one). -/
theorem logits_real (h0 : AllReal x0) (h2 : AllReal x2) (h3 : AllReal x3) (h4 : AllReal x4) (h5 : AllReal x5)
    (h6 : AllReal x6) (h7 : ∀ i, ∃ r : ℝ, 0 ≤ r ∧ x7 i = (r : EReal)) (h8 : AllReal x8) (h9 : AllReal x9)
    (h10 : AllReal x10) (h11 : AllReal x11) (h12 : AllReal x12) (h13 : ∀ i, ∃ r : ℝ, 0 ≤ r ∧ x13 i = (r : EReal))
    (h14 : AllReal x14) (h15 : AllReal x15) (h16 : AllReal x16) (h17 : AllReal x17) (h18 : AllReal x18)
    (h19 : ∀ i, ∃ r : ℝ, 0 ≤ r ∧ x19 i = (r : EReal)) (h20 : AllReal x20) (h21 : AllReal x21) :
    AllReal (logits x0 x1 x2 x3 x4 x5 x6 x7 x8 x9 x10 x11 x12 x13 x14 x15 x16 x17 x18 x19 x20 x21) := by
  have r1 : AllReal (layer1 x0 x1 x2 x3 x4 x5 x6 x7) :=
    bnrelu_real (Cert.AggReal.agg64_real _ x1 (lin_real h0 h2)) h3 h4 h5 h6 h7
  have r2 : AllReal (layer2 x0 x1 x2 x3 x4 x5 x6 x7 x8 x9 x10 x11 x12 x13) :=
    bnrelu_real (Cert.AggReal.agg64_real _ x1 (lin_real r1 h8)) h9 h10 h11 h12 h13
  have r3 : AllReal (layer3 x0 x1 x2 x3 x4 x5 x6 x7 x8 x9 x10 x11 x12 x13 x14 x15 x16 x17 x18 x19) :=
    bnrelu_real (Cert.AggReal.agg32_real _ x1 (lin_real r2 h14)) h15 h16 h17 h18 h19
  exact addRow_real (lin_real r3 h20) h21

end Cert.Net

end
-- ==== Proof.lean ====
/-
  The certificate: the Pallas graph-convolution classifier (three GCN layers with evaluation-mode batch
  normalisation and ReLU, then a linear head and a log-softmax over two classes) against its jnp reference, on the
  extended reals.

  Both programs compute, operation for operation, the same logits: the dense products are the same sums (a kernel's
  matrix unit into a zero accumulator against the host's product; the changes of float format are the identity), the
  gather / scatter-add aggregation is the same list of host operations on both sides, and the bias–normalise–rectify
  chain is the same pointwise formula. They differ in the last step only: the kernel writes `l − (m + log s)`, the
  reference's log-softmax `(l − m) − log s`, with `m` the row's larger logit and `s` the sum of the shifted
  exponentials. On real logits these are one number; at a logit `+∞` they are not (the first is `+∞`, the second
  `−∞`). The logits are real because every float input is finite and the three running variances are nonnegative,
  which keeps `(variance + ε)^(−1/2)` finite; the node degrees are at least one by the self-loop.

  The three frames are the programs' runs with the result dropped; the ideal pass rewrote nothing, so the kernel's
  idealization claim is trivial.
-/
import proofs.«153305_j4758823764428_1_alg».proof.Defs
import proofs.«153305_j4758823764428_1_alg».proof.Proof.Gen.Kernel
import proofs.«153305_j4758823764428_1_alg».proof.Proof.Gen.Kernel.Skeleton
import proofs.«153305_j4758823764428_1_alg».proof.Proof.Gen.Kernel.Launch
import proofs.«153305_j4758823764428_1_alg».proof.Proof.Gen.Kernel.Points
import proofs.«153305_j4758823764428_1_alg».proof.Proof.Gen.Kernel.Frame
import proofs.«153305_j4758823764428_1_alg».proof.Proof.Gen.KernelIdeal
import proofs.«153305_j4758823764428_1_alg».proof.Proof.Gen.KernelIdeal.Skeleton
import proofs.«153305_j4758823764428_1_alg».proof.Proof.Gen.KernelIdeal.Launch
import proofs.«153305_j4758823764428_1_alg».proof.Proof.Gen.KernelIdeal.Points
import proofs.«153305_j4758823764428_1_alg».proof.Proof.Gen.KernelIdeal.Frame
import proofs.«153305_j4758823764428_1_alg».proof.Proof.Gen.ReferenceIdeal
import proofs.«153305_j4758823764428_1_alg».proof.Proof.RefOpsP
import proofs.«153305_j4758823764428_1_alg».proof.Proof.RefReadP
import proofs.«153305_j4758823764428_1_alg».proof.Proof.RefRun
import proofs.«153305_j4758823764428_1_alg».proof.Proof.Gen.Pre_finite_inputs
import proofs.«153305_j4758823764428_1_alg».proof.Proof.KRun
import proofs.«153305_j4758823764428_1_alg».proof.Proof.KValue
import proofs.«153305_j4758823764428_1_alg».proof.Proof.RValue
import proofs.«153305_j4758823764428_1_alg».proof.Proof.LogSoftmax
import proofs.«153305_j4758823764428_1_alg».proof.Proof.Finite
import proofs.«153305_j4758823764428_1_alg».proof.Proof.Net
import Idealize.ShloMosaic.Adequacy
import Idealize.ShloMosaic.Init

noncomputable section

namespace Cert.Proof

open Idealize.ShloMosaic Idealize.SL.Sem

/-- The word-level kernel program runs to the end from any memory, its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RunH.run m ρ)

/-- Run from memories that agree on the arguments, both idealized programs end with the logarithm of the softmax of
    the same real logits. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Spec.lsmOuter (M := 100000) (Cert.Net.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))), ?_, ?_⟩
  · exact (θ_run Cert.KernelIdeal.defs _ _).mono
      (fun r h c => ⟨(h c).1.trans (Cert.KValue.result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RunH.run m' ρ')
    rw [Cert.RValue.ref_value]
    obtain ⟨e0, e1, e2, e3, e4, e5, e6, e7, e8, e9, e10, e11, e12, e13, e14, e15, e16, e17, e18, e19, e20, e21⟩ := hagree c
    rw [e0, e1, e2, e3, e4, e5, e6, e7, e8, e9, e10, e11, e12, e13, e14, e15, e16, e17, e18, e19, e20, e21]
    obtain ⟨h0, h2, h3, h4, h5, h6, h7, h8, h9, h10, h11, h12, h13, h14, h15, h16, h17, h18, h19, h20, h21, v7, v13, v19⟩ :=
      Cert.Finite.inputs_real _ _ _ _ _ _ _ _ _ _ _ _ _ _ _ _ _ _ _ _ _ _ (hpre c)
    exact (Cert.Spec.lsm_eq _ (Cert.Net.logits_real h0 h2 h3 h4 h5 h6 v7 h8 h9 h10 h11 h12 v13 h14 h15 h16 h17 h18 v19 h20 h21)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
